-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x160000 : Shape := ⟨2, ![16, 160000]⟩
abbrev S_ : Shape := ⟨0, ![]⟩

class Facts : Prop where
  bcast_S_S16x160000 : S_.BroadcastsInDim S16x160000 (![] : Fin 0 → Fin S16x160000.rank)
  reducesTo_S16x160000_S_d0_1 : S16x160000.ReducesTo [0, 1] S_
  h_S_ : 0 < S_.numel

variable [Facts]

def fn {F : FTy → Type} [FloatOps F] (main_arg0 : FVec F S16x160000 .f32) : IVec S_ 1 :=
  let main_v0 : FVec F S16x160000 .f32 := Host.absf main_arg0
  let main_cst : FVec F S_ .f32 := constant S_ .f32 0x7F800000#32
  let main_v1 : FVec F S16x160000 .f32 := broadcastInDim S16x160000 ![] bcast_S_S16x160000 main_cst
  let main_v2 : IVec S16x160000 1 := cmpf .olt main_v0 main_v1
  let main_c : IVec S_ 1 := constantI S_ 1 1#1
  let main_v3 : IVec S_ 1 := (fun x v => Host.reduce IntOp.andi x v reducesTo_S16x160000_S_d0_1 h_S_) main_v2 main_c
  main_v3
-- ==== Kernel.lean ====
abbrev S16x160000 : Shape := ⟨2, ![16, 160000]⟩
abbrev S16x180x16000 : Shape := ⟨3, ![16, 180, 16000]⟩
abbrev S8 : Shape := ⟨1, ![8]⟩
abbrev S1 : Shape := ⟨1, ![1]⟩
abbrev S_ : Shape := ⟨0, ![]⟩
abbrev S1x1x16000 : Shape := ⟨3, ![1, 1, 16000]⟩
abbrev S16000 : Shape := ⟨1, ![16000]⟩
abbrev S1x16000 : Shape := ⟨2, ![1, 16000]⟩

abbrev nBuf : Space → Nat
  | .hbm => 2
  | .vmem => 0
  | .smem => 0
  | _ => 0

abbrev bufTy : (tb : Table) → Fin (tcTables nBuf tb) → BufTy
  | .hbm, ⟨0, _⟩ => ⟨S16x160000, .f32⟩
  | .hbm, ⟨1, _⟩ => ⟨S16x180x16000, .f32⟩
  | _, _ => ⟨S16x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c0_i32 : BitVec 32 := 0#32
  let c0_i32_1 : BitVec 32 := 0#32
  ![arg0.toNat, 0, 0]
def k0_off2 (i : grid0.Coords) : Fin 2 → Nat :=
  let arg0 : BitVec 32 := BitVec.ofNat 32 (i 0).val
  let c0_i32_2 : BitVec 32 := 0#32
  ![arg0.toNat, 0]
def k0_off3 (i : grid0.Coords) : Fin 3 → Nat :=
  let arg0 : BitVec 32 := BitVec.ofNat 32 (i 0).val
  let c1_i32 : BitVec 32 := 1#32
  let c0_i32_4 : BitVec 32 := 0#32
  ![arg0.toNat, 1, 0]
def k0_off4 (i : grid0.Coords) : Fin 2 → Nat :=
  let arg0 : BitVec 32 := BitVec.ofNat 32 (i 0).val
  let c800_i32 : BitVec 32 := 800#32
  ![arg0.toNat, 800]
def k0_off5 (i : grid0.Coords) : Fin 3 → Nat :=
  let arg0 : BitVec 32 := BitVec.ofNat 32 (i 0).val
  let c2_i32 : BitVec 32 := 2#32
  let c0_i32_6 : BitVec 32 := 0#32
  ![arg0.toNat, 2, 0]
def k0_off6 (i : grid0.Coords) : Fin 2 → Nat :=
  let arg0 : BitVec 32 := BitVec.ofNat 32 (i 0).val
  let c1600_i32 : BitVec 32 := 1600#32
  ![arg0.toNat, 1600]
def k0_off7 (i : grid0.Coords) : Fin 3 → Nat :=
  let arg0 : BitVec 32 := BitVec.ofNat 32 (i 0).val
  let c3_i32 : BitVec 32 := 3#32
  let c0_i32_8 : BitVec 32 := 0#32
  ![arg0.toNat, 3, 0]
def k0_off8 (i : grid0.Coords) : Fin 2 → Nat :=
  let arg0 : BitVec 32 := BitVec.ofNat 32 (i 0).val
  let c2400_i32 : BitVec 32 := 2400#32
  ![arg0.toNat, 2400]
def k0_off9 (i : grid0.Coords) : Fin 3 → Nat :=
  let arg0 : BitVec 32 := BitVec.ofNat 32 (i 0).val
  let c4_i32 : BitVec 32 := 4#32
  let c0_i32_10 : BitVec 32 := 0#32
  ![arg0.toNat, 4, 0]
def k0_off10 (i : grid0.Coords) : Fin 2 → Nat :=
  let arg0 : BitVec 32 := BitVec.ofNat 32 (i 0).val
  let c3200_i32 : BitVec 32 := 3200#32
  ![arg0.toNat, 3200]
def k0_off11 (i : grid0.Coords) : Fin 3 → Nat :=
  let arg0 : BitVec 32 := BitVec.ofNat 32 (i 0).val
  let c5_i32 : BitVec 32 := 5#32
  let c0_i32_12 : BitVec 32 := 0#32
  ![arg0.toNat, 5, 0]
def k0_off12 (i : grid0.Coords) : Fin 2 → Nat :=
  let arg0 : BitVec 32 := BitVec.ofNat 32 (i 0).val
  let c4000_i32 : BitVec 32 := 4000#32
  ![arg0.toNat, 4000]
def k0_off13 (i : grid0.Coords) : Fin 3 → Nat :=
  let arg0 : BitVec 32 := BitVec.ofNat 32 (i 0).val
  let c6_i32 : BitVec 32 := 6#32
  let c0_i32_14 : BitVec 32 := 0#32
  ![arg0.toNat, 6, 0]
def k0_off14 (i : grid0.Coords) : Fin 2 → Nat :=
  let arg0 : BitVec 32 := BitVec.ofNat 32 (i 0).val
  let c4800_i32 : BitVec 32 := 4800#32
  ![arg0.toNat, 4800]
def k0_off15 (i : grid0.Coords) : Fin 3 → Nat :=
  let arg0 : BitVec 32 := BitVec.ofNat 32 (i 0).val
  let c7_i32 : BitVec 32 := 7#32
  let c0_i32_16 : BitVec 32 := 0#32
  ![arg0.toNat, 7, 0]
def k0_off16 (i : grid0.Coords) : Fin 2 → Nat :=
  let arg0 : BitVec 32 := BitVec.ofNat 32 (i 0).val
  let c5600_i32 : BitVec 32 := 5600#32
  ![arg0.toNat, 5600]
def k0_off17 (i : grid0.Coords) : Fin 3 → Nat :=
  let arg0 : BitVec 32 := BitVec.ofNat 32 (i 0).val
  let c8_i32 : BitVec 32 := 8#32
  let c0_i32_22 : BitVec 32 := 0#32
  ![arg0.toNat, 8, 0]
def k0_off18 (i : grid0.Coords) : Fin 2 → Nat :=
  let arg0 : BitVec 32 := BitVec.ofNat 32 (i 0).val
  let c6400_i32 : BitVec 32 := 6400#32
  ![arg0.toNat, 6400]
def k0_off19 (i : grid0.Coords) : Fin 3 → Nat :=
  let arg0 : BitVec 32 := BitVec.ofNat 32 (i 0).val
  let c9_i32 : BitVec 32 := 9#32
  let c0_i32_28 : BitVec 32 := 0#32
  ![arg0.toNat, 9, 0]
def k0_off20 (i : grid0.Coords) : Fin 2 → Nat :=
  let arg0 : BitVec 32 := BitVec.ofNat 32 (i 0).val
  let c7200_i32 : BitVec 32 := 7200#32
  ![arg0.toNat, 7200]
def k0_off21 (i : grid0.Coords) : Fin 3 → Nat :=
  let arg0 : BitVec 32 := BitVec.ofNat 32 (i 0).val
  let c10_i32 : BitVec 32 := 10#32
  let c0_i32_34 : BitVec 32 := 0#32
  ![arg0.toNat, 10, 0]
def k0_off22 (i : grid0.Coords) : Fin 2 → Nat :=
  let arg0 : BitVec 32 := BitVec.ofNat 32 (i 0).val
  let c8000_i32 : BitVec 32 := 8000#32
  ![arg0.toNat, 8000]
def k0_off23 (i : grid0.Coords) : Fin 3 → Nat :=
  let arg0 : BitVec 32 := BitVec.ofNat 32 (i 0).val
  let c11_i32 : BitVec 32 := 11#32
  let c0_i32_40 : BitVec 32 := 0#32
  ![arg0.toNat, 11, 0]
def k0_off24 (i : grid0.Coords) : Fin 2 → Nat :=
  let arg0 : BitVec 32 := BitVec.ofNat 32 (i 0).val
  let c8800_i32 : BitVec 32 := 8800#32
  ![arg0.toNat, 8800]
def k0_off25 (i : grid0.Coords) : Fin 3 → Nat :=
  let arg0 : BitVec 32 := BitVec.ofNat 32 (i 0).val
  let c12_i32 : BitVec 32 := 12#32
  let c0_i32_46 : BitVec 32 := 0#32
  ![arg0.toNat, 12, 0]
def k0_off26 (i : grid0.Coords) : Fin 2 → Nat :=
  let arg0 : BitVec 32 := BitVec.ofNat 32 (i 0).val
  let c9600_i32 : BitVec 32 := 9600#32
  ![arg0.toNat, 9600]
def k0_off27 (i : grid0.Coords) : Fin 3 → Nat :=
  let arg0 : BitVec 32 := BitVec.ofNat 32 (i 0).val
  let c13_i32 : BitVec 32 := 13#32
  let c0_i32_52 : BitVec 32 := 0#32
  ![arg0.toNat, 13, 0]
def k0_off28 (i : grid0.Coords) : Fin 2 → Nat :=
  let arg0 : BitVec 32 := BitVec.ofNat 32 (i 0).val
  let c10400_i32 : BitVec 32 := 10400#32
  ![arg0.toNat, 10400]
def k0_off29 (i : grid0.Coords) : Fin 3 → Nat :=
  let arg0 : BitVec 32 := BitVec.ofNat 32 (i 0).val
  let c14_i32 : BitVec 32 := 14#32
  let c0_i32_58 : BitVec 32 := 0#32
  ![arg0.toNat, 14, 0]
def k0_off30 (i : grid0.Coords) : Fin 2 → Nat :=
  let arg0 : BitVec 32 := BitVec.ofNat 32 (i 0).val
  let c11200_i32 : BitVec 32 := 11200#32
  ![arg0.toNat, 11200]
def k0_off31 (i : grid0.Coords) : Fin 3 → Nat :=
  let arg0 : BitVec 32 := BitVec.ofNat 32 (i 0).val
  let c15_i32 : BitVec 32 := 15#32
  let c0_i32_64 : BitVec 32 := 0#32
  ![arg0.toNat, 15, 0]
def k0_off32 (i : grid0.Coords) : Fin 2 → Nat :=
  let arg0 : BitVec 32 := BitVec.ofNat 32 (i 0).val
  let c12000_i32 : BitVec 32 := 12000#32
  ![arg0.toNat, 12000]
def k0_off33 (i : grid0.Coords) : Fin 3 → Nat :=
  let arg0 : BitVec 32 := BitVec.ofNat 32 (i 0).val
  let c16_i32 : BitVec 32 := 16#32
  let c0_i32_70 : BitVec 32 := 0#32
  ![arg0.toNat, 16, 0]
def k0_off34 (i : grid0.Coords) : Fin 2 → Nat :=
  let arg0 : BitVec 32 := BitVec.ofNat 32 (i 0).val
  let c12800_i32 : BitVec 32 := 12800#32
  ![arg0.toNat, 12800]
def k0_off35 (i : grid0.Coords) : Fin 3 → Nat :=
  let arg0 : BitVec 32 := BitVec.ofNat 32 (i 0).val
  let c17_i32 : BitVec 32 := 17#32
  let c0_i32_76 : BitVec 32 := 0#32
  ![arg0.toNat, 17, 0]
def k0_off36 (i : grid0.Coords) : Fin 2 → Nat :=
  let arg0 : BitVec 32 := BitVec.ofNat 32 (i 0).val
  let c13600_i32 : BitVec 32 := 13600#32
  ![arg0.toNat, 13600]
def k0_off37 (i : grid0.Coords) : Fin 3 → Nat :=
  let arg0 : BitVec 32 := BitVec.ofNat 32 (i 0).val
  let c18_i32 : BitVec 32 := 18#32
  let c0_i32_82 : BitVec 32 := 0#32
  ![arg0.toNat, 18, 0]
def k0_off38 (i : grid0.Coords) : Fin 2 → Nat :=
  let arg0 : BitVec 32 := BitVec.ofNat 32 (i 0).val
  let c14400_i32 : BitVec 32 := 14400#32
  ![arg0.toNat, 14400]
def k0_off39 (i : grid0.Coords) : Fin 3 → Nat :=
  let arg0 : BitVec 32 := BitVec.ofNat 32 (i 0).val
  let c19_i32 : BitVec 32 := 19#32
  let c0_i32_88 : BitVec 32 := 0#32
  ![arg0.toNat, 19, 0]
def k0_off40 (i : grid0.Coords) : Fin 2 → Nat :=
  let arg0 : BitVec 32 := BitVec.ofNat 32 (i 0).val
  let c15200_i32 : BitVec 32 := 15200#32
  ![arg0.toNat, 15200]
def k0_off41 (i : grid0.Coords) : Fin 3 → Nat :=
  let arg0 : BitVec 32 := BitVec.ofNat 32 (i 0).val
  let c20_i32 : BitVec 32 := 20#32
  let c0_i32_94 : BitVec 32 := 0#32
  ![arg0.toNat, 20, 0]
def k0_off42 (i : grid0.Coords) : Fin 2 → Nat :=
  let arg0 : BitVec 32 := BitVec.ofNat 32 (i 0).val
  let c16000_i32 : BitVec 32 := 16000#32
  ![arg0.toNat, 16000]
def k0_off43 (i : grid0.Coords) : Fin 3 → Nat :=
  let arg0 : BitVec 32 := BitVec.ofNat 32 (i 0).val
  let c21_i32 : BitVec 32 := 21#32
  let c0_i32_100 : BitVec 32 := 0#32
  ![arg0.toNat, 21, 0]
def k0_off44 (i : grid0.Coords) : Fin 2 → Nat :=
  let arg0 : BitVec 32 := BitVec.ofNat 32 (i 0).val
  let c16800_i32 : BitVec 32 := 16800#32
  ![arg0.toNat, 16800]
def k0_off45 (i : grid0.Coords) : Fin 3 → Nat :=
  let arg0 : BitVec 32 := BitVec.ofNat 32 (i 0).val
  let c22_i32 : BitVec 32 := 22#32
  let c0_i32_106 : BitVec 32 := 0#32
  ![arg0.toNat, 22, 0]
def k0_off46 (i : grid0.Coords) : Fin 2 → Nat :=
  let arg0 : BitVec 32 := BitVec.ofNat 32 (i 0).val
  let c17600_i32 : BitVec 32 := 17600#32
  ![arg0.toNat, 17600]
def k0_off47 (i : grid0.Coords) : Fin 3 → Nat :=
  let arg0 : BitVec 32 := BitVec.ofNat 32 (i 0).val
  let c23_i32 : BitVec 32 := 23#32
  let c0_i32_112 : BitVec 32 := 0#32
  ![arg0.toNat, 23, 0]
def k0_off48 (i : grid0.Coords) : Fin 2 → Nat :=
  let arg0 : BitVec 32 := BitVec.ofNat 32 (i 0).val
  let c18400_i32 : BitVec 32 := 18400#32
  ![arg0.toNat, 18400]
def k0_off49 (i : grid0.Coords) : Fin 3 → Nat :=
  let arg0 : BitVec 32 := BitVec.ofNat 32 (i 0).val
  let c24_i32 : BitVec 32 := 24#32
  let c0_i32_118 : BitVec 32 := 0#32
  ![arg0.toNat, 24, 0]
def k0_off50 (i : grid0.Coords) : Fin 2 → Nat :=
  let arg0 : BitVec 32 := BitVec.ofNat 32 (i 0).val
  let c19200_i32 : BitVec 32 := 19200#32
  ![arg0.toNat, 19200]
def k0_off51 (i : grid0.Coords) : Fin 3 → Nat :=
  let arg0 : BitVec 32 := BitVec.ofNat 32 (i 0).val
  let c25_i32 : BitVec 32 := 25#32
  let c0_i32_124 : BitVec 32 := 0#32
  ![arg0.toNat, 25, 0]
def k0_off52 (i : grid0.Coords) : Fin 2 → Nat :=
  let arg0 : BitVec 32 := BitVec.ofNat 32 (i 0).val
  let c20000_i32 : BitVec 32 := 20000#32
  ![arg0.toNat, 20000]
def k0_off53 (i : grid0.Coords) : Fin 3 → Nat :=
  let arg0 : BitVec 32 := BitVec.ofNat 32 (i 0).val
  let c26_i32 : BitVec 32 := 26#32
  let c0_i32_130 : BitVec 32 := 0#32
  ![arg0.toNat, 26, 0]
def k0_off54 (i : grid0.Coords) : Fin 2 → Nat :=
  let arg0 : BitVec 32 := BitVec.ofNat 32 (i 0).val
  let c20800_i32 : BitVec 32 := 20800#32
  ![arg0.toNat, 20800]
def k0_off55 (i : grid0.Coords) : Fin 3 → Nat :=
  let arg0 : BitVec 32 := BitVec.ofNat 32 (i 0).val
  let c27_i32 : BitVec 32 := 27#32
  let c0_i32_136 : BitVec 32 := 0#32
  ![arg0.toNat, 27, 0]
def k0_off56 (i : grid0.Coords) : Fin 2 → Nat :=
  let arg0 : BitVec 32 := BitVec.ofNat 32 (i 0).val
  let c21600_i32 : BitVec 32 := 21600#32
  ![arg0.toNat, 21600]
def k0_off57 (i : grid0.Coords) : Fin 3 → Nat :=
  let arg0 : BitVec 32 := BitVec.ofNat 32 (i 0).val
  let c28_i32 : BitVec 32 := 28#32
  let c0_i32_142 : BitVec 32 := 0#32
  ![arg0.toNat, 28, 0]
def k0_off58 (i : grid0.Coords) : Fin 2 → Nat :=
  let arg0 : BitVec 32 := BitVec.ofNat 32 (i 0).val
  let c22400_i32 : BitVec 32 := 22400#32
  ![arg0.toNat, 22400]
def k0_off59 (i : grid0.Coords) : Fin 3 → Nat :=
  let arg0 : BitVec 32 := BitVec.ofNat 32 (i 0).val
  let c29_i32 : BitVec 32 := 29#32
  let c0_i32_148 : BitVec 32 := 0#32
  ![arg0.toNat, 29, 0]
def k0_off60 (i : grid0.Coords) : Fin 2 → Nat :=
  let arg0 : BitVec 32 := BitVec.ofNat 32 (i 0).val
  let c23200_i32 : BitVec 32 := 23200#32
  ![arg0.toNat, 23200]
def k0_off61 (i : grid0.Coords) : Fin 3 → Nat :=
  let arg0 : BitVec 32 := BitVec.ofNat 32 (i 0).val
  let c30_i32 : BitVec 32 := 30#32
  let c0_i32_154 : BitVec 32 := 0#32
  ![arg0.toNat, 30, 0]
def k0_off62 (i : grid0.Coords) : Fin 2 → Nat :=
  let arg0 : BitVec 32 := BitVec.ofNat 32 (i 0).val
  let c24000_i32 : BitVec 32 := 24000#32
  ![arg0.toNat, 24000]
def k0_off63 (i : grid0.Coords) : Fin 3 → Nat :=
  let arg0 : BitVec 32 := BitVec.ofNat 32 (i 0).val
  let c31_i32 : BitVec 32 := 31#32
  let c0_i32_160 : BitVec 32 := 0#32
  ![arg0.toNat, 31, 0]
def k0_off64 (i : grid0.Coords) : Fin 2 → Nat :=
  let arg0 : BitVec 32 := BitVec.ofNat 32 (i 0).val
  let c24800_i32 : BitVec 32 := 24800#32
  ![arg0.toNat, 24800]
def k0_off65 (i : grid0.Coords) : Fin 3 → Nat :=
  let arg0 : BitVec 32 := BitVec.ofNat 32 (i 0).val
  let c32_i32 : BitVec 32 := 32#32
  let c0_i32_166 : BitVec 32 := 0#32
  ![arg0.toNat, 32, 0]
def k0_off66 (i : grid0.Coords) : Fin 2 → Nat :=
  let arg0 : BitVec 32 := BitVec.ofNat 32 (i 0).val
  let c25600_i32 : BitVec 32 := 25600#32
  ![arg0.toNat, 25600]
def k0_off67 (i : grid0.Coords) : Fin 3 → Nat :=
  let arg0 : BitVec 32 := BitVec.ofNat 32 (i 0).val
  let c33_i32 : BitVec 32 := 33#32
  let c0_i32_172 : BitVec 32 := 0#32
  ![arg0.toNat, 33, 0]
def k0_off68 (i : grid0.Coords) : Fin 2 → Nat :=
  let arg0 : BitVec 32 := BitVec.ofNat 32 (i 0).val
  let c26400_i32 : BitVec 32 := 26400#32
  ![arg0.toNat, 26400]
def k0_off69 (i : grid0.Coords) : Fin 3 → Nat :=
  let arg0 : BitVec 32 := BitVec.ofNat 32 (i 0).val
  let c34_i32 : BitVec 32 := 34#32
  let c0_i32_178 : BitVec 32 := 0#32
  ![arg0.toNat, 34, 0]
def k0_off70 (i : grid0.Coords) : Fin 2 → Nat :=
  let arg0 : BitVec 32 := BitVec.ofNat 32 (i 0).val
  let c27200_i32 : BitVec 32 := 27200#32
  ![arg0.toNat, 27200]
def k0_off71 (i : grid0.Coords) : Fin 3 → Nat :=
  let arg0 : BitVec 32 := BitVec.ofNat 32 (i 0).val
  let c35_i32 : BitVec 32 := 35#32
  let c0_i32_184 : BitVec 32 := 0#32
  ![arg0.toNat, 35, 0]
def k0_off72 (i : grid0.Coords) : Fin 2 → Nat :=
  let arg0 : BitVec 32 := BitVec.ofNat 32 (i 0).val
  let c28000_i32 : BitVec 32 := 28000#32
  ![arg0.toNat, 28000]
def k0_off73 (i : grid0.Coords) : Fin 3 → Nat :=
  let arg0 : BitVec 32 := BitVec.ofNat 32 (i 0).val
  let c36_i32 : BitVec 32 := 36#32
  let c0_i32_190 : BitVec 32 := 0#32
  ![arg0.toNat, 36, 0]
def k0_off74 (i : grid0.Coords) : Fin 2 → Nat :=
  let arg0 : BitVec 32 := BitVec.ofNat 32 (i 0).val
  let c28800_i32 : BitVec 32 := 28800#32
  ![arg0.toNat, 28800]
def k0_off75 (i : grid0.Coords) : Fin 3 → Nat :=
  let arg0 : BitVec 32 := BitVec.ofNat 32 (i 0).val
  let c37_i32 : BitVec 32 := 37#32
  let c0_i32_196 : BitVec 32 := 0#32
  ![arg0.toNat, 37, 0]
def k0_off76 (i : grid0.Coords) : Fin 2 → Nat :=
  let arg0 : BitVec 32 := BitVec.ofNat 32 (i 0).val
  let c29600_i32 : BitVec 32 := 29600#32
  ![arg0.toNat, 29600]
def k0_off77 (i : grid0.Coords) : Fin 3 → Nat :=
  let arg0 : BitVec 32 := BitVec.ofNat 32 (i 0).val
  let c38_i32 : BitVec 32 := 38#32
  let c0_i32_202 : BitVec 32 := 0#32
  ![arg0.toNat, 38, 0]
def k0_off78 (i : grid0.Coords) : Fin 2 → Nat :=
  let arg0 : BitVec 32 := BitVec.ofNat 32 (i 0).val
  let c30400_i32 : BitVec 32 := 30400#32
  ![arg0.toNat, 30400]
def k0_off79 (i : grid0.Coords) : Fin 3 → Nat :=
  let arg0 : BitVec 32 := BitVec.ofNat 32 (i 0).val
  let c39_i32 : BitVec 32 := 39#32
  let c0_i32_208 : BitVec 32 := 0#32
  ![arg0.toNat, 39, 0]
def k0_off80 (i : grid0.Coords) : Fin 2 → Nat :=
  let arg0 : BitVec 32 := BitVec.ofNat 32 (i 0).val
  let c31200_i32 : BitVec 32 := 31200#32
  ![arg0.toNat, 31200]
def k0_off81 (i : grid0.Coords) : Fin 3 → Nat :=
  let arg0 : BitVec 32 := BitVec.ofNat 32 (i 0).val
  let c40_i32 : BitVec 32 := 40#32
  let c0_i32_214 : BitVec 32 := 0#32
  ![arg0.toNat, 40, 0]
def k0_off82 (i : grid0.Coords) : Fin 2 → Nat :=
  let arg0 : BitVec 32 := BitVec.ofNat 32 (i 0).val
  let c32000_i32 : BitVec 32 := 32000#32
  ![arg0.toNat, 32000]
def k0_off83 (i : grid0.Coords) : Fin 3 → Nat :=
  let arg0 : BitVec 32 := BitVec.ofNat 32 (i 0).val
  let c41_i32 : BitVec 32 := 41#32
  let c0_i32_220 : BitVec 32 := 0#32
  ![arg0.toNat, 41, 0]
def k0_off84 (i : grid0.Coords) : Fin 2 → Nat :=
  let arg0 : BitVec 32 := BitVec.ofNat 32 (i 0).val
  let c32800_i32 : BitVec 32 := 32800#32
  ![arg0.toNat, 32800]
def k0_off85 (i : grid0.Coords) : Fin 3 → Nat :=
  let arg0 : BitVec 32 := BitVec.ofNat 32 (i 0).val
  let c42_i32 : BitVec 32 := 42#32
  let c0_i32_226 : BitVec 32 := 0#32
  ![arg0.toNat, 42, 0]
def k0_off86 (i : grid0.Coords) : Fin 2 → Nat :=
  let arg0 : BitVec 32 := BitVec.ofNat 32 (i 0).val
  let c33600_i32 : BitVec 32 := 33600#32
  ![arg0.toNat, 33600]
def k0_off87 (i : grid0.Coords) : Fin 3 → Nat :=
  let arg0 : BitVec 32 := BitVec.ofNat 32 (i 0).val
  let c43_i32 : BitVec 32 := 43#32
  let c0_i32_232 : BitVec 32 := 0#32
  ![arg0.toNat, 43, 0]
def k0_off88 (i : grid0.Coords) : Fin 2 → Nat :=
  let arg0 : BitVec 32 := BitVec.ofNat 32 (i 0).val
  let c34400_i32 : BitVec 32 := 34400#32
  ![arg0.toNat, 34400]
def k0_off89 (i : grid0.Coords) : Fin 3 → Nat :=
  let arg0 : BitVec 32 := BitVec.ofNat 32 (i 0).val
  let c44_i32 : BitVec 32 := 44#32
  let c0_i32_238 : BitVec 32 := 0#32
  ![arg0.toNat, 44, 0]
def k0_off90 (i : grid0.Coords) : Fin 2 → Nat :=
  let arg0 : BitVec 32 := BitVec.ofNat 32 (i 0).val
  let c35200_i32 : BitVec 32 := 35200#32
  ![arg0.toNat, 35200]
def k0_off91 (i : grid0.Coords) : Fin 3 → Nat :=
  let arg0 : BitVec 32 := BitVec.ofNat 32 (i 0).val
  let c45_i32 : BitVec 32 := 45#32
  let c0_i32_244 : BitVec 32 := 0#32
  ![arg0.toNat, 45, 0]
def k0_off92 (i : grid0.Coords) : Fin 2 → Nat :=
  let arg0 : BitVec 32 := BitVec.ofNat 32 (i 0).val
  let c36000_i32 : BitVec 32 := 36000#32
  ![arg0.toNat, 36000]
def k0_off93 (i : grid0.Coords) : Fin 3 → Nat :=
  let arg0 : BitVec 32 := BitVec.ofNat 32 (i 0).val
  let c46_i32 : BitVec 32 := 46#32
  let c0_i32_250 : BitVec 32 := 0#32
  ![arg0.toNat, 46, 0]
def k0_off94 (i : grid0.Coords) : Fin 2 → Nat :=
  let arg0 : BitVec 32 := BitVec.ofNat 32 (i 0).val
  let c36800_i32 : BitVec 32 := 36800#32
  ![arg0.toNat, 36800]
def k0_off95 (i : grid0.Coords) : Fin 3 → Nat :=
  let arg0 : BitVec 32 := BitVec.ofNat 32 (i 0).val
  let c47_i32 : BitVec 32 := 47#32
  let c0_i32_256 : BitVec 32 := 0#32
  ![arg0.toNat, 47, 0]
def k0_off96 (i : grid0.Coords) : Fin 2 → Nat :=
  let arg0 : BitVec 32 := BitVec.ofNat 32 (i 0).val
  let c37600_i32 : BitVec 32 := 37600#32
  ![arg0.toNat, 37600]
def k0_off97 (i : grid0.Coords) : Fin 3 → Nat :=
  let arg0 : BitVec 32 := BitVec.ofNat 32 (i 0).val
  let c48_i32 : BitVec 32 := 48#32
  let c0_i32_262 : BitVec 32 := 0#32
  ![arg0.toNat, 48, 0]
def k0_off98 (i : grid0.Coords) : Fin 2 → Nat :=
  let arg0 : BitVec 32 := BitVec.ofNat 32 (i 0).val
  let c38400_i32 : BitVec 32 := 38400#32
  ![arg0.toNat, 38400]
def k0_off99 (i : grid0.Coords) : Fin 3 → Nat :=
  let arg0 : BitVec 32 := BitVec.ofNat 32 (i 0).val
  let c49_i32 : BitVec 32 := 49#32
  let c0_i32_268 : BitVec 32 := 0#32
  ![arg0.toNat, 49, 0]
def k0_off100 (i : grid0.Coords) : Fin 2 → Nat :=
  let arg0 : BitVec 32 := BitVec.ofNat 32 (i 0).val
  let c39200_i32 : BitVec 32 := 39200#32
  ![arg0.toNat, 39200]
def k0_off101 (i : grid0.Coords) : Fin 3 → Nat :=
  let arg0 : BitVec 32 := BitVec.ofNat 32 (i 0).val
  let c50_i32 : BitVec 32 := 50#32
  let c0_i32_274 : BitVec 32 := 0#32
  ![arg0.toNat, 50, 0]
def k0_off102 (i : grid0.Coords) : Fin 2 → Nat :=
  let arg0 : BitVec 32 := BitVec.ofNat 32 (i 0).val
  let c40000_i32 : BitVec 32 := 40000#32
  ![arg0.toNat, 40000]
def k0_off103 (i : grid0.Coords) : Fin 3 → Nat :=
  let arg0 : BitVec 32 := BitVec.ofNat 32 (i 0).val
  let c51_i32 : BitVec 32 := 51#32
  let c0_i32_280 : BitVec 32 := 0#32
  ![arg0.toNat, 51, 0]
def k0_off104 (i : grid0.Coords) : Fin 2 → Nat :=
  let arg0 : BitVec 32 := BitVec.ofNat 32 (i 0).val
  let c40800_i32 : BitVec 32 := 40800#32
  ![arg0.toNat, 40800]
def k0_off105 (i : grid0.Coords) : Fin 3 → Nat :=
  let arg0 : BitVec 32 := BitVec.ofNat 32 (i 0).val
  let c52_i32 : BitVec 32 := 52#32
  let c0_i32_286 : BitVec 32 := 0#32
  ![arg0.toNat, 52, 0]
def k0_off106 (i : grid0.Coords) : Fin 2 → Nat :=
  let arg0 : BitVec 32 := BitVec.ofNat 32 (i 0).val
  let c41600_i32 : BitVec 32 := 41600#32
  ![arg0.toNat, 41600]
def k0_off107 (i : grid0.Coords) : Fin 3 → Nat :=
  let arg0 : BitVec 32 := BitVec.ofNat 32 (i 0).val
  let c53_i32 : BitVec 32 := 53#32
  let c0_i32_292 : BitVec 32 := 0#32
  ![arg0.toNat, 53, 0]
def k0_off108 (i : grid0.Coords) : Fin 2 → Nat :=
  let arg0 : BitVec 32 := BitVec.ofNat 32 (i 0).val
  let c42400_i32 : BitVec 32 := 42400#32
  ![arg0.toNat, 42400]
def k0_off109 (i : grid0.Coords) : Fin 3 → Nat :=
  let arg0 : BitVec 32 := BitVec.ofNat 32 (i 0).val
  let c54_i32 : BitVec 32 := 54#32
  let c0_i32_298 : BitVec 32 := 0#32
  ![arg0.toNat, 54, 0]
def k0_off110 (i : grid0.Coords) : Fin 2 → Nat :=
  let arg0 : BitVec 32 := BitVec.ofNat 32 (i 0).val
  let c43200_i32 : BitVec 32 := 43200#32
  ![arg0.toNat, 43200]
def k0_off111 (i : grid0.Coords) : Fin 3 → Nat :=
  let arg0 : BitVec 32 := BitVec.ofNat 32 (i 0).val
  let c55_i32 : BitVec 32 := 55#32
  let c0_i32_304 : BitVec 32 := 0#32
  ![arg0.toNat, 55, 0]
def k0_off112 (i : grid0.Coords) : Fin 2 → Nat :=
  let arg0 : BitVec 32 := BitVec.ofNat 32 (i 0).val
  let c44000_i32 : BitVec 32 := 44000#32
  ![arg0.toNat, 44000]
def k0_off113 (i : grid0.Coords) : Fin 3 → Nat :=
  let arg0 : BitVec 32 := BitVec.ofNat 32 (i 0).val
  let c56_i32 : BitVec 32 := 56#32
  let c0_i32_310 : BitVec 32 := 0#32
  ![arg0.toNat, 56, 0]
def k0_off114 (i : grid0.Coords) : Fin 2 → Nat :=
  let arg0 : BitVec 32 := BitVec.ofNat 32 (i 0).val
  let c44800_i32 : BitVec 32 := 44800#32
  ![arg0.toNat, 44800]
def k0_off115 (i : grid0.Coords) : Fin 3 → Nat :=
  let arg0 : BitVec 32 := BitVec.ofNat 32 (i 0).val
  let c57_i32 : BitVec 32 := 57#32
  let c0_i32_316 : BitVec 32 := 0#32
  ![arg0.toNat, 57, 0]
def k0_off116 (i : grid0.Coords) : Fin 2 → Nat :=
  let arg0 : BitVec 32 := BitVec.ofNat 32 (i 0).val
  let c45600_i32 : BitVec 32 := 45600#32
  ![arg0.toNat, 45600]
def k0_off117 (i : grid0.Coords) : Fin 3 → Nat :=
  let arg0 : BitVec 32 := BitVec.ofNat 32 (i 0).val
  let c58_i32 : BitVec 32 := 58#32
  let c0_i32_322 : BitVec 32 := 0#32
  ![arg0.toNat, 58, 0]
def k0_off118 (i : grid0.Coords) : Fin 2 → Nat :=
  let arg0 : BitVec 32 := BitVec.ofNat 32 (i 0).val
  let c46400_i32 : BitVec 32 := 46400#32
  ![arg0.toNat, 46400]
def k0_off119 (i : grid0.Coords) : Fin 3 → Nat :=
  let arg0 : BitVec 32 := BitVec.ofNat 32 (i 0).val
  let c59_i32 : BitVec 32 := 59#32
  let c0_i32_328 : BitVec 32 := 0#32
  ![arg0.toNat, 59, 0]
def k0_off120 (i : grid0.Coords) : Fin 2 → Nat :=
  let arg0 : BitVec 32 := BitVec.ofNat 32 (i 0).val
  let c47200_i32 : BitVec 32 := 47200#32
  ![arg0.toNat, 47200]
def k0_off121 (i : grid0.Coords) : Fin 3 → Nat :=
  let arg0 : BitVec 32 := BitVec.ofNat 32 (i 0).val
  let c60_i32 : BitVec 32 := 60#32
  let c0_i32_334 : BitVec 32 := 0#32
  ![arg0.toNat, 60, 0]
def k0_off122 (i : grid0.Coords) : Fin 2 → Nat :=
  let arg0 : BitVec 32 := BitVec.ofNat 32 (i 0).val
  let c48000_i32 : BitVec 32 := 48000#32
  ![arg0.toNat, 48000]
def k0_off123 (i : grid0.Coords) : Fin 3 → Nat :=
  let arg0 : BitVec 32 := BitVec.ofNat 32 (i 0).val
  let c61_i32 : BitVec 32 := 61#32
  let c0_i32_340 : BitVec 32 := 0#32
  ![arg0.toNat, 61, 0]
def k0_off124 (i : grid0.Coords) : Fin 2 → Nat :=
  let arg0 : BitVec 32 := BitVec.ofNat 32 (i 0).val
  let c48800_i32 : BitVec 32 := 48800#32
  ![arg0.toNat, 48800]
def k0_off125 (i : grid0.Coords) : Fin 3 → Nat :=
  let arg0 : BitVec 32 := BitVec.ofNat 32 (i 0).val
  let c62_i32 : BitVec 32 := 62#32
  let c0_i32_346 : BitVec 32 := 0#32
  ![arg0.toNat, 62, 0]
def k0_off126 (i : grid0.Coords) : Fin 2 → Nat :=
  let arg0 : BitVec 32 := BitVec.ofNat 32 (i 0).val
  let c49600_i32 : BitVec 32 := 49600#32
  ![arg0.toNat, 49600]
def k0_off127 (i : grid0.Coords) : Fin 3 → Nat :=
  let arg0 : BitVec 32 := BitVec.ofNat 32 (i 0).val
  let c63_i32 : BitVec 32 := 63#32
  let c0_i32_352 : BitVec 32 := 0#32
  ![arg0.toNat, 63, 0]
def k0_off128 (i : grid0.Coords) : Fin 2 → Nat :=
  let arg0 : BitVec 32 := BitVec.ofNat 32 (i 0).val
  let c50400_i32 : BitVec 32 := 50400#32
  ![arg0.toNat, 50400]
def k0_off129 (i : grid0.Coords) : Fin 3 → Nat :=
  let arg0 : BitVec 32 := BitVec.ofNat 32 (i 0).val
  let c64_i32 : BitVec 32 := 64#32
  let c0_i32_358 : BitVec 32 := 0#32
  ![arg0.toNat, 64, 0]
def k0_off130 (i : grid0.Coords) : Fin 2 → Nat :=
  let arg0 : BitVec 32 := BitVec.ofNat 32 (i 0).val
  let c51200_i32 : BitVec 32 := 51200#32
  ![arg0.toNat, 51200]
def k0_off131 (i : grid0.Coords) : Fin 3 → Nat :=
  let arg0 : BitVec 32 := BitVec.ofNat 32 (i 0).val
  let c65_i32 : BitVec 32 := 65#32
  let c0_i32_364 : BitVec 32 := 0#32
  ![arg0.toNat, 65, 0]
def k0_off132 (i : grid0.Coords) : Fin 2 → Nat :=
  let arg0 : BitVec 32 := BitVec.ofNat 32 (i 0).val
  let c52000_i32 : BitVec 32 := 52000#32
  ![arg0.toNat, 52000]
def k0_off133 (i : grid0.Coords) : Fin 3 → Nat :=
  let arg0 : BitVec 32 := BitVec.ofNat 32 (i 0).val
  let c66_i32 : BitVec 32 := 66#32
  let c0_i32_370 : BitVec 32 := 0#32
  ![arg0.toNat, 66, 0]
def k0_off134 (i : grid0.Coords) : Fin 2 → Nat :=
  let arg0 : BitVec 32 := BitVec.ofNat 32 (i 0).val
  let c52800_i32 : BitVec 32 := 52800#32
  ![arg0.toNat, 52800]
def k0_off135 (i : grid0.Coords) : Fin 3 → Nat :=
  let arg0 : BitVec 32 := BitVec.ofNat 32 (i 0).val
  let c67_i32 : BitVec 32 := 67#32
  let c0_i32_376 : BitVec 32 := 0#32
  ![arg0.toNat, 67, 0]
def k0_off136 (i : grid0.Coords) : Fin 2 → Nat :=
  let arg0 : BitVec 32 := BitVec.ofNat 32 (i 0).val
  let c53600_i32 : BitVec 32 := 53600#32
  ![arg0.toNat, 53600]
def k0_off137 (i : grid0.Coords) : Fin 3 → Nat :=
  let arg0 : BitVec 32 := BitVec.ofNat 32 (i 0).val
  let c68_i32 : BitVec 32 := 68#32
  let c0_i32_382 : BitVec 32 := 0#32
  ![arg0.toNat, 68, 0]
def k0_off138 (i : grid0.Coords) : Fin 2 → Nat :=
  let arg0 : BitVec 32 := BitVec.ofNat 32 (i 0).val
  let c54400_i32 : BitVec 32 := 54400#32
  ![arg0.toNat, 54400]
def k0_off139 (i : grid0.Coords) : Fin 3 → Nat :=
  let arg0 : BitVec 32 := BitVec.ofNat 32 (i 0).val
  let c69_i32 : BitVec 32 := 69#32
  let c0_i32_388 : BitVec 32 := 0#32
  ![arg0.toNat, 69, 0]
def k0_off140 (i : grid0.Coords) : Fin 2 → Nat :=
  let arg0 : BitVec 32 := BitVec.ofNat 32 (i 0).val
  let c55200_i32 : BitVec 32 := 55200#32
  ![arg0.toNat, 55200]
def k0_off141 (i : grid0.Coords) : Fin 3 → Nat :=
  let arg0 : BitVec 32 := BitVec.ofNat 32 (i 0).val
  let c70_i32 : BitVec 32 := 70#32
  let c0_i32_394 : BitVec 32 := 0#32
  ![arg0.toNat, 70, 0]
def k0_off142 (i : grid0.Coords) : Fin 2 → Nat :=
  let arg0 : BitVec 32 := BitVec.ofNat 32 (i 0).val
  let c56000_i32 : BitVec 32 := 56000#32
  ![arg0.toNat, 56000]
def k0_off143 (i : grid0.Coords) : Fin 3 → Nat :=
  let arg0 : BitVec 32 := BitVec.ofNat 32 (i 0).val
  let c71_i32 : BitVec 32 := 71#32
  let c0_i32_400 : BitVec 32 := 0#32
  ![arg0.toNat, 71, 0]
def k0_off144 (i : grid0.Coords) : Fin 2 → Nat :=
  let arg0 : BitVec 32 := BitVec.ofNat 32 (i 0).val
  let c56800_i32 : BitVec 32 := 56800#32
  ![arg0.toNat, 56800]
def k0_off145 (i : grid0.Coords) : Fin 3 → Nat :=
  let arg0 : BitVec 32 := BitVec.ofNat 32 (i 0).val
  let c72_i32 : BitVec 32 := 72#32
  let c0_i32_406 : BitVec 32 := 0#32
  ![arg0.toNat, 72, 0]
def k0_off146 (i : grid0.Coords) : Fin 2 → Nat :=
  let arg0 : BitVec 32 := BitVec.ofNat 32 (i 0).val
  let c57600_i32 : BitVec 32 := 57600#32
  ![arg0.toNat, 57600]
def k0_off147 (i : grid0.Coords) : Fin 3 → Nat :=
  let arg0 : BitVec 32 := BitVec.ofNat 32 (i 0).val
  let c73_i32 : BitVec 32 := 73#32
  let c0_i32_412 : BitVec 32 := 0#32
  ![arg0.toNat, 73, 0]
def k0_off148 (i : grid0.Coords) : Fin 2 → Nat :=
  let arg0 : BitVec 32 := BitVec.ofNat 32 (i 0).val
  let c58400_i32 : BitVec 32 := 58400#32
  ![arg0.toNat, 58400]
def k0_off149 (i : grid0.Coords) : Fin 3 → Nat :=
  let arg0 : BitVec 32 := BitVec.ofNat 32 (i 0).val
  let c74_i32 : BitVec 32 := 74#32
  let c0_i32_418 : BitVec 32 := 0#32
  ![arg0.toNat, 74, 0]
def k0_off150 (i : grid0.Coords) : Fin 2 → Nat :=
  let arg0 : BitVec 32 := BitVec.ofNat 32 (i 0).val
  let c59200_i32 : BitVec 32 := 59200#32
  ![arg0.toNat, 59200]
def k0_off151 (i : grid0.Coords) : Fin 3 → Nat :=
  let arg0 : BitVec 32 := BitVec.ofNat 32 (i 0).val
  let c75_i32 : BitVec 32 := 75#32
  let c0_i32_424 : BitVec 32 := 0#32
  ![arg0.toNat, 75, 0]
def k0_off152 (i : grid0.Coords) : Fin 2 → Nat :=
  let arg0 : BitVec 32 := BitVec.ofNat 32 (i 0).val
  let c60000_i32 : BitVec 32 := 60000#32
  ![arg0.toNat, 60000]
def k0_off153 (i : grid0.Coords) : Fin 3 → Nat :=
  let arg0 : BitVec 32 := BitVec.ofNat 32 (i 0).val
  let c76_i32 : BitVec 32 := 76#32
  let c0_i32_430 : BitVec 32 := 0#32
  ![arg0.toNat, 76, 0]
def k0_off154 (i : grid0.Coords) : Fin 2 → Nat :=
  let arg0 : BitVec 32 := BitVec.ofNat 32 (i 0).val
  let c60800_i32 : BitVec 32 := 60800#32
  ![arg0.toNat, 60800]
def k0_off155 (i : grid0.Coords) : Fin 3 → Nat :=
  let arg0 : BitVec 32 := BitVec.ofNat 32 (i 0).val
  let c77_i32 : BitVec 32 := 77#32
  let c0_i32_436 : BitVec 32 := 0#32
  ![arg0.toNat, 77, 0]
def k0_off156 (i : grid0.Coords) : Fin 2 → Nat :=
  let arg0 : BitVec 32 := BitVec.ofNat 32 (i 0).val
  let c61600_i32 : BitVec 32 := 61600#32
  ![arg0.toNat, 61600]
def k0_off157 (i : grid0.Coords) : Fin 3 → Nat :=
  let arg0 : BitVec 32 := BitVec.ofNat 32 (i 0).val
  let c78_i32 : BitVec 32 := 78#32
  let c0_i32_442 : BitVec 32 := 0#32
  ![arg0.toNat, 78, 0]
def k0_off158 (i : grid0.Coords) : Fin 2 → Nat :=
  let arg0 : BitVec 32 := BitVec.ofNat 32 (i 0).val
  let c62400_i32 : BitVec 32 := 62400#32
  ![arg0.toNat, 62400]
def k0_off159 (i : grid0.Coords) : Fin 3 → Nat :=
  let arg0 : BitVec 32 := BitVec.ofNat 32 (i 0).val
  let c79_i32 : BitVec 32 := 79#32
  let c0_i32_448 : BitVec 32 := 0#32
  ![arg0.toNat, 79, 0]
def k0_off160 (i : grid0.Coords) : Fin 2 → Nat :=
  let arg0 : BitVec 32 := BitVec.ofNat 32 (i 0).val
  let c63200_i32 : BitVec 32 := 63200#32
  ![arg0.toNat, 63200]
def k0_off161 (i : grid0.Coords) : Fin 3 → Nat :=
  let arg0 : BitVec 32 := BitVec.ofNat 32 (i 0).val
  let c80_i32 : BitVec 32 := 80#32
  let c0_i32_454 : BitVec 32 := 0#32
  ![arg0.toNat, 80, 0]
def k0_off162 (i : grid0.Coords) : Fin 2 → Nat :=
  let arg0 : BitVec 32 := BitVec.ofNat 32 (i 0).val
  let c64000_i32 : BitVec 32 := 64000#32
  ![arg0.toNat, 64000]
def k0_off163 (i : grid0.Coords) : Fin 3 → Nat :=
  let arg0 : BitVec 32 := BitVec.ofNat 32 (i 0).val
  let c81_i32 : BitVec 32 := 81#32
  let c0_i32_460 : BitVec 32 := 0#32
  ![arg0.toNat, 81, 0]
def k0_off164 (i : grid0.Coords) : Fin 2 → Nat :=
  let arg0 : BitVec 32 := BitVec.ofNat 32 (i 0).val
  let c64800_i32 : BitVec 32 := 64800#32
  ![arg0.toNat, 64800]
def k0_off165 (i : grid0.Coords) : Fin 3 → Nat :=
  let arg0 : BitVec 32 := BitVec.ofNat 32 (i 0).val
  let c82_i32 : BitVec 32 := 82#32
  let c0_i32_466 : BitVec 32 := 0#32
  ![arg0.toNat, 82, 0]
def k0_off166 (i : grid0.Coords) : Fin 2 → Nat :=
  let arg0 : BitVec 32 := BitVec.ofNat 32 (i 0).val
  let c65600_i32 : BitVec 32 := 65600#32
  ![arg0.toNat, 65600]
def k0_off167 (i : grid0.Coords) : Fin 3 → Nat :=
  let arg0 : BitVec 32 := BitVec.ofNat 32 (i 0).val
  let c83_i32 : BitVec 32 := 83#32
  let c0_i32_472 : BitVec 32 := 0#32
  ![arg0.toNat, 83, 0]
def k0_off168 (i : grid0.Coords) : Fin 2 → Nat :=
  let arg0 : BitVec 32 := BitVec.ofNat 32 (i 0).val
  let c66400_i32 : BitVec 32 := 66400#32
  ![arg0.toNat, 66400]
def k0_off169 (i : grid0.Coords) : Fin 3 → Nat :=
  let arg0 : BitVec 32 := BitVec.ofNat 32 (i 0).val
  let c84_i32 : BitVec 32 := 84#32
  let c0_i32_478 : BitVec 32 := 0#32
  ![arg0.toNat, 84, 0]
def k0_off170 (i : grid0.Coords) : Fin 2 → Nat :=
  let arg0 : BitVec 32 := BitVec.ofNat 32 (i 0).val
  let c67200_i32 : BitVec 32 := 67200#32
  ![arg0.toNat, 67200]
def k0_off171 (i : grid0.Coords) : Fin 3 → Nat :=
  let arg0 : BitVec 32 := BitVec.ofNat 32 (i 0).val
  let c85_i32 : BitVec 32 := 85#32
  let c0_i32_484 : BitVec 32 := 0#32
  ![arg0.toNat, 85, 0]
def k0_off172 (i : grid0.Coords) : Fin 2 → Nat :=
  let arg0 : BitVec 32 := BitVec.ofNat 32 (i 0).val
  let c68000_i32 : BitVec 32 := 68000#32
  ![arg0.toNat, 68000]
def k0_off173 (i : grid0.Coords) : Fin 3 → Nat :=
  let arg0 : BitVec 32 := BitVec.ofNat 32 (i 0).val
  let c86_i32 : BitVec 32 := 86#32
  let c0_i32_490 : BitVec 32 := 0#32
  ![arg0.toNat, 86, 0]
def k0_off174 (i : grid0.Coords) : Fin 2 → Nat :=
  let arg0 : BitVec 32 := BitVec.ofNat 32 (i 0).val
  let c68800_i32 : BitVec 32 := 68800#32
  ![arg0.toNat, 68800]
def k0_off175 (i : grid0.Coords) : Fin 3 → Nat :=
  let arg0 : BitVec 32 := BitVec.ofNat 32 (i 0).val
  let c87_i32 : BitVec 32 := 87#32
  let c0_i32_496 : BitVec 32 := 0#32
  ![arg0.toNat, 87, 0]
def k0_off176 (i : grid0.Coords) : Fin 2 → Nat :=
  let arg0 : BitVec 32 := BitVec.ofNat 32 (i 0).val
  let c69600_i32 : BitVec 32 := 69600#32
  ![arg0.toNat, 69600]
def k0_off177 (i : grid0.Coords) : Fin 3 → Nat :=
  let arg0 : BitVec 32 := BitVec.ofNat 32 (i 0).val
  let c88_i32 : BitVec 32 := 88#32
  let c0_i32_502 : BitVec 32 := 0#32
  ![arg0.toNat, 88, 0]
def k0_off178 (i : grid0.Coords) : Fin 2 → Nat :=
  let arg0 : BitVec 32 := BitVec.ofNat 32 (i 0).val
  let c70400_i32 : BitVec 32 := 70400#32
  ![arg0.toNat, 70400]
def k0_off179 (i : grid0.Coords) : Fin 3 → Nat :=
  let arg0 : BitVec 32 := BitVec.ofNat 32 (i 0).val
  let c89_i32 : BitVec 32 := 89#32
  let c0_i32_508 : BitVec 32 := 0#32
  ![arg0.toNat, 89, 0]
def k0_off180 (i : grid0.Coords) : Fin 2 → Nat :=
  let arg0 : BitVec 32 := BitVec.ofNat 32 (i 0).val
  let c71200_i32 : BitVec 32 := 71200#32
  ![arg0.toNat, 71200]
def k0_off181 (i : grid0.Coords) : Fin 3 → Nat :=
  let arg0 : BitVec 32 := BitVec.ofNat 32 (i 0).val
  let c90_i32 : BitVec 32 := 90#32
  let c0_i32_514 : BitVec 32 := 0#32
  ![arg0.toNat, 90, 0]
def k0_off182 (i : grid0.Coords) : Fin 2 → Nat :=
  let arg0 : BitVec 32 := BitVec.ofNat 32 (i 0).val
  let c72000_i32 : BitVec 32 := 72000#32
  ![arg0.toNat, 72000]
def k0_off183 (i : grid0.Coords) : Fin 3 → Nat :=
  let arg0 : BitVec 32 := BitVec.ofNat 32 (i 0).val
  let c91_i32 : BitVec 32 := 91#32
  let c0_i32_520 : BitVec 32 := 0#32
  ![arg0.toNat, 91, 0]
def k0_off184 (i : grid0.Coords) : Fin 2 → Nat :=
  let arg0 : BitVec 32 := BitVec.ofNat 32 (i 0).val
  let c72800_i32 : BitVec 32 := 72800#32
  ![arg0.toNat, 72800]
def k0_off185 (i : grid0.Coords) : Fin 3 → Nat :=
  let arg0 : BitVec 32 := BitVec.ofNat 32 (i 0).val
  let c92_i32 : BitVec 32 := 92#32
  let c0_i32_526 : BitVec 32 := 0#32
  ![arg0.toNat, 92, 0]
def k0_off186 (i : grid0.Coords) : Fin 2 → Nat :=
  let arg0 : BitVec 32 := BitVec.ofNat 32 (i 0).val
  let c73600_i32 : BitVec 32 := 73600#32
  ![arg0.toNat, 73600]
def k0_off187 (i : grid0.Coords) : Fin 3 → Nat :=
  let arg0 : BitVec 32 := BitVec.ofNat 32 (i 0).val
  let c93_i32 : BitVec 32 := 93#32
  let c0_i32_532 : BitVec 32 := 0#32
  ![arg0.toNat, 93, 0]
def k0_off188 (i : grid0.Coords) : Fin 2 → Nat :=
  let arg0 : BitVec 32 := BitVec.ofNat 32 (i 0).val
  let c74400_i32 : BitVec 32 := 74400#32
  ![arg0.toNat, 74400]
def k0_off189 (i : grid0.Coords) : Fin 3 → Nat :=
  let arg0 : BitVec 32 := BitVec.ofNat 32 (i 0).val
  let c94_i32 : BitVec 32 := 94#32
  let c0_i32_538 : BitVec 32 := 0#32
  ![arg0.toNat, 94, 0]
def k0_off190 (i : grid0.Coords) : Fin 2 → Nat :=
  let arg0 : BitVec 32 := BitVec.ofNat 32 (i 0).val
  let c75200_i32 : BitVec 32 := 75200#32
  ![arg0.toNat, 75200]
def k0_off191 (i : grid0.Coords) : Fin 3 → Nat :=
  let arg0 : BitVec 32 := BitVec.ofNat 32 (i 0).val
  let c95_i32 : BitVec 32 := 95#32
  let c0_i32_544 : BitVec 32 := 0#32
  ![arg0.toNat, 95, 0]
def k0_off192 (i : grid0.Coords) : Fin 2 → Nat :=
  let arg0 : BitVec 32 := BitVec.ofNat 32 (i 0).val
  let c76000_i32 : BitVec 32 := 76000#32
  ![arg0.toNat, 76000]
def k0_off193 (i : grid0.Coords) : Fin 3 → Nat :=
  let arg0 : BitVec 32 := BitVec.ofNat 32 (i 0).val
  let c96_i32 : BitVec 32 := 96#32
  let c0_i32_550 : BitVec 32 := 0#32
  ![arg0.toNat, 96, 0]
def k0_off194 (i : grid0.Coords) : Fin 2 → Nat :=
  let arg0 : BitVec 32 := BitVec.ofNat 32 (i 0).val
  let c76800_i32 : BitVec 32 := 76800#32
  ![arg0.toNat, 76800]
def k0_off195 (i : grid0.Coords) : Fin 3 → Nat :=
  let arg0 : BitVec 32 := BitVec.ofNat 32 (i 0).val
  let c97_i32 : BitVec 32 := 97#32
  let c0_i32_556 : BitVec 32 := 0#32
  ![arg0.toNat, 97, 0]
def k0_off196 (i : grid0.Coords) : Fin 2 → Nat :=
  let arg0 : BitVec 32 := BitVec.ofNat 32 (i 0).val
  let c77600_i32 : BitVec 32 := 77600#32
  ![arg0.toNat, 77600]
def k0_off197 (i : grid0.Coords) : Fin 3 → Nat :=
  let arg0 : BitVec 32 := BitVec.ofNat 32 (i 0).val
  let c98_i32 : BitVec 32 := 98#32
  let c0_i32_562 : BitVec 32 := 0#32
  ![arg0.toNat, 98, 0]
def k0_off198 (i : grid0.Coords) : Fin 2 → Nat :=
  let arg0 : BitVec 32 := BitVec.ofNat 32 (i 0).val
  let c78400_i32 : BitVec 32 := 78400#32
  ![arg0.toNat, 78400]
def k0_off199 (i : grid0.Coords) : Fin 3 → Nat :=
  let arg0 : BitVec 32 := BitVec.ofNat 32 (i 0).val
  let c99_i32 : BitVec 32 := 99#32
  let c0_i32_568 : BitVec 32 := 0#32
  ![arg0.toNat, 99, 0]
def k0_off200 (i : grid0.Coords) : Fin 2 → Nat :=
  let arg0 : BitVec 32 := BitVec.ofNat 32 (i 0).val
  let c79200_i32 : BitVec 32 := 79200#32
  ![arg0.toNat, 79200]
def k0_off201 (i : grid0.Coords) : Fin 3 → Nat :=
  let arg0 : BitVec 32 := BitVec.ofNat 32 (i 0).val
  let c100_i32 : BitVec 32 := 100#32
  let c0_i32_574 : BitVec 32 := 0#32
  ![arg0.toNat, 100, 0]
def k0_off202 (i : grid0.Coords) : Fin 2 → Nat :=
  let arg0 : BitVec 32 := BitVec.ofNat 32 (i 0).val
  let c80000_i32 : BitVec 32 := 80000#32
  ![arg0.toNat, 80000]
def k0_off203 (i : grid0.Coords) : Fin 3 → Nat :=
  let arg0 : BitVec 32 := BitVec.ofNat 32 (i 0).val
  let c101_i32 : BitVec 32 := 101#32
  let c0_i32_580 : BitVec 32 := 0#32
  ![arg0.toNat, 101, 0]
def k0_off204 (i : grid0.Coords) : Fin 2 → Nat :=
  let arg0 : BitVec 32 := BitVec.ofNat 32 (i 0).val
  let c80800_i32 : BitVec 32 := 80800#32
  ![arg0.toNat, 80800]
def k0_off205 (i : grid0.Coords) : Fin 3 → Nat :=
  let arg0 : BitVec 32 := BitVec.ofNat 32 (i 0).val
  let c102_i32 : BitVec 32 := 102#32
  let c0_i32_586 : BitVec 32 := 0#32
  ![arg0.toNat, 102, 0]
def k0_off206 (i : grid0.Coords) : Fin 2 → Nat :=
  let arg0 : BitVec 32 := BitVec.ofNat 32 (i 0).val
  let c81600_i32 : BitVec 32 := 81600#32
  ![arg0.toNat, 81600]
def k0_off207 (i : grid0.Coords) : Fin 3 → Nat :=
  let arg0 : BitVec 32 := BitVec.ofNat 32 (i 0).val
  let c103_i32 : BitVec 32 := 103#32
  let c0_i32_592 : BitVec 32 := 0#32
  ![arg0.toNat, 103, 0]
def k0_off208 (i : grid0.Coords) : Fin 2 → Nat :=
  let arg0 : BitVec 32 := BitVec.ofNat 32 (i 0).val
  let c82400_i32 : BitVec 32 := 82400#32
  ![arg0.toNat, 82400]
def k0_off209 (i : grid0.Coords) : Fin 3 → Nat :=
  let arg0 : BitVec 32 := BitVec.ofNat 32 (i 0).val
  let c104_i32 : BitVec 32 := 104#32
  let c0_i32_598 : BitVec 32 := 0#32
  ![arg0.toNat, 104, 0]
def k0_off210 (i : grid0.Coords) : Fin 2 → Nat :=
  let arg0 : BitVec 32 := BitVec.ofNat 32 (i 0).val
  let c83200_i32 : BitVec 32 := 83200#32
  ![arg0.toNat, 83200]
def k0_off211 (i : grid0.Coords) : Fin 3 → Nat :=
  let arg0 : BitVec 32 := BitVec.ofNat 32 (i 0).val
  let c105_i32 : BitVec 32 := 105#32
  let c0_i32_604 : BitVec 32 := 0#32
  ![arg0.toNat, 105, 0]
def k0_off212 (i : grid0.Coords) : Fin 2 → Nat :=
  let arg0 : BitVec 32 := BitVec.ofNat 32 (i 0).val
  let c84000_i32 : BitVec 32 := 84000#32
  ![arg0.toNat, 84000]
def k0_off213 (i : grid0.Coords) : Fin 3 → Nat :=
  let arg0 : BitVec 32 := BitVec.ofNat 32 (i 0).val
  let c106_i32 : BitVec 32 := 106#32
  let c0_i32_610 : BitVec 32 := 0#32
  ![arg0.toNat, 106, 0]
def k0_off214 (i : grid0.Coords) : Fin 2 → Nat :=
  let arg0 : BitVec 32 := BitVec.ofNat 32 (i 0).val
  let c84800_i32 : BitVec 32 := 84800#32
  ![arg0.toNat, 84800]
def k0_off215 (i : grid0.Coords) : Fin 3 → Nat :=
  let arg0 : BitVec 32 := BitVec.ofNat 32 (i 0).val
  let c107_i32 : BitVec 32 := 107#32
  let c0_i32_616 : BitVec 32 := 0#32
  ![arg0.toNat, 107, 0]
def k0_off216 (i : grid0.Coords) : Fin 2 → Nat :=
  let arg0 : BitVec 32 := BitVec.ofNat 32 (i 0).val
  let c85600_i32 : BitVec 32 := 85600#32
  ![arg0.toNat, 85600]
def k0_off217 (i : grid0.Coords) : Fin 3 → Nat :=
  let arg0 : BitVec 32 := BitVec.ofNat 32 (i 0).val
  let c108_i32 : BitVec 32 := 108#32
  let c0_i32_622 : BitVec 32 := 0#32
  ![arg0.toNat, 108, 0]
def k0_off218 (i : grid0.Coords) : Fin 2 → Nat :=
  let arg0 : BitVec 32 := BitVec.ofNat 32 (i 0).val
  let c86400_i32 : BitVec 32 := 86400#32
  ![arg0.toNat, 86400]
def k0_off219 (i : grid0.Coords) : Fin 3 → Nat :=
  let arg0 : BitVec 32 := BitVec.ofNat 32 (i 0).val
  let c109_i32 : BitVec 32 := 109#32
  let c0_i32_628 : BitVec 32 := 0#32
  ![arg0.toNat, 109, 0]
def k0_off220 (i : grid0.Coords) : Fin 2 → Nat :=
  let arg0 : BitVec 32 := BitVec.ofNat 32 (i 0).val
  let c87200_i32 : BitVec 32 := 87200#32
  ![arg0.toNat, 87200]
def k0_off221 (i : grid0.Coords) : Fin 3 → Nat :=
  let arg0 : BitVec 32 := BitVec.ofNat 32 (i 0).val
  let c110_i32 : BitVec 32 := 110#32
  let c0_i32_634 : BitVec 32 := 0#32
  ![arg0.toNat, 110, 0]
def k0_off222 (i : grid0.Coords) : Fin 2 → Nat :=
  let arg0 : BitVec 32 := BitVec.ofNat 32 (i 0).val
  let c88000_i32 : BitVec 32 := 88000#32
  ![arg0.toNat, 88000]
def k0_off223 (i : grid0.Coords) : Fin 3 → Nat :=
  let arg0 : BitVec 32 := BitVec.ofNat 32 (i 0).val
  let c111_i32 : BitVec 32 := 111#32
  let c0_i32_640 : BitVec 32 := 0#32
  ![arg0.toNat, 111, 0]
def k0_off224 (i : grid0.Coords) : Fin 2 → Nat :=
  let arg0 : BitVec 32 := BitVec.ofNat 32 (i 0).val
  let c88800_i32 : BitVec 32 := 88800#32
  ![arg0.toNat, 88800]
def k0_off225 (i : grid0.Coords) : Fin 3 → Nat :=
  let arg0 : BitVec 32 := BitVec.ofNat 32 (i 0).val
  let c112_i32 : BitVec 32 := 112#32
  let c0_i32_646 : BitVec 32 := 0#32
  ![arg0.toNat, 112, 0]
def k0_off226 (i : grid0.Coords) : Fin 2 → Nat :=
  let arg0 : BitVec 32 := BitVec.ofNat 32 (i 0).val
  let c89600_i32 : BitVec 32 := 89600#32
  ![arg0.toNat, 89600]
def k0_off227 (i : grid0.Coords) : Fin 3 → Nat :=
  let arg0 : BitVec 32 := BitVec.ofNat 32 (i 0).val
  let c113_i32 : BitVec 32 := 113#32
  let c0_i32_652 : BitVec 32 := 0#32
  ![arg0.toNat, 113, 0]
def k0_off228 (i : grid0.Coords) : Fin 2 → Nat :=
  let arg0 : BitVec 32 := BitVec.ofNat 32 (i 0).val
  let c90400_i32 : BitVec 32 := 90400#32
  ![arg0.toNat, 90400]
def k0_off229 (i : grid0.Coords) : Fin 3 → Nat :=
  let arg0 : BitVec 32 := BitVec.ofNat 32 (i 0).val
  let c114_i32 : BitVec 32 := 114#32
  let c0_i32_658 : BitVec 32 := 0#32
  ![arg0.toNat, 114, 0]
def k0_off230 (i : grid0.Coords) : Fin 2 → Nat :=
  let arg0 : BitVec 32 := BitVec.ofNat 32 (i 0).val
  let c91200_i32 : BitVec 32 := 91200#32
  ![arg0.toNat, 91200]
def k0_off231 (i : grid0.Coords) : Fin 3 → Nat :=
  let arg0 : BitVec 32 := BitVec.ofNat 32 (i 0).val
  let c115_i32 : BitVec 32 := 115#32
  let c0_i32_664 : BitVec 32 := 0#32
  ![arg0.toNat, 115, 0]
def k0_off232 (i : grid0.Coords) : Fin 2 → Nat :=
  let arg0 : BitVec 32 := BitVec.ofNat 32 (i 0).val
  let c92000_i32 : BitVec 32 := 92000#32
  ![arg0.toNat, 92000]
def k0_off233 (i : grid0.Coords) : Fin 3 → Nat :=
  let arg0 : BitVec 32 := BitVec.ofNat 32 (i 0).val
  let c116_i32 : BitVec 32 := 116#32
  let c0_i32_670 : BitVec 32 := 0#32
  ![arg0.toNat, 116, 0]
def k0_off234 (i : grid0.Coords) : Fin 2 → Nat :=
  let arg0 : BitVec 32 := BitVec.ofNat 32 (i 0).val
  let c92800_i32 : BitVec 32 := 92800#32
  ![arg0.toNat, 92800]
def k0_off235 (i : grid0.Coords) : Fin 3 → Nat :=
  let arg0 : BitVec 32 := BitVec.ofNat 32 (i 0).val
  let c117_i32 : BitVec 32 := 117#32
  let c0_i32_676 : BitVec 32 := 0#32
  ![arg0.toNat, 117, 0]
def k0_off236 (i : grid0.Coords) : Fin 2 → Nat :=
  let arg0 : BitVec 32 := BitVec.ofNat 32 (i 0).val
  let c93600_i32 : BitVec 32 := 93600#32
  ![arg0.toNat, 93600]
def k0_off237 (i : grid0.Coords) : Fin 3 → Nat :=
  let arg0 : BitVec 32 := BitVec.ofNat 32 (i 0).val
  let c118_i32 : BitVec 32 := 118#32
  let c0_i32_682 : BitVec 32 := 0#32
  ![arg0.toNat, 118, 0]
def k0_off238 (i : grid0.Coords) : Fin 2 → Nat :=
  let arg0 : BitVec 32 := BitVec.ofNat 32 (i 0).val
  let c94400_i32 : BitVec 32 := 94400#32
  ![arg0.toNat, 94400]
def k0_off239 (i : grid0.Coords) : Fin 3 → Nat :=
  let arg0 : BitVec 32 := BitVec.ofNat 32 (i 0).val
  let c119_i32 : BitVec 32 := 119#32
  let c0_i32_688 : BitVec 32 := 0#32
  ![arg0.toNat, 119, 0]
def k0_off240 (i : grid0.Coords) : Fin 2 → Nat :=
  let arg0 : BitVec 32 := BitVec.ofNat 32 (i 0).val
  let c95200_i32 : BitVec 32 := 95200#32
  ![arg0.toNat, 95200]
def k0_off241 (i : grid0.Coords) : Fin 3 → Nat :=
  let arg0 : BitVec 32 := BitVec.ofNat 32 (i 0).val
  let c120_i32 : BitVec 32 := 120#32
  let c0_i32_694 : BitVec 32 := 0#32
  ![arg0.toNat, 120, 0]
def k0_off242 (i : grid0.Coords) : Fin 2 → Nat :=
  let arg0 : BitVec 32 := BitVec.ofNat 32 (i 0).val
  let c96000_i32 : BitVec 32 := 96000#32
  ![arg0.toNat, 96000]
def k0_off243 (i : grid0.Coords) : Fin 3 → Nat :=
  let arg0 : BitVec 32 := BitVec.ofNat 32 (i 0).val
  let c121_i32 : BitVec 32 := 121#32
  let c0_i32_700 : BitVec 32 := 0#32
  ![arg0.toNat, 121, 0]
def k0_off244 (i : grid0.Coords) : Fin 2 → Nat :=
  let arg0 : BitVec 32 := BitVec.ofNat 32 (i 0).val
  let c96800_i32 : BitVec 32 := 96800#32
  ![arg0.toNat, 96800]
def k0_off245 (i : grid0.Coords) : Fin 3 → Nat :=
  let arg0 : BitVec 32 := BitVec.ofNat 32 (i 0).val
  let c122_i32 : BitVec 32 := 122#32
  let c0_i32_706 : BitVec 32 := 0#32
  ![arg0.toNat, 122, 0]
def k0_off246 (i : grid0.Coords) : Fin 2 → Nat :=
  let arg0 : BitVec 32 := BitVec.ofNat 32 (i 0).val
  let c97600_i32 : BitVec 32 := 97600#32
  ![arg0.toNat, 97600]
def k0_off247 (i : grid0.Coords) : Fin 3 → Nat :=
  let arg0 : BitVec 32 := BitVec.ofNat 32 (i 0).val
  let c123_i32 : BitVec 32 := 123#32
  let c0_i32_712 : BitVec 32 := 0#32
  ![arg0.toNat, 123, 0]
def k0_off248 (i : grid0.Coords) : Fin 2 → Nat :=
  let arg0 : BitVec 32 := BitVec.ofNat 32 (i 0).val
  let c98400_i32 : BitVec 32 := 98400#32
  ![arg0.toNat, 98400]
def k0_off249 (i : grid0.Coords) : Fin 3 → Nat :=
  let arg0 : BitVec 32 := BitVec.ofNat 32 (i 0).val
  let c124_i32 : BitVec 32 := 124#32
  let c0_i32_718 : BitVec 32 := 0#32
  ![arg0.toNat, 124, 0]
def k0_off250 (i : grid0.Coords) : Fin 2 → Nat :=
  let arg0 : BitVec 32 := BitVec.ofNat 32 (i 0).val
  let c99200_i32 : BitVec 32 := 99200#32
  ![arg0.toNat, 99200]
def k0_off251 (i : grid0.Coords) : Fin 3 → Nat :=
  let arg0 : BitVec 32 := BitVec.ofNat 32 (i 0).val
  let c125_i32 : BitVec 32 := 125#32
  let c0_i32_724 : BitVec 32 := 0#32
  ![arg0.toNat, 125, 0]
def k0_off252 (i : grid0.Coords) : Fin 2 → Nat :=
  let arg0 : BitVec 32 := BitVec.ofNat 32 (i 0).val
  let c100000_i32 : BitVec 32 := 100000#32
  ![arg0.toNat, 100000]
def k0_off253 (i : grid0.Coords) : Fin 3 → Nat :=
  let arg0 : BitVec 32 := BitVec.ofNat 32 (i 0).val
  let c126_i32 : BitVec 32 := 126#32
  let c0_i32_730 : BitVec 32 := 0#32
  ![arg0.toNat, 126, 0]
def k0_off254 (i : grid0.Coords) : Fin 2 → Nat :=
  let arg0 : BitVec 32 := BitVec.ofNat 32 (i 0).val
  let c100800_i32 : BitVec 32 := 100800#32
  ![arg0.toNat, 100800]
def k0_off255 (i : grid0.Coords) : Fin 3 → Nat :=
  let arg0 : BitVec 32 := BitVec.ofNat 32 (i 0).val
  let c127_i32 : BitVec 32 := 127#32
  let c0_i32_736 : BitVec 32 := 0#32
  ![arg0.toNat, 127, 0]
def k0_off256 (i : grid0.Coords) : Fin 2 → Nat :=
  let arg0 : BitVec 32 := BitVec.ofNat 32 (i 0).val
  let c101600_i32 : BitVec 32 := 101600#32
  ![arg0.toNat, 101600]
def k0_off257 (i : grid0.Coords) : Fin 3 → Nat :=
  let arg0 : BitVec 32 := BitVec.ofNat 32 (i 0).val
  let c128_i32 : BitVec 32 := 128#32
  let c0_i32_742 : BitVec 32 := 0#32
  ![arg0.toNat, 128, 0]
def k0_off258 (i : grid0.Coords) : Fin 2 → Nat :=
  let arg0 : BitVec 32 := BitVec.ofNat 32 (i 0).val
  let c102400_i32 : BitVec 32 := 102400#32
  ![arg0.toNat, 102400]
def k0_off259 (i : grid0.Coords) : Fin 3 → Nat :=
  let arg0 : BitVec 32 := BitVec.ofNat 32 (i 0).val
  let c129_i32 : BitVec 32 := 129#32
  let c0_i32_748 : BitVec 32 := 0#32
  ![arg0.toNat, 129, 0]
def k0_off260 (i : grid0.Coords) : Fin 2 → Nat :=
  let arg0 : BitVec 32 := BitVec.ofNat 32 (i 0).val
  let c103200_i32 : BitVec 32 := 103200#32
  ![arg0.toNat, 103200]
def k0_off261 (i : grid0.Coords) : Fin 3 → Nat :=
  let arg0 : BitVec 32 := BitVec.ofNat 32 (i 0).val
  let c130_i32 : BitVec 32 := 130#32
  let c0_i32_754 : BitVec 32 := 0#32
  ![arg0.toNat, 130, 0]
def k0_off262 (i : grid0.Coords) : Fin 2 → Nat :=
  let arg0 : BitVec 32 := BitVec.ofNat 32 (i 0).val
  let c104000_i32 : BitVec 32 := 104000#32
  ![arg0.toNat, 104000]
def k0_off263 (i : grid0.Coords) : Fin 3 → Nat :=
  let arg0 : BitVec 32 := BitVec.ofNat 32 (i 0).val
  let c131_i32 : BitVec 32 := 131#32
  let c0_i32_760 : BitVec 32 := 0#32
  ![arg0.toNat, 131, 0]
def k0_off264 (i : grid0.Coords) : Fin 2 → Nat :=
  let arg0 : BitVec 32 := BitVec.ofNat 32 (i 0).val
  let c104800_i32 : BitVec 32 := 104800#32
  ![arg0.toNat, 104800]
def k0_off265 (i : grid0.Coords) : Fin 3 → Nat :=
  let arg0 : BitVec 32 := BitVec.ofNat 32 (i 0).val
  let c132_i32 : BitVec 32 := 132#32
  let c0_i32_766 : BitVec 32 := 0#32
  ![arg0.toNat, 132, 0]
def k0_off266 (i : grid0.Coords) : Fin 2 → Nat :=
  let arg0 : BitVec 32 := BitVec.ofNat 32 (i 0).val
  let c105600_i32 : BitVec 32 := 105600#32
  ![arg0.toNat, 105600]
def k0_off267 (i : grid0.Coords) : Fin 3 → Nat :=
  let arg0 : BitVec 32 := BitVec.ofNat 32 (i 0).val
  let c133_i32 : BitVec 32 := 133#32
  let c0_i32_772 : BitVec 32 := 0#32
  ![arg0.toNat, 133, 0]
def k0_off268 (i : grid0.Coords) : Fin 2 → Nat :=
  let arg0 : BitVec 32 := BitVec.ofNat 32 (i 0).val
  let c106400_i32 : BitVec 32 := 106400#32
  ![arg0.toNat, 106400]
def k0_off269 (i : grid0.Coords) : Fin 3 → Nat :=
  let arg0 : BitVec 32 := BitVec.ofNat 32 (i 0).val
  let c134_i32 : BitVec 32 := 134#32
  let c0_i32_778 : BitVec 32 := 0#32
  ![arg0.toNat, 134, 0]
def k0_off270 (i : grid0.Coords) : Fin 2 → Nat :=
  let arg0 : BitVec 32 := BitVec.ofNat 32 (i 0).val
  let c107200_i32 : BitVec 32 := 107200#32
  ![arg0.toNat, 107200]
def k0_off271 (i : grid0.Coords) : Fin 3 → Nat :=
  let arg0 : BitVec 32 := BitVec.ofNat 32 (i 0).val
  let c135_i32 : BitVec 32 := 135#32
  let c0_i32_784 : BitVec 32 := 0#32
  ![arg0.toNat, 135, 0]
def k0_off272 (i : grid0.Coords) : Fin 2 → Nat :=
  let arg0 : BitVec 32 := BitVec.ofNat 32 (i 0).val
  let c108000_i32 : BitVec 32 := 108000#32
  ![arg0.toNat, 108000]
def k0_off273 (i : grid0.Coords) : Fin 3 → Nat :=
  let arg0 : BitVec 32 := BitVec.ofNat 32 (i 0).val
  let c136_i32 : BitVec 32 := 136#32
  let c0_i32_790 : BitVec 32 := 0#32
  ![arg0.toNat, 136, 0]
def k0_off274 (i : grid0.Coords) : Fin 2 → Nat :=
  let arg0 : BitVec 32 := BitVec.ofNat 32 (i 0).val
  let c108800_i32 : BitVec 32 := 108800#32
  ![arg0.toNat, 108800]
def k0_off275 (i : grid0.Coords) : Fin 3 → Nat :=
  let arg0 : BitVec 32 := BitVec.ofNat 32 (i 0).val
  let c137_i32 : BitVec 32 := 137#32
  let c0_i32_796 : BitVec 32 := 0#32
  ![arg0.toNat, 137, 0]
def k0_off276 (i : grid0.Coords) : Fin 2 → Nat :=
  let arg0 : BitVec 32 := BitVec.ofNat 32 (i 0).val
  let c109600_i32 : BitVec 32 := 109600#32
  ![arg0.toNat, 109600]
def k0_off277 (i : grid0.Coords) : Fin 3 → Nat :=
  let arg0 : BitVec 32 := BitVec.ofNat 32 (i 0).val
  let c138_i32 : BitVec 32 := 138#32
  let c0_i32_802 : BitVec 32 := 0#32
  ![arg0.toNat, 138, 0]
def k0_off278 (i : grid0.Coords) : Fin 2 → Nat :=
  let arg0 : BitVec 32 := BitVec.ofNat 32 (i 0).val
  let c110400_i32 : BitVec 32 := 110400#32
  ![arg0.toNat, 110400]
def k0_off279 (i : grid0.Coords) : Fin 3 → Nat :=
  let arg0 : BitVec 32 := BitVec.ofNat 32 (i 0).val
  let c139_i32 : BitVec 32 := 139#32
  let c0_i32_808 : BitVec 32 := 0#32
  ![arg0.toNat, 139, 0]
def k0_off280 (i : grid0.Coords) : Fin 2 → Nat :=
  let arg0 : BitVec 32 := BitVec.ofNat 32 (i 0).val
  let c111200_i32 : BitVec 32 := 111200#32
  ![arg0.toNat, 111200]
def k0_off281 (i : grid0.Coords) : Fin 3 → Nat :=
  let arg0 : BitVec 32 := BitVec.ofNat 32 (i 0).val
  let c140_i32 : BitVec 32 := 140#32
  let c0_i32_814 : BitVec 32 := 0#32
  ![arg0.toNat, 140, 0]
def k0_off282 (i : grid0.Coords) : Fin 2 → Nat :=
  let arg0 : BitVec 32 := BitVec.ofNat 32 (i 0).val
  let c112000_i32 : BitVec 32 := 112000#32
  ![arg0.toNat, 112000]
def k0_off283 (i : grid0.Coords) : Fin 3 → Nat :=
  let arg0 : BitVec 32 := BitVec.ofNat 32 (i 0).val
  let c141_i32 : BitVec 32 := 141#32
  let c0_i32_820 : BitVec 32 := 0#32
  ![arg0.toNat, 141, 0]
def k0_off284 (i : grid0.Coords) : Fin 2 → Nat :=
  let arg0 : BitVec 32 := BitVec.ofNat 32 (i 0).val
  let c112800_i32 : BitVec 32 := 112800#32
  ![arg0.toNat, 112800]
def k0_off285 (i : grid0.Coords) : Fin 3 → Nat :=
  let arg0 : BitVec 32 := BitVec.ofNat 32 (i 0).val
  let c142_i32 : BitVec 32 := 142#32
  let c0_i32_826 : BitVec 32 := 0#32
  ![arg0.toNat, 142, 0]
def k0_off286 (i : grid0.Coords) : Fin 2 → Nat :=
  let arg0 : BitVec 32 := BitVec.ofNat 32 (i 0).val
  let c113600_i32 : BitVec 32 := 113600#32
  ![arg0.toNat, 113600]
def k0_off287 (i : grid0.Coords) : Fin 3 → Nat :=
  let arg0 : BitVec 32 := BitVec.ofNat 32 (i 0).val
  let c143_i32 : BitVec 32 := 143#32
  let c0_i32_832 : BitVec 32 := 0#32
  ![arg0.toNat, 143, 0]
def k0_off288 (i : grid0.Coords) : Fin 2 → Nat :=
  let arg0 : BitVec 32 := BitVec.ofNat 32 (i 0).val
  let c114400_i32 : BitVec 32 := 114400#32
  ![arg0.toNat, 114400]
def k0_off289 (i : grid0.Coords) : Fin 3 → Nat :=
  let arg0 : BitVec 32 := BitVec.ofNat 32 (i 0).val
  let c144_i32 : BitVec 32 := 144#32
  let c0_i32_838 : BitVec 32 := 0#32
  ![arg0.toNat, 144, 0]
def k0_off290 (i : grid0.Coords) : Fin 2 → Nat :=
  let arg0 : BitVec 32 := BitVec.ofNat 32 (i 0).val
  let c115200_i32 : BitVec 32 := 115200#32
  ![arg0.toNat, 115200]
def k0_off291 (i : grid0.Coords) : Fin 3 → Nat :=
  let arg0 : BitVec 32 := BitVec.ofNat 32 (i 0).val
  let c145_i32 : BitVec 32 := 145#32
  let c0_i32_844 : BitVec 32 := 0#32
  ![arg0.toNat, 145, 0]
def k0_off292 (i : grid0.Coords) : Fin 2 → Nat :=
  let arg0 : BitVec 32 := BitVec.ofNat 32 (i 0).val
  let c116000_i32 : BitVec 32 := 116000#32
  ![arg0.toNat, 116000]
def k0_off293 (i : grid0.Coords) : Fin 3 → Nat :=
  let arg0 : BitVec 32 := BitVec.ofNat 32 (i 0).val
  let c146_i32 : BitVec 32 := 146#32
  let c0_i32_850 : BitVec 32 := 0#32
  ![arg0.toNat, 146, 0]
def k0_off294 (i : grid0.Coords) : Fin 2 → Nat :=
  let arg0 : BitVec 32 := BitVec.ofNat 32 (i 0).val
  let c116800_i32 : BitVec 32 := 116800#32
  ![arg0.toNat, 116800]
def k0_off295 (i : grid0.Coords) : Fin 3 → Nat :=
  let arg0 : BitVec 32 := BitVec.ofNat 32 (i 0).val
  let c147_i32 : BitVec 32 := 147#32
  let c0_i32_856 : BitVec 32 := 0#32
  ![arg0.toNat, 147, 0]
def k0_off296 (i : grid0.Coords) : Fin 2 → Nat :=
  let arg0 : BitVec 32 := BitVec.ofNat 32 (i 0).val
  let c117600_i32 : BitVec 32 := 117600#32
  ![arg0.toNat, 117600]
def k0_off297 (i : grid0.Coords) : Fin 3 → Nat :=
  let arg0 : BitVec 32 := BitVec.ofNat 32 (i 0).val
  let c148_i32 : BitVec 32 := 148#32
  let c0_i32_862 : BitVec 32 := 0#32
  ![arg0.toNat, 148, 0]
def k0_off298 (i : grid0.Coords) : Fin 2 → Nat :=
  let arg0 : BitVec 32 := BitVec.ofNat 32 (i 0).val
  let c118400_i32 : BitVec 32 := 118400#32
  ![arg0.toNat, 118400]
def k0_off299 (i : grid0.Coords) : Fin 3 → Nat :=
  let arg0 : BitVec 32 := BitVec.ofNat 32 (i 0).val
  let c149_i32 : BitVec 32 := 149#32
  let c0_i32_868 : BitVec 32 := 0#32
  ![arg0.toNat, 149, 0]
def k0_off300 (i : grid0.Coords) : Fin 2 → Nat :=
  let arg0 : BitVec 32 := BitVec.ofNat 32 (i 0).val
  let c119200_i32 : BitVec 32 := 119200#32
  ![arg0.toNat, 119200]
def k0_off301 (i : grid0.Coords) : Fin 3 → Nat :=
  let arg0 : BitVec 32 := BitVec.ofNat 32 (i 0).val
  let c150_i32 : BitVec 32 := 150#32
  let c0_i32_874 : BitVec 32 := 0#32
  ![arg0.toNat, 150, 0]
def k0_off302 (i : grid0.Coords) : Fin 2 → Nat :=
  let arg0 : BitVec 32 := BitVec.ofNat 32 (i 0).val
  let c120000_i32 : BitVec 32 := 120000#32
  ![arg0.toNat, 120000]
def k0_off303 (i : grid0.Coords) : Fin 3 → Nat :=
  let arg0 : BitVec 32 := BitVec.ofNat 32 (i 0).val
  let c151_i32 : BitVec 32 := 151#32
  let c0_i32_880 : BitVec 32 := 0#32
  ![arg0.toNat, 151, 0]
def k0_off304 (i : grid0.Coords) : Fin 2 → Nat :=
  let arg0 : BitVec 32 := BitVec.ofNat 32 (i 0).val
  let c120800_i32 : BitVec 32 := 120800#32
  ![arg0.toNat, 120800]
def k0_off305 (i : grid0.Coords) : Fin 3 → Nat :=
  let arg0 : BitVec 32 := BitVec.ofNat 32 (i 0).val
  let c152_i32 : BitVec 32 := 152#32
  let c0_i32_886 : BitVec 32 := 0#32
  ![arg0.toNat, 152, 0]
def k0_off306 (i : grid0.Coords) : Fin 2 → Nat :=
  let arg0 : BitVec 32 := BitVec.ofNat 32 (i 0).val
  let c121600_i32 : BitVec 32 := 121600#32
  ![arg0.toNat, 121600]
def k0_off307 (i : grid0.Coords) : Fin 3 → Nat :=
  let arg0 : BitVec 32 := BitVec.ofNat 32 (i 0).val
  let c153_i32 : BitVec 32 := 153#32
  let c0_i32_892 : BitVec 32 := 0#32
  ![arg0.toNat, 153, 0]
def k0_off308 (i : grid0.Coords) : Fin 2 → Nat :=
  let arg0 : BitVec 32 := BitVec.ofNat 32 (i 0).val
  let c122400_i32 : BitVec 32 := 122400#32
  ![arg0.toNat, 122400]
def k0_off309 (i : grid0.Coords) : Fin 3 → Nat :=
  let arg0 : BitVec 32 := BitVec.ofNat 32 (i 0).val
  let c154_i32 : BitVec 32 := 154#32
  let c0_i32_898 : BitVec 32 := 0#32
  ![arg0.toNat, 154, 0]
def k0_off310 (i : grid0.Coords) : Fin 2 → Nat :=
  let arg0 : BitVec 32 := BitVec.ofNat 32 (i 0).val
  let c123200_i32 : BitVec 32 := 123200#32
  ![arg0.toNat, 123200]
def k0_off311 (i : grid0.Coords) : Fin 3 → Nat :=
  let arg0 : BitVec 32 := BitVec.ofNat 32 (i 0).val
  let c155_i32 : BitVec 32 := 155#32
  let c0_i32_904 : BitVec 32 := 0#32
  ![arg0.toNat, 155, 0]
def k0_off312 (i : grid0.Coords) : Fin 2 → Nat :=
  let arg0 : BitVec 32 := BitVec.ofNat 32 (i 0).val
  let c124000_i32 : BitVec 32 := 124000#32
  ![arg0.toNat, 124000]
def k0_off313 (i : grid0.Coords) : Fin 3 → Nat :=
  let arg0 : BitVec 32 := BitVec.ofNat 32 (i 0).val
  let c156_i32 : BitVec 32 := 156#32
  let c0_i32_910 : BitVec 32 := 0#32
  ![arg0.toNat, 156, 0]
def k0_off314 (i : grid0.Coords) : Fin 2 → Nat :=
  let arg0 : BitVec 32 := BitVec.ofNat 32 (i 0).val
  let c124800_i32 : BitVec 32 := 124800#32
  ![arg0.toNat, 124800]
def k0_off315 (i : grid0.Coords) : Fin 3 → Nat :=
  let arg0 : BitVec 32 := BitVec.ofNat 32 (i 0).val
  let c157_i32 : BitVec 32 := 157#32
  let c0_i32_916 : BitVec 32 := 0#32
  ![arg0.toNat, 157, 0]
def k0_off316 (i : grid0.Coords) : Fin 2 → Nat :=
  let arg0 : BitVec 32 := BitVec.ofNat 32 (i 0).val
  let c125600_i32 : BitVec 32 := 125600#32
  ![arg0.toNat, 125600]
def k0_off317 (i : grid0.Coords) : Fin 3 → Nat :=
  let arg0 : BitVec 32 := BitVec.ofNat 32 (i 0).val
  let c158_i32 : BitVec 32 := 158#32
  let c0_i32_922 : BitVec 32 := 0#32
  ![arg0.toNat, 158, 0]
def k0_off318 (i : grid0.Coords) : Fin 2 → Nat :=
  let arg0 : BitVec 32 := BitVec.ofNat 32 (i 0).val
  let c126400_i32 : BitVec 32 := 126400#32
  ![arg0.toNat, 126400]
def k0_off319 (i : grid0.Coords) : Fin 3 → Nat :=
  let arg0 : BitVec 32 := BitVec.ofNat 32 (i 0).val
  let c159_i32 : BitVec 32 := 159#32
  let c0_i32_928 : BitVec 32 := 0#32
  ![arg0.toNat, 159, 0]
def k0_off320 (i : grid0.Coords) : Fin 2 → Nat :=
  let arg0 : BitVec 32 := BitVec.ofNat 32 (i 0).val
  let c127200_i32 : BitVec 32 := 127200#32
  ![arg0.toNat, 127200]
def k0_off321 (i : grid0.Coords) : Fin 3 → Nat :=
  let arg0 : BitVec 32 := BitVec.ofNat 32 (i 0).val
  let c160_i32 : BitVec 32 := 160#32
  let c0_i32_934 : BitVec 32 := 0#32
  ![arg0.toNat, 160, 0]
def k0_off322 (i : grid0.Coords) : Fin 2 → Nat :=
  let arg0 : BitVec 32 := BitVec.ofNat 32 (i 0).val
  let c128000_i32 : BitVec 32 := 128000#32
  ![arg0.toNat, 128000]
def k0_off323 (i : grid0.Coords) : Fin 3 → Nat :=
  let arg0 : BitVec 32 := BitVec.ofNat 32 (i 0).val
  let c161_i32 : BitVec 32 := 161#32
  let c0_i32_940 : BitVec 32 := 0#32
  ![arg0.toNat, 161, 0]
def k0_off324 (i : grid0.Coords) : Fin 2 → Nat :=
  let arg0 : BitVec 32 := BitVec.ofNat 32 (i 0).val
  let c128800_i32 : BitVec 32 := 128800#32
  ![arg0.toNat, 128800]
def k0_off325 (i : grid0.Coords) : Fin 3 → Nat :=
  let arg0 : BitVec 32 := BitVec.ofNat 32 (i 0).val
  let c162_i32 : BitVec 32 := 162#32
  let c0_i32_946 : BitVec 32 := 0#32
  ![arg0.toNat, 162, 0]
def k0_off326 (i : grid0.Coords) : Fin 2 → Nat :=
  let arg0 : BitVec 32 := BitVec.ofNat 32 (i 0).val
  let c129600_i32 : BitVec 32 := 129600#32
  ![arg0.toNat, 129600]
def k0_off327 (i : grid0.Coords) : Fin 3 → Nat :=
  let arg0 : BitVec 32 := BitVec.ofNat 32 (i 0).val
  let c163_i32 : BitVec 32 := 163#32
  let c0_i32_952 : BitVec 32 := 0#32
  ![arg0.toNat, 163, 0]
def k0_off328 (i : grid0.Coords) : Fin 2 → Nat :=
  let arg0 : BitVec 32 := BitVec.ofNat 32 (i 0).val
  let c130400_i32 : BitVec 32 := 130400#32
  ![arg0.toNat, 130400]
def k0_off329 (i : grid0.Coords) : Fin 3 → Nat :=
  let arg0 : BitVec 32 := BitVec.ofNat 32 (i 0).val
  let c164_i32 : BitVec 32 := 164#32
  let c0_i32_958 : BitVec 32 := 0#32
  ![arg0.toNat, 164, 0]
def k0_off330 (i : grid0.Coords) : Fin 2 → Nat :=
  let arg0 : BitVec 32 := BitVec.ofNat 32 (i 0).val
  let c131200_i32 : BitVec 32 := 131200#32
  ![arg0.toNat, 131200]
def k0_off331 (i : grid0.Coords) : Fin 3 → Nat :=
  let arg0 : BitVec 32 := BitVec.ofNat 32 (i 0).val
  let c165_i32 : BitVec 32 := 165#32
  let c0_i32_964 : BitVec 32 := 0#32
  ![arg0.toNat, 165, 0]
def k0_off332 (i : grid0.Coords) : Fin 2 → Nat :=
  let arg0 : BitVec 32 := BitVec.ofNat 32 (i 0).val
  let c132000_i32 : BitVec 32 := 132000#32
  ![arg0.toNat, 132000]
def k0_off333 (i : grid0.Coords) : Fin 3 → Nat :=
  let arg0 : BitVec 32 := BitVec.ofNat 32 (i 0).val
  let c166_i32 : BitVec 32 := 166#32
  let c0_i32_970 : BitVec 32 := 0#32
  ![arg0.toNat, 166, 0]
def k0_off334 (i : grid0.Coords) : Fin 2 → Nat :=
  let arg0 : BitVec 32 := BitVec.ofNat 32 (i 0).val
  let c132800_i32 : BitVec 32 := 132800#32
  ![arg0.toNat, 132800]
def k0_off335 (i : grid0.Coords) : Fin 3 → Nat :=
  let arg0 : BitVec 32 := BitVec.ofNat 32 (i 0).val
  let c167_i32 : BitVec 32 := 167#32
  let c0_i32_976 : BitVec 32 := 0#32
  ![arg0.toNat, 167, 0]
def k0_off336 (i : grid0.Coords) : Fin 2 → Nat :=
  let arg0 : BitVec 32 := BitVec.ofNat 32 (i 0).val
  let c133600_i32 : BitVec 32 := 133600#32
  ![arg0.toNat, 133600]
def k0_off337 (i : grid0.Coords) : Fin 3 → Nat :=
  let arg0 : BitVec 32 := BitVec.ofNat 32 (i 0).val
  let c168_i32 : BitVec 32 := 168#32
  let c0_i32_982 : BitVec 32 := 0#32
  ![arg0.toNat, 168, 0]
def k0_off338 (i : grid0.Coords) : Fin 2 → Nat :=
  let arg0 : BitVec 32 := BitVec.ofNat 32 (i 0).val
  let c134400_i32 : BitVec 32 := 134400#32
  ![arg0.toNat, 134400]
def k0_off339 (i : grid0.Coords) : Fin 3 → Nat :=
  let arg0 : BitVec 32 := BitVec.ofNat 32 (i 0).val
  let c169_i32 : BitVec 32 := 169#32
  let c0_i32_988 : BitVec 32 := 0#32
  ![arg0.toNat, 169, 0]
def k0_off340 (i : grid0.Coords) : Fin 2 → Nat :=
  let arg0 : BitVec 32 := BitVec.ofNat 32 (i 0).val
  let c135200_i32 : BitVec 32 := 135200#32
  ![arg0.toNat, 135200]
def k0_off341 (i : grid0.Coords) : Fin 3 → Nat :=
  let arg0 : BitVec 32 := BitVec.ofNat 32 (i 0).val
  let c170_i32 : BitVec 32 := 170#32
  let c0_i32_994 : BitVec 32 := 0#32
  ![arg0.toNat, 170, 0]
def k0_off342 (i : grid0.Coords) : Fin 2 → Nat :=
  let arg0 : BitVec 32 := BitVec.ofNat 32 (i 0).val
  let c136000_i32 : BitVec 32 := 136000#32
  ![arg0.toNat, 136000]
def k0_off343 (i : grid0.Coords) : Fin 3 → Nat :=
  let arg0 : BitVec 32 := BitVec.ofNat 32 (i 0).val
  let c171_i32 : BitVec 32 := 171#32
  let c0_i32_1000 : BitVec 32 := 0#32
  ![arg0.toNat, 171, 0]
def k0_off344 (i : grid0.Coords) : Fin 2 → Nat :=
  let arg0 : BitVec 32 := BitVec.ofNat 32 (i 0).val
  let c136800_i32 : BitVec 32 := 136800#32
  ![arg0.toNat, 136800]
def k0_off345 (i : grid0.Coords) : Fin 3 → Nat :=
  let arg0 : BitVec 32 := BitVec.ofNat 32 (i 0).val
  let c172_i32 : BitVec 32 := 172#32
  let c0_i32_1006 : BitVec 32 := 0#32
  ![arg0.toNat, 172, 0]
def k0_off346 (i : grid0.Coords) : Fin 2 → Nat :=
  let arg0 : BitVec 32 := BitVec.ofNat 32 (i 0).val
  let c137600_i32 : BitVec 32 := 137600#32
  ![arg0.toNat, 137600]
def k0_off347 (i : grid0.Coords) : Fin 3 → Nat :=
  let arg0 : BitVec 32 := BitVec.ofNat 32 (i 0).val
  let c173_i32 : BitVec 32 := 173#32
  let c0_i32_1012 : BitVec 32 := 0#32
  ![arg0.toNat, 173, 0]
def k0_off348 (i : grid0.Coords) : Fin 2 → Nat :=
  let arg0 : BitVec 32 := BitVec.ofNat 32 (i 0).val
  let c138400_i32 : BitVec 32 := 138400#32
  ![arg0.toNat, 138400]
def k0_off349 (i : grid0.Coords) : Fin 3 → Nat :=
  let arg0 : BitVec 32 := BitVec.ofNat 32 (i 0).val
  let c174_i32 : BitVec 32 := 174#32
  let c0_i32_1018 : BitVec 32 := 0#32
  ![arg0.toNat, 174, 0]
def k0_off350 (i : grid0.Coords) : Fin 2 → Nat :=
  let arg0 : BitVec 32 := BitVec.ofNat 32 (i 0).val
  let c139200_i32 : BitVec 32 := 139200#32
  ![arg0.toNat, 139200]
def k0_off351 (i : grid0.Coords) : Fin 3 → Nat :=
  let arg0 : BitVec 32 := BitVec.ofNat 32 (i 0).val
  let c175_i32 : BitVec 32 := 175#32
  let c0_i32_1024 : BitVec 32 := 0#32
  ![arg0.toNat, 175, 0]
def k0_off352 (i : grid0.Coords) : Fin 2 → Nat :=
  let arg0 : BitVec 32 := BitVec.ofNat 32 (i 0).val
  let c140000_i32 : BitVec 32 := 140000#32
  ![arg0.toNat, 140000]
def k0_off353 (i : grid0.Coords) : Fin 3 → Nat :=
  let arg0 : BitVec 32 := BitVec.ofNat 32 (i 0).val
  let c176_i32 : BitVec 32 := 176#32
  let c0_i32_1030 : BitVec 32 := 0#32
  ![arg0.toNat, 176, 0]
def k0_off354 (i : grid0.Coords) : Fin 2 → Nat :=
  let arg0 : BitVec 32 := BitVec.ofNat 32 (i 0).val
  let c140800_i32 : BitVec 32 := 140800#32
  ![arg0.toNat, 140800]
def k0_off355 (i : grid0.Coords) : Fin 3 → Nat :=
  let arg0 : BitVec 32 := BitVec.ofNat 32 (i 0).val
  let c177_i32 : BitVec 32 := 177#32
  let c0_i32_1036 : BitVec 32 := 0#32
  ![arg0.toNat, 177, 0]
def k0_off356 (i : grid0.Coords) : Fin 2 → Nat :=
  let arg0 : BitVec 32 := BitVec.ofNat 32 (i 0).val
  let c141600_i32 : BitVec 32 := 141600#32
  ![arg0.toNat, 141600]
def k0_off357 (i : grid0.Coords) : Fin 3 → Nat :=
  let arg0 : BitVec 32 := BitVec.ofNat 32 (i 0).val
  let c178_i32 : BitVec 32 := 178#32
  let c0_i32_1042 : BitVec 32 := 0#32
  ![arg0.toNat, 178, 0]
def k0_off358 (i : grid0.Coords) : Fin 2 → Nat :=
  let arg0 : BitVec 32 := BitVec.ofNat 32 (i 0).val
  let c142400_i32 : BitVec 32 := 142400#32
  ![arg0.toNat, 142400]
def k0_off359 (i : grid0.Coords) : Fin 3 → Nat :=
  let arg0 : BitVec 32 := BitVec.ofNat 32 (i 0).val
  let c179_i32 : BitVec 32 := 179#32
  let c0_i32_1048 : BitVec 32 := 0#32
  ![arg0.toNat, 179, 0]
def k0_off360 (i : grid0.Coords) : Fin 2 → Nat :=
  let arg0 : BitVec 32 := BitVec.ofNat 32 (i 0).val
  let c143200_i32 : BitVec 32 := 143200#32
  ![arg0.toNat, 143200]

class Facts₀ : Prop where
  inb_S8_S1_0 : ∀ a, (![0] : Fin 1 → Nat) a + S1.size a ≤ S8.size a
  squeezes_S1_S_ : S1.Squeezes S_
  squeezes_S1x1x16000_S16000 : S1x1x16000.Squeezes S16000
  squeezes_S1x16000_S16000 : S1x16000.Squeezes S16000
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  hcc0_scratch0 : 0 + S8.numel ≤ 8
  k0_off1_inb : ∀ i : grid0.Coords, ∀ a, (k0_off1 i) a + S1x1x16000.size a ≤ S16x180x16000.size a
  k0_off2_inb : ∀ i : grid0.Coords, ∀ a, (k0_off2 i) a + S1x16000.size a ≤ S16x160000.size a
  k0_off3_inb : ∀ i : grid0.Coords, ∀ a, (k0_off3 i) a + S1x1x16000.size a ≤ S16x180x16000.size a
  k0_off4_inb : ∀ i : grid0.Coords, ∀ a, (k0_off4 i) a + S1x16000.size a ≤ S16x160000.size a
  k0_off5_inb : ∀ i : grid0.Coords, ∀ a, (k0_off5 i) a + S1x1x16000.size a ≤ S16x180x16000.size a
  k0_off6_inb : ∀ i : grid0.Coords, ∀ a, (k0_off6 i) a + S1x16000.size a ≤ S16x160000.size a
  k0_off7_inb : ∀ i : grid0.Coords, ∀ a, (k0_off7 i) a + S1x1x16000.size a ≤ S16x180x16000.size a
  k0_off8_inb : ∀ i : grid0.Coords, ∀ a, (k0_off8 i) a + S1x16000.size a ≤ S16x160000.size a
  k0_off9_inb : ∀ i : grid0.Coords, ∀ a, (k0_off9 i) a + S1x1x16000.size a ≤ S16x180x16000.size a
  k0_off10_inb : ∀ i : grid0.Coords, ∀ a, (k0_off10 i) a + S1x16000.size a ≤ S16x160000.size a
  k0_off11_inb : ∀ i : grid0.Coords, ∀ a, (k0_off11 i) a + S1x1x16000.size a ≤ S16x180x16000.size a
  k0_off12_inb : ∀ i : grid0.Coords, ∀ a, (k0_off12 i) a + S1x16000.size a ≤ S16x160000.size a
  k0_off13_inb : ∀ i : grid0.Coords, ∀ a, (k0_off13 i) a + S1x1x16000.size a ≤ S16x180x16000.size a
  k0_off14_inb : ∀ i : grid0.Coords, ∀ a, (k0_off14 i) a + S1x16000.size a ≤ S16x160000.size a
  k0_off15_inb : ∀ i : grid0.Coords, ∀ a, (k0_off15 i) a + S1x1x16000.size a ≤ S16x180x16000.size a
  k0_off16_inb : ∀ i : grid0.Coords, ∀ a, (k0_off16 i) a + S1x16000.size a ≤ S16x160000.size a
  k0_off17_inb : ∀ i : grid0.Coords, ∀ a, (k0_off17 i) a + S1x1x16000.size a ≤ S16x180x16000.size a
  k0_off18_inb : ∀ i : grid0.Coords, ∀ a, (k0_off18 i) a + S1x16000.size a ≤ S16x160000.size a
  k0_off19_inb : ∀ i : grid0.Coords, ∀ a, (k0_off19 i) a + S1x1x16000.size a ≤ S16x180x16000.size a
  k0_off20_inb : ∀ i : grid0.Coords, ∀ a, (k0_off20 i) a + S1x16000.size a ≤ S16x160000.size a
  k0_off21_inb : ∀ i : grid0.Coords, ∀ a, (k0_off21 i) a + S1x1x16000.size a ≤ S16x180x16000.size a
  k0_off22_inb : ∀ i : grid0.Coords, ∀ a, (k0_off22 i) a + S1x16000.size a ≤ S16x160000.size a
  k0_off23_inb : ∀ i : grid0.Coords, ∀ a, (k0_off23 i) a + S1x1x16000.size a ≤ S16x180x16000.size a
  k0_off24_inb : ∀ i : grid0.Coords, ∀ a, (k0_off24 i) a + S1x16000.size a ≤ S16x160000.size a
  k0_off25_inb : ∀ i : grid0.Coords, ∀ a, (k0_off25 i) a + S1x1x16000.size a ≤ S16x180x16000.size a
  k0_off26_inb : ∀ i : grid0.Coords, ∀ a, (k0_off26 i) a + S1x16000.size a ≤ S16x160000.size a
  k0_off27_inb : ∀ i : grid0.Coords, ∀ a, (k0_off27 i) a + S1x1x16000.size a ≤ S16x180x16000.size a
  k0_off28_inb : ∀ i : grid0.Coords, ∀ a, (k0_off28 i) a + S1x16000.size a ≤ S16x160000.size a
  k0_off29_inb : ∀ i : grid0.Coords, ∀ a, (k0_off29 i) a + S1x1x16000.size a ≤ S16x180x16000.size a
  k0_off30_inb : ∀ i : grid0.Coords, ∀ a, (k0_off30 i) a + S1x16000.size a ≤ S16x160000.size a
  k0_off31_inb : ∀ i : grid0.Coords, ∀ a, (k0_off31 i) a + S1x1x16000.size a ≤ S16x180x16000.size a
  k0_off32_inb : ∀ i : grid0.Coords, ∀ a, (k0_off32 i) a + S1x16000.size a ≤ S16x160000.size a
  k0_off33_inb : ∀ i : grid0.Coords, ∀ a, (k0_off33 i) a + S1x1x16000.size a ≤ S16x180x16000.size a
  k0_off34_inb : ∀ i : grid0.Coords, ∀ a, (k0_off34 i) a + S1x16000.size a ≤ S16x160000.size a
  k0_off35_inb : ∀ i : grid0.Coords, ∀ a, (k0_off35 i) a + S1x1x16000.size a ≤ S16x180x16000.size a
  k0_off36_inb : ∀ i : grid0.Coords, ∀ a, (k0_off36 i) a + S1x16000.size a ≤ S16x160000.size a
  k0_off37_inb : ∀ i : grid0.Coords, ∀ a, (k0_off37 i) a + S1x1x16000.size a ≤ S16x180x16000.size a
  k0_off38_inb : ∀ i : grid0.Coords, ∀ a, (k0_off38 i) a + S1x16000.size a ≤ S16x160000.size a
  k0_off39_inb : ∀ i : grid0.Coords, ∀ a, (k0_off39 i) a + S1x1x16000.size a ≤ S16x180x16000.size a
  k0_off40_inb : ∀ i : grid0.Coords, ∀ a, (k0_off40 i) a + S1x16000.size a ≤ S16x160000.size a
  k0_off41_inb : ∀ i : grid0.Coords, ∀ a, (k0_off41 i) a + S1x1x16000.size a ≤ S16x180x16000.size a
  k0_off42_inb : ∀ i : grid0.Coords, ∀ a, (k0_off42 i) a + S1x16000.size a ≤ S16x160000.size a
  k0_off43_inb : ∀ i : grid0.Coords, ∀ a, (k0_off43 i) a + S1x1x16000.size a ≤ S16x180x16000.size a
  k0_off44_inb : ∀ i : grid0.Coords, ∀ a, (k0_off44 i) a + S1x16000.size a ≤ S16x160000.size a
  k0_off45_inb : ∀ i : grid0.Coords, ∀ a, (k0_off45 i) a + S1x1x16000.size a ≤ S16x180x16000.size a
  k0_off46_inb : ∀ i : grid0.Coords, ∀ a, (k0_off46 i) a + S1x16000.size a ≤ S16x160000.size a
  k0_off47_inb : ∀ i : grid0.Coords, ∀ a, (k0_off47 i) a + S1x1x16000.size a ≤ S16x180x16000.size a
  k0_off48_inb : ∀ i : grid0.Coords, ∀ a, (k0_off48 i) a + S1x16000.size a ≤ S16x160000.size a
  k0_off49_inb : ∀ i : grid0.Coords, ∀ a, (k0_off49 i) a + S1x1x16000.size a ≤ S16x180x16000.size a
  k0_off50_inb : ∀ i : grid0.Coords, ∀ a, (k0_off50 i) a + S1x16000.size a ≤ S16x160000.size a
  k0_off51_inb : ∀ i : grid0.Coords, ∀ a, (k0_off51 i) a + S1x1x16000.size a ≤ S16x180x16000.size a
  k0_off52_inb : ∀ i : grid0.Coords, ∀ a, (k0_off52 i) a + S1x16000.size a ≤ S16x160000.size a
  k0_off53_inb : ∀ i : grid0.Coords, ∀ a, (k0_off53 i) a + S1x1x16000.size a ≤ S16x180x16000.size a
  k0_off54_inb : ∀ i : grid0.Coords, ∀ a, (k0_off54 i) a + S1x16000.size a ≤ S16x160000.size a
  k0_off55_inb : ∀ i : grid0.Coords, ∀ a, (k0_off55 i) a + S1x1x16000.size a ≤ S16x180x16000.size a
  k0_off56_inb : ∀ i : grid0.Coords, ∀ a, (k0_off56 i) a + S1x16000.size a ≤ S16x160000.size a
  k0_off57_inb : ∀ i : grid0.Coords, ∀ a, (k0_off57 i) a + S1x1x16000.size a ≤ S16x180x16000.size a
  k0_off58_inb : ∀ i : grid0.Coords, ∀ a, (k0_off58 i) a + S1x16000.size a ≤ S16x160000.size a
  k0_off59_inb : ∀ i : grid0.Coords, ∀ a, (k0_off59 i) a + S1x1x16000.size a ≤ S16x180x16000.size a
  k0_off60_inb : ∀ i : grid0.Coords, ∀ a, (k0_off60 i) a + S1x16000.size a ≤ S16x160000.size a
  k0_off61_inb : ∀ i : grid0.Coords, ∀ a, (k0_off61 i) a + S1x1x16000.size a ≤ S16x180x16000.size a
  k0_off62_inb : ∀ i : grid0.Coords, ∀ a, (k0_off62 i) a + S1x16000.size a ≤ S16x160000.size a
  k0_off63_inb : ∀ i : grid0.Coords, ∀ a, (k0_off63 i) a + S1x1x16000.size a ≤ S16x180x16000.size a
  k0_off64_inb : ∀ i : grid0.Coords, ∀ a, (k0_off64 i) a + S1x16000.size a ≤ S16x160000.size a
  k0_off65_inb : ∀ i : grid0.Coords, ∀ a, (k0_off65 i) a + S1x1x16000.size a ≤ S16x180x16000.size a
  k0_off66_inb : ∀ i : grid0.Coords, ∀ a, (k0_off66 i) a + S1x16000.size a ≤ S16x160000.size a
  k0_off67_inb : ∀ i : grid0.Coords, ∀ a, (k0_off67 i) a + S1x1x16000.size a ≤ S16x180x16000.size a
  k0_off68_inb : ∀ i : grid0.Coords, ∀ a, (k0_off68 i) a + S1x16000.size a ≤ S16x160000.size a
  k0_off69_inb : ∀ i : grid0.Coords, ∀ a, (k0_off69 i) a + S1x1x16000.size a ≤ S16x180x16000.size a
  k0_off70_inb : ∀ i : grid0.Coords, ∀ a, (k0_off70 i) a + S1x16000.size a ≤ S16x160000.size a
  k0_off71_inb : ∀ i : grid0.Coords, ∀ a, (k0_off71 i) a + S1x1x16000.size a ≤ S16x180x16000.size a
  k0_off72_inb : ∀ i : grid0.Coords, ∀ a, (k0_off72 i) a + S1x16000.size a ≤ S16x160000.size a
  k0_off73_inb : ∀ i : grid0.Coords, ∀ a, (k0_off73 i) a + S1x1x16000.size a ≤ S16x180x16000.size a
  k0_off74_inb : ∀ i : grid0.Coords, ∀ a, (k0_off74 i) a + S1x16000.size a ≤ S16x160000.size a
  k0_off75_inb : ∀ i : grid0.Coords, ∀ a, (k0_off75 i) a + S1x1x16000.size a ≤ S16x180x16000.size a
  k0_off76_inb : ∀ i : grid0.Coords, ∀ a, (k0_off76 i) a + S1x16000.size a ≤ S16x160000.size a
  k0_off77_inb : ∀ i : grid0.Coords, ∀ a, (k0_off77 i) a + S1x1x16000.size a ≤ S16x180x16000.size a
  k0_off78_inb : ∀ i : grid0.Coords, ∀ a, (k0_off78 i) a + S1x16000.size a ≤ S16x160000.size a
  k0_off79_inb : ∀ i : grid0.Coords, ∀ a, (k0_off79 i) a + S1x1x16000.size a ≤ S16x180x16000.size a
  k0_off80_inb : ∀ i : grid0.Coords, ∀ a, (k0_off80 i) a + S1x16000.size a ≤ S16x160000.size a
  k0_off81_inb : ∀ i : grid0.Coords, ∀ a, (k0_off81 i) a + S1x1x16000.size a ≤ S16x180x16000.size a
  k0_off82_inb : ∀ i : grid0.Coords, ∀ a, (k0_off82 i) a + S1x16000.size a ≤ S16x160000.size a
  k0_off83_inb : ∀ i : grid0.Coords, ∀ a, (k0_off83 i) a + S1x1x16000.size a ≤ S16x180x16000.size a
  k0_off84_inb : ∀ i : grid0.Coords, ∀ a, (k0_off84 i) a + S1x16000.size a ≤ S16x160000.size a
  k0_off85_inb : ∀ i : grid0.Coords, ∀ a, (k0_off85 i) a + S1x1x16000.size a ≤ S16x180x16000.size a
  k0_off86_inb : ∀ i : grid0.Coords, ∀ a, (k0_off86 i) a + S1x16000.size a ≤ S16x160000.size a
  k0_off87_inb : ∀ i : grid0.Coords, ∀ a, (k0_off87 i) a + S1x1x16000.size a ≤ S16x180x16000.size a
  k0_off88_inb : ∀ i : grid0.Coords, ∀ a, (k0_off88 i) a + S1x16000.size a ≤ S16x160000.size a
  k0_off89_inb : ∀ i : grid0.Coords, ∀ a, (k0_off89 i) a + S1x1x16000.size a ≤ S16x180x16000.size a
  k0_off90_inb : ∀ i : grid0.Coords, ∀ a, (k0_off90 i) a + S1x16000.size a ≤ S16x160000.size a
  k0_off91_inb : ∀ i : grid0.Coords, ∀ a, (k0_off91 i) a + S1x1x16000.size a ≤ S16x180x16000.size a
  k0_off92_inb : ∀ i : grid0.Coords, ∀ a, (k0_off92 i) a + S1x16000.size a ≤ S16x160000.size a
  k0_off93_inb : ∀ i : grid0.Coords, ∀ a, (k0_off93 i) a + S1x1x16000.size a ≤ S16x180x16000.size a
  k0_off94_inb : ∀ i : grid0.Coords, ∀ a, (k0_off94 i) a + S1x16000.size a ≤ S16x160000.size a
  k0_off95_inb : ∀ i : grid0.Coords, ∀ a, (k0_off95 i) a + S1x1x16000.size a ≤ S16x180x16000.size a
  k0_off96_inb : ∀ i : grid0.Coords, ∀ a, (k0_off96 i) a + S1x16000.size a ≤ S16x160000.size a
  k0_off97_inb : ∀ i : grid0.Coords, ∀ a, (k0_off97 i) a + S1x1x16000.size a ≤ S16x180x16000.size a
  k0_off98_inb : ∀ i : grid0.Coords, ∀ a, (k0_off98 i) a + S1x16000.size a ≤ S16x160000.size a
  k0_off99_inb : ∀ i : grid0.Coords, ∀ a, (k0_off99 i) a + S1x1x16000.size a ≤ S16x180x16000.size a
  k0_off100_inb : ∀ i : grid0.Coords, ∀ a, (k0_off100 i) a + S1x16000.size a ≤ S16x160000.size a
  k0_off101_inb : ∀ i : grid0.Coords, ∀ a, (k0_off101 i) a + S1x1x16000.size a ≤ S16x180x16000.size a
  k0_off102_inb : ∀ i : grid0.Coords, ∀ a, (k0_off102 i) a + S1x16000.size a ≤ S16x160000.size a
  k0_off103_inb : ∀ i : grid0.Coords, ∀ a, (k0_off103 i) a + S1x1x16000.size a ≤ S16x180x16000.size a
  k0_off104_inb : ∀ i : grid0.Coords, ∀ a, (k0_off104 i) a + S1x16000.size a ≤ S16x160000.size a
  k0_off105_inb : ∀ i : grid0.Coords, ∀ a, (k0_off105 i) a + S1x1x16000.size a ≤ S16x180x16000.size a
  k0_off106_inb : ∀ i : grid0.Coords, ∀ a, (k0_off106 i) a + S1x16000.size a ≤ S16x160000.size a
  k0_off107_inb : ∀ i : grid0.Coords, ∀ a, (k0_off107 i) a + S1x1x16000.size a ≤ S16x180x16000.size a
  k0_off108_inb : ∀ i : grid0.Coords, ∀ a, (k0_off108 i) a + S1x16000.size a ≤ S16x160000.size a
  k0_off109_inb : ∀ i : grid0.Coords, ∀ a, (k0_off109 i) a + S1x1x16000.size a ≤ S16x180x16000.size a
  k0_off110_inb : ∀ i : grid0.Coords, ∀ a, (k0_off110 i) a + S1x16000.size a ≤ S16x160000.size a
  k0_off111_inb : ∀ i : grid0.Coords, ∀ a, (k0_off111 i) a + S1x1x16000.size a ≤ S16x180x16000.size a
  k0_off112_inb : ∀ i : grid0.Coords, ∀ a, (k0_off112 i) a + S1x16000.size a ≤ S16x160000.size a
  k0_off113_inb : ∀ i : grid0.Coords, ∀ a, (k0_off113 i) a + S1x1x16000.size a ≤ S16x180x16000.size a
  k0_off114_inb : ∀ i : grid0.Coords, ∀ a, (k0_off114 i) a + S1x16000.size a ≤ S16x160000.size a
  k0_off115_inb : ∀ i : grid0.Coords, ∀ a, (k0_off115 i) a + S1x1x16000.size a ≤ S16x180x16000.size a
  k0_off116_inb : ∀ i : grid0.Coords, ∀ a, (k0_off116 i) a + S1x16000.size a ≤ S16x160000.size a
  k0_off117_inb : ∀ i : grid0.Coords, ∀ a, (k0_off117 i) a + S1x1x16000.size a ≤ S16x180x16000.size a
  k0_off118_inb : ∀ i : grid0.Coords, ∀ a, (k0_off118 i) a + S1x16000.size a ≤ S16x160000.size a
  k0_off119_inb : ∀ i : grid0.Coords, ∀ a, (k0_off119 i) a + S1x1x16000.size a ≤ S16x180x16000.size a
  k0_off120_inb : ∀ i : grid0.Coords, ∀ a, (k0_off120 i) a + S1x16000.size a ≤ S16x160000.size a
  k0_off121_inb : ∀ i : grid0.Coords, ∀ a, (k0_off121 i) a + S1x1x16000.size a ≤ S16x180x16000.size a
  k0_off122_inb : ∀ i : grid0.Coords, ∀ a, (k0_off122 i) a + S1x16000.size a ≤ S16x160000.size a
  k0_off123_inb : ∀ i : grid0.Coords, ∀ a, (k0_off123 i) a + S1x1x16000.size a ≤ S16x180x16000.size a
  k0_off124_inb : ∀ i : grid0.Coords, ∀ a, (k0_off124 i) a + S1x16000.size a ≤ S16x160000.size a
  k0_off125_inb : ∀ i : grid0.Coords, ∀ a, (k0_off125 i) a + S1x1x16000.size a ≤ S16x180x16000.size a
  k0_off126_inb : ∀ i : grid0.Coords, ∀ a, (k0_off126 i) a + S1x16000.size a ≤ S16x160000.size a
  k0_off127_inb : ∀ i : grid0.Coords, ∀ a, (k0_off127 i) a + S1x1x16000.size a ≤ S16x180x16000.size a
  k0_off128_inb : ∀ i : grid0.Coords, ∀ a, (k0_off128 i) a + S1x16000.size a ≤ S16x160000.size a
  k0_off129_inb : ∀ i : grid0.Coords, ∀ a, (k0_off129 i) a + S1x1x16000.size a ≤ S16x180x16000.size a
  k0_off130_inb : ∀ i : grid0.Coords, ∀ a, (k0_off130 i) a + S1x16000.size a ≤ S16x160000.size a
  k0_off131_inb : ∀ i : grid0.Coords, ∀ a, (k0_off131 i) a + S1x1x16000.size a ≤ S16x180x16000.size a
  k0_off132_inb : ∀ i : grid0.Coords, ∀ a, (k0_off132 i) a + S1x16000.size a ≤ S16x160000.size a
  k0_off133_inb : ∀ i : grid0.Coords, ∀ a, (k0_off133 i) a + S1x1x16000.size a ≤ S16x180x16000.size a
  k0_off134_inb : ∀ i : grid0.Coords, ∀ a, (k0_off134 i) a + S1x16000.size a ≤ S16x160000.size a
  k0_off135_inb : ∀ i : grid0.Coords, ∀ a, (k0_off135 i) a + S1x1x16000.size a ≤ S16x180x16000.size a
  k0_off136_inb : ∀ i : grid0.Coords, ∀ a, (k0_off136 i) a + S1x16000.size a ≤ S16x160000.size a
  k0_off137_inb : ∀ i : grid0.Coords, ∀ a, (k0_off137 i) a + S1x1x16000.size a ≤ S16x180x16000.size a
  k0_off138_inb : ∀ i : grid0.Coords, ∀ a, (k0_off138 i) a + S1x16000.size a ≤ S16x160000.size a
  k0_off139_inb : ∀ i : grid0.Coords, ∀ a, (k0_off139 i) a + S1x1x16000.size a ≤ S16x180x16000.size a
  k0_off140_inb : ∀ i : grid0.Coords, ∀ a, (k0_off140 i) a + S1x16000.size a ≤ S16x160000.size a
  k0_off141_inb : ∀ i : grid0.Coords, ∀ a, (k0_off141 i) a + S1x1x16000.size a ≤ S16x180x16000.size a
  k0_off142_inb : ∀ i : grid0.Coords, ∀ a, (k0_off142 i) a + S1x16000.size a ≤ S16x160000.size a
  k0_off143_inb : ∀ i : grid0.Coords, ∀ a, (k0_off143 i) a + S1x1x16000.size a ≤ S16x180x16000.size a
  k0_off144_inb : ∀ i : grid0.Coords, ∀ a, (k0_off144 i) a + S1x16000.size a ≤ S16x160000.size a
  k0_off145_inb : ∀ i : grid0.Coords, ∀ a, (k0_off145 i) a + S1x1x16000.size a ≤ S16x180x16000.size a
  k0_off146_inb : ∀ i : grid0.Coords, ∀ a, (k0_off146 i) a + S1x16000.size a ≤ S16x160000.size a
  k0_off147_inb : ∀ i : grid0.Coords, ∀ a, (k0_off147 i) a + S1x1x16000.size a ≤ S16x180x16000.size a
  k0_off148_inb : ∀ i : grid0.Coords, ∀ a, (k0_off148 i) a + S1x16000.size a ≤ S16x160000.size a
  k0_off149_inb : ∀ i : grid0.Coords, ∀ a, (k0_off149 i) a + S1x1x16000.size a ≤ S16x180x16000.size a
  k0_off150_inb : ∀ i : grid0.Coords, ∀ a, (k0_off150 i) a + S1x16000.size a ≤ S16x160000.size a
  k0_off151_inb : ∀ i : grid0.Coords, ∀ a, (k0_off151 i) a + S1x1x16000.size a ≤ S16x180x16000.size a
  k0_off152_inb : ∀ i : grid0.Coords, ∀ a, (k0_off152 i) a + S1x16000.size a ≤ S16x160000.size a
  k0_off153_inb : ∀ i : grid0.Coords, ∀ a, (k0_off153 i) a + S1x1x16000.size a ≤ S16x180x16000.size a
  k0_off154_inb : ∀ i : grid0.Coords, ∀ a, (k0_off154 i) a + S1x16000.size a ≤ S16x160000.size a
  k0_off155_inb : ∀ i : grid0.Coords, ∀ a, (k0_off155 i) a + S1x1x16000.size a ≤ S16x180x16000.size a
  k0_off156_inb : ∀ i : grid0.Coords, ∀ a, (k0_off156 i) a + S1x16000.size a ≤ S16x160000.size a
  k0_off157_inb : ∀ i : grid0.Coords, ∀ a, (k0_off157 i) a + S1x1x16000.size a ≤ S16x180x16000.size a
  k0_off158_inb : ∀ i : grid0.Coords, ∀ a, (k0_off158 i) a + S1x16000.size a ≤ S16x160000.size a
  k0_off159_inb : ∀ i : grid0.Coords, ∀ a, (k0_off159 i) a + S1x1x16000.size a ≤ S16x180x16000.size a
  k0_off160_inb : ∀ i : grid0.Coords, ∀ a, (k0_off160 i) a + S1x16000.size a ≤ S16x160000.size a
  k0_off161_inb : ∀ i : grid0.Coords, ∀ a, (k0_off161 i) a + S1x1x16000.size a ≤ S16x180x16000.size a
  k0_off162_inb : ∀ i : grid0.Coords, ∀ a, (k0_off162 i) a + S1x16000.size a ≤ S16x160000.size a
  k0_off163_inb : ∀ i : grid0.Coords, ∀ a, (k0_off163 i) a + S1x1x16000.size a ≤ S16x180x16000.size a
  k0_off164_inb : ∀ i : grid0.Coords, ∀ a, (k0_off164 i) a + S1x16000.size a ≤ S16x160000.size a
  k0_off165_inb : ∀ i : grid0.Coords, ∀ a, (k0_off165 i) a + S1x1x16000.size a ≤ S16x180x16000.size a
  k0_off166_inb : ∀ i : grid0.Coords, ∀ a, (k0_off166 i) a + S1x16000.size a ≤ S16x160000.size a
  k0_off167_inb : ∀ i : grid0.Coords, ∀ a, (k0_off167 i) a + S1x1x16000.size a ≤ S16x180x16000.size a
  k0_off168_inb : ∀ i : grid0.Coords, ∀ a, (k0_off168 i) a + S1x16000.size a ≤ S16x160000.size a
  k0_off169_inb : ∀ i : grid0.Coords, ∀ a, (k0_off169 i) a + S1x1x16000.size a ≤ S16x180x16000.size a
  k0_off170_inb : ∀ i : grid0.Coords, ∀ a, (k0_off170 i) a + S1x16000.size a ≤ S16x160000.size a
  k0_off171_inb : ∀ i : grid0.Coords, ∀ a, (k0_off171 i) a + S1x1x16000.size a ≤ S16x180x16000.size a
  k0_off172_inb : ∀ i : grid0.Coords, ∀ a, (k0_off172 i) a + S1x16000.size a ≤ S16x160000.size a
  k0_off173_inb : ∀ i : grid0.Coords, ∀ a, (k0_off173 i) a + S1x1x16000.size a ≤ S16x180x16000.size a
  k0_off174_inb : ∀ i : grid0.Coords, ∀ a, (k0_off174 i) a + S1x16000.size a ≤ S16x160000.size a
  k0_off175_inb : ∀ i : grid0.Coords, ∀ a, (k0_off175 i) a + S1x1x16000.size a ≤ S16x180x16000.size a
  k0_off176_inb : ∀ i : grid0.Coords, ∀ a, (k0_off176 i) a + S1x16000.size a ≤ S16x160000.size a
  k0_off177_inb : ∀ i : grid0.Coords, ∀ a, (k0_off177 i) a + S1x1x16000.size a ≤ S16x180x16000.size a
  k0_off178_inb : ∀ i : grid0.Coords, ∀ a, (k0_off178 i) a + S1x16000.size a ≤ S16x160000.size a
  k0_off179_inb : ∀ i : grid0.Coords, ∀ a, (k0_off179 i) a + S1x1x16000.size a ≤ S16x180x16000.size a
  k0_off180_inb : ∀ i : grid0.Coords, ∀ a, (k0_off180 i) a + S1x16000.size a ≤ S16x160000.size a
  k0_off181_inb : ∀ i : grid0.Coords, ∀ a, (k0_off181 i) a + S1x1x16000.size a ≤ S16x180x16000.size a
  k0_off182_inb : ∀ i : grid0.Coords, ∀ a, (k0_off182 i) a + S1x16000.size a ≤ S16x160000.size a
  k0_off183_inb : ∀ i : grid0.Coords, ∀ a, (k0_off183 i) a + S1x1x16000.size a ≤ S16x180x16000.size a
  k0_off184_inb : ∀ i : grid0.Coords, ∀ a, (k0_off184 i) a + S1x16000.size a ≤ S16x160000.size a
  k0_off185_inb : ∀ i : grid0.Coords, ∀ a, (k0_off185 i) a + S1x1x16000.size a ≤ S16x180x16000.size a
  k0_off186_inb : ∀ i : grid0.Coords, ∀ a, (k0_off186 i) a + S1x16000.size a ≤ S16x160000.size a
  k0_off187_inb : ∀ i : grid0.Coords, ∀ a, (k0_off187 i) a + S1x1x16000.size a ≤ S16x180x16000.size a
  k0_off188_inb : ∀ i : grid0.Coords, ∀ a, (k0_off188 i) a + S1x16000.size a ≤ S16x160000.size a
  k0_off189_inb : ∀ i : grid0.Coords, ∀ a, (k0_off189 i) a + S1x1x16000.size a ≤ S16x180x16000.size a
  k0_off190_inb : ∀ i : grid0.Coords, ∀ a, (k0_off190 i) a + S1x16000.size a ≤ S16x160000.size a
  k0_off191_inb : ∀ i : grid0.Coords, ∀ a, (k0_off191 i) a + S1x1x16000.size a ≤ S16x180x16000.size a
  k0_off192_inb : ∀ i : grid0.Coords, ∀ a, (k0_off192 i) a + S1x16000.size a ≤ S16x160000.size a
  k0_off193_inb : ∀ i : grid0.Coords, ∀ a, (k0_off193 i) a + S1x1x16000.size a ≤ S16x180x16000.size a
  k0_off194_inb : ∀ i : grid0.Coords, ∀ a, (k0_off194 i) a + S1x16000.size a ≤ S16x160000.size a
  k0_off195_inb : ∀ i : grid0.Coords, ∀ a, (k0_off195 i) a + S1x1x16000.size a ≤ S16x180x16000.size a
  k0_off196_inb : ∀ i : grid0.Coords, ∀ a, (k0_off196 i) a + S1x16000.size a ≤ S16x160000.size a
  k0_off197_inb : ∀ i : grid0.Coords, ∀ a, (k0_off197 i) a + S1x1x16000.size a ≤ S16x180x16000.size a
  k0_off198_inb : ∀ i : grid0.Coords, ∀ a, (k0_off198 i) a + S1x16000.size a ≤ S16x160000.size a
  k0_off199_inb : ∀ i : grid0.Coords, ∀ a, (k0_off199 i) a + S1x1x16000.size a ≤ S16x180x16000.size a
  k0_off200_inb : ∀ i : grid0.Coords, ∀ a, (k0_off200 i) a + S1x16000.size a ≤ S16x160000.size a
  k0_off201_inb : ∀ i : grid0.Coords, ∀ a, (k0_off201 i) a + S1x1x16000.size a ≤ S16x180x16000.size a
  k0_off202_inb : ∀ i : grid0.Coords, ∀ a, (k0_off202 i) a + S1x16000.size a ≤ S16x160000.size a
  k0_off203_inb : ∀ i : grid0.Coords, ∀ a, (k0_off203 i) a + S1x1x16000.size a ≤ S16x180x16000.size a
  k0_off204_inb : ∀ i : grid0.Coords, ∀ a, (k0_off204 i) a + S1x16000.size a ≤ S16x160000.size a
  k0_off205_inb : ∀ i : grid0.Coords, ∀ a, (k0_off205 i) a + S1x1x16000.size a ≤ S16x180x16000.size a
  k0_off206_inb : ∀ i : grid0.Coords, ∀ a, (k0_off206 i) a + S1x16000.size a ≤ S16x160000.size a
  k0_off207_inb : ∀ i : grid0.Coords, ∀ a, (k0_off207 i) a + S1x1x16000.size a ≤ S16x180x16000.size a
  k0_off208_inb : ∀ i : grid0.Coords, ∀ a, (k0_off208 i) a + S1x16000.size a ≤ S16x160000.size a
  k0_off209_inb : ∀ i : grid0.Coords, ∀ a, (k0_off209 i) a + S1x1x16000.size a ≤ S16x180x16000.size a
  k0_off210_inb : ∀ i : grid0.Coords, ∀ a, (k0_off210 i) a + S1x16000.size a ≤ S16x160000.size a
  k0_off211_inb : ∀ i : grid0.Coords, ∀ a, (k0_off211 i) a + S1x1x16000.size a ≤ S16x180x16000.size a
  k0_off212_inb : ∀ i : grid0.Coords, ∀ a, (k0_off212 i) a + S1x16000.size a ≤ S16x160000.size a
  k0_off213_inb : ∀ i : grid0.Coords, ∀ a, (k0_off213 i) a + S1x1x16000.size a ≤ S16x180x16000.size a
  k0_off214_inb : ∀ i : grid0.Coords, ∀ a, (k0_off214 i) a + S1x16000.size a ≤ S16x160000.size a
  k0_off215_inb : ∀ i : grid0.Coords, ∀ a, (k0_off215 i) a + S1x1x16000.size a ≤ S16x180x16000.size a
  k0_off216_inb : ∀ i : grid0.Coords, ∀ a, (k0_off216 i) a + S1x16000.size a ≤ S16x160000.size a
  k0_off217_inb : ∀ i : grid0.Coords, ∀ a, (k0_off217 i) a + S1x1x16000.size a ≤ S16x180x16000.size a
  k0_off218_inb : ∀ i : grid0.Coords, ∀ a, (k0_off218 i) a + S1x16000.size a ≤ S16x160000.size a
  k0_off219_inb : ∀ i : grid0.Coords, ∀ a, (k0_off219 i) a + S1x1x16000.size a ≤ S16x180x16000.size a
  k0_off220_inb : ∀ i : grid0.Coords, ∀ a, (k0_off220 i) a + S1x16000.size a ≤ S16x160000.size a
  k0_off221_inb : ∀ i : grid0.Coords, ∀ a, (k0_off221 i) a + S1x1x16000.size a ≤ S16x180x16000.size a
  k0_off222_inb : ∀ i : grid0.Coords, ∀ a, (k0_off222 i) a + S1x16000.size a ≤ S16x160000.size a
  k0_off223_inb : ∀ i : grid0.Coords, ∀ a, (k0_off223 i) a + S1x1x16000.size a ≤ S16x180x16000.size a
  k0_off224_inb : ∀ i : grid0.Coords, ∀ a, (k0_off224 i) a + S1x16000.size a ≤ S16x160000.size a
  k0_off225_inb : ∀ i : grid0.Coords, ∀ a, (k0_off225 i) a + S1x1x16000.size a ≤ S16x180x16000.size a
  k0_off226_inb : ∀ i : grid0.Coords, ∀ a, (k0_off226 i) a + S1x16000.size a ≤ S16x160000.size a
  k0_off227_inb : ∀ i : grid0.Coords, ∀ a, (k0_off227 i) a + S1x1x16000.size a ≤ S16x180x16000.size a
  k0_off228_inb : ∀ i : grid0.Coords, ∀ a, (k0_off228 i) a + S1x16000.size a ≤ S16x160000.size a
  k0_off229_inb : ∀ i : grid0.Coords, ∀ a, (k0_off229 i) a + S1x1x16000.size a ≤ S16x180x16000.size a
  k0_off230_inb : ∀ i : grid0.Coords, ∀ a, (k0_off230 i) a + S1x16000.size a ≤ S16x160000.size a
  k0_off231_inb : ∀ i : grid0.Coords, ∀ a, (k0_off231 i) a + S1x1x16000.size a ≤ S16x180x16000.size a
  k0_off232_inb : ∀ i : grid0.Coords, ∀ a, (k0_off232 i) a + S1x16000.size a ≤ S16x160000.size a
  k0_off233_inb : ∀ i : grid0.Coords, ∀ a, (k0_off233 i) a + S1x1x16000.size a ≤ S16x180x16000.size a
  k0_off234_inb : ∀ i : grid0.Coords, ∀ a, (k0_off234 i) a + S1x16000.size a ≤ S16x160000.size a
  k0_off235_inb : ∀ i : grid0.Coords, ∀ a, (k0_off235 i) a + S1x1x16000.size a ≤ S16x180x16000.size a
  k0_off236_inb : ∀ i : grid0.Coords, ∀ a, (k0_off236 i) a + S1x16000.size a ≤ S16x160000.size a
  k0_off237_inb : ∀ i : grid0.Coords, ∀ a, (k0_off237 i) a + S1x1x16000.size a ≤ S16x180x16000.size a
  k0_off238_inb : ∀ i : grid0.Coords, ∀ a, (k0_off238 i) a + S1x16000.size a ≤ S16x160000.size a
  k0_off239_inb : ∀ i : grid0.Coords, ∀ a, (k0_off239 i) a + S1x1x16000.size a ≤ S16x180x16000.size a
  k0_off240_inb : ∀ i : grid0.Coords, ∀ a, (k0_off240 i) a + S1x16000.size a ≤ S16x160000.size a
  k0_off241_inb : ∀ i : grid0.Coords, ∀ a, (k0_off241 i) a + S1x1x16000.size a ≤ S16x180x16000.size a
  k0_off242_inb : ∀ i : grid0.Coords, ∀ a, (k0_off242 i) a + S1x16000.size a ≤ S16x160000.size a
  k0_off243_inb : ∀ i : grid0.Coords, ∀ a, (k0_off243 i) a + S1x1x16000.size a ≤ S16x180x16000.size a
  k0_off244_inb : ∀ i : grid0.Coords, ∀ a, (k0_off244 i) a + S1x16000.size a ≤ S16x160000.size a
  k0_off245_inb : ∀ i : grid0.Coords, ∀ a, (k0_off245 i) a + S1x1x16000.size a ≤ S16x180x16000.size a
  k0_off246_inb : ∀ i : grid0.Coords, ∀ a, (k0_off246 i) a + S1x16000.size a ≤ S16x160000.size a
  k0_off247_inb : ∀ i : grid0.Coords, ∀ a, (k0_off247 i) a + S1x1x16000.size a ≤ S16x180x16000.size a
  k0_off248_inb : ∀ i : grid0.Coords, ∀ a, (k0_off248 i) a + S1x16000.size a ≤ S16x160000.size a
  k0_off249_inb : ∀ i : grid0.Coords, ∀ a, (k0_off249 i) a + S1x1x16000.size a ≤ S16x180x16000.size a
  k0_off250_inb : ∀ i : grid0.Coords, ∀ a, (k0_off250 i) a + S1x16000.size a ≤ S16x160000.size a
  k0_off251_inb : ∀ i : grid0.Coords, ∀ a, (k0_off251 i) a + S1x1x16000.size a ≤ S16x180x16000.size a
  k0_off252_inb : ∀ i : grid0.Coords, ∀ a, (k0_off252 i) a + S1x16000.size a ≤ S16x160000.size a
  k0_off253_inb : ∀ i : grid0.Coords, ∀ a, (k0_off253 i) a + S1x1x16000.size a ≤ S16x180x16000.size a
  k0_off254_inb : ∀ i : grid0.Coords, ∀ a, (k0_off254 i) a + S1x16000.size a ≤ S16x160000.size a
  k0_off255_inb : ∀ i : grid0.Coords, ∀ a, (k0_off255 i) a + S1x1x16000.size a ≤ S16x180x16000.size a
  k0_off256_inb : ∀ i : grid0.Coords, ∀ a, (k0_off256 i) a + S1x16000.size a ≤ S16x160000.size a
  k0_off257_inb : ∀ i : grid0.Coords, ∀ a, (k0_off257 i) a + S1x1x16000.size a ≤ S16x180x16000.size a
  k0_off258_inb : ∀ i : grid0.Coords, ∀ a, (k0_off258 i) a + S1x16000.size a ≤ S16x160000.size a
  k0_off259_inb : ∀ i : grid0.Coords, ∀ a, (k0_off259 i) a + S1x1x16000.size a ≤ S16x180x16000.size a
  k0_off260_inb : ∀ i : grid0.Coords, ∀ a, (k0_off260 i) a + S1x16000.size a ≤ S16x160000.size a
  k0_off261_inb : ∀ i : grid0.Coords, ∀ a, (k0_off261 i) a + S1x1x16000.size a ≤ S16x180x16000.size a
  k0_off262_inb : ∀ i : grid0.Coords, ∀ a, (k0_off262 i) a + S1x16000.size a ≤ S16x160000.size a
  k0_off263_inb : ∀ i : grid0.Coords, ∀ a, (k0_off263 i) a + S1x1x16000.size a ≤ S16x180x16000.size a
  k0_off264_inb : ∀ i : grid0.Coords, ∀ a, (k0_off264 i) a + S1x16000.size a ≤ S16x160000.size a
  k0_off265_inb : ∀ i : grid0.Coords, ∀ a, (k0_off265 i) a + S1x1x16000.size a ≤ S16x180x16000.size a
  k0_off266_inb : ∀ i : grid0.Coords, ∀ a, (k0_off266 i) a + S1x16000.size a ≤ S16x160000.size a
  k0_off267_inb : ∀ i : grid0.Coords, ∀ a, (k0_off267 i) a + S1x1x16000.size a ≤ S16x180x16000.size a
  k0_off268_inb : ∀ i : grid0.Coords, ∀ a, (k0_off268 i) a + S1x16000.size a ≤ S16x160000.size a
  k0_off269_inb : ∀ i : grid0.Coords, ∀ a, (k0_off269 i) a + S1x1x16000.size a ≤ S16x180x16000.size a
  k0_off270_inb : ∀ i : grid0.Coords, ∀ a, (k0_off270 i) a + S1x16000.size a ≤ S16x160000.size a
  k0_off271_inb : ∀ i : grid0.Coords, ∀ a, (k0_off271 i) a + S1x1x16000.size a ≤ S16x180x16000.size a
  k0_off272_inb : ∀ i : grid0.Coords, ∀ a, (k0_off272 i) a + S1x16000.size a ≤ S16x160000.size a
  k0_off273_inb : ∀ i : grid0.Coords, ∀ a, (k0_off273 i) a + S1x1x16000.size a ≤ S16x180x16000.size a
  k0_off274_inb : ∀ i : grid0.Coords, ∀ a, (k0_off274 i) a + S1x16000.size a ≤ S16x160000.size a
  k0_off275_inb : ∀ i : grid0.Coords, ∀ a, (k0_off275 i) a + S1x1x16000.size a ≤ S16x180x16000.size a
  k0_off276_inb : ∀ i : grid0.Coords, ∀ a, (k0_off276 i) a + S1x16000.size a ≤ S16x160000.size a
  k0_off277_inb : ∀ i : grid0.Coords, ∀ a, (k0_off277 i) a + S1x1x16000.size a ≤ S16x180x16000.size a
  k0_off278_inb : ∀ i : grid0.Coords, ∀ a, (k0_off278 i) a + S1x16000.size a ≤ S16x160000.size a
  k0_off279_inb : ∀ i : grid0.Coords, ∀ a, (k0_off279 i) a + S1x1x16000.size a ≤ S16x180x16000.size a
  k0_off280_inb : ∀ i : grid0.Coords, ∀ a, (k0_off280 i) a + S1x16000.size a ≤ S16x160000.size a
  k0_off281_inb : ∀ i : grid0.Coords, ∀ a, (k0_off281 i) a + S1x1x16000.size a ≤ S16x180x16000.size a
  k0_off282_inb : ∀ i : grid0.Coords, ∀ a, (k0_off282 i) a + S1x16000.size a ≤ S16x160000.size a
  k0_off283_inb : ∀ i : grid0.Coords, ∀ a, (k0_off283 i) a + S1x1x16000.size a ≤ S16x180x16000.size a
  k0_off284_inb : ∀ i : grid0.Coords, ∀ a, (k0_off284 i) a + S1x16000.size a ≤ S16x160000.size a
  k0_off285_inb : ∀ i : grid0.Coords, ∀ a, (k0_off285 i) a + S1x1x16000.size a ≤ S16x180x16000.size a
  k0_off286_inb : ∀ i : grid0.Coords, ∀ a, (k0_off286 i) a + S1x16000.size a ≤ S16x160000.size a
  k0_off287_inb : ∀ i : grid0.Coords, ∀ a, (k0_off287 i) a + S1x1x16000.size a ≤ S16x180x16000.size a
  k0_off288_inb : ∀ i : grid0.Coords, ∀ a, (k0_off288 i) a + S1x16000.size a ≤ S16x160000.size a
  k0_off289_inb : ∀ i : grid0.Coords, ∀ a, (k0_off289 i) a + S1x1x16000.size a ≤ S16x180x16000.size a
  k0_off290_inb : ∀ i : grid0.Coords, ∀ a, (k0_off290 i) a + S1x16000.size a ≤ S16x160000.size a
  k0_off291_inb : ∀ i : grid0.Coords, ∀ a, (k0_off291 i) a + S1x1x16000.size a ≤ S16x180x16000.size a
  k0_off292_inb : ∀ i : grid0.Coords, ∀ a, (k0_off292 i) a + S1x16000.size a ≤ S16x160000.size a
  k0_off293_inb : ∀ i : grid0.Coords, ∀ a, (k0_off293 i) a + S1x1x16000.size a ≤ S16x180x16000.size a
  k0_off294_inb : ∀ i : grid0.Coords, ∀ a, (k0_off294 i) a + S1x16000.size a ≤ S16x160000.size a
  k0_off295_inb : ∀ i : grid0.Coords, ∀ a, (k0_off295 i) a + S1x1x16000.size a ≤ S16x180x16000.size a
  k0_off296_inb : ∀ i : grid0.Coords, ∀ a, (k0_off296 i) a + S1x16000.size a ≤ S16x160000.size a
  k0_off297_inb : ∀ i : grid0.Coords, ∀ a, (k0_off297 i) a + S1x1x16000.size a ≤ S16x180x16000.size a
  k0_off298_inb : ∀ i : grid0.Coords, ∀ a, (k0_off298 i) a + S1x16000.size a ≤ S16x160000.size a
  k0_off299_inb : ∀ i : grid0.Coords, ∀ a, (k0_off299 i) a + S1x1x16000.size a ≤ S16x180x16000.size a
  k0_off300_inb : ∀ i : grid0.Coords, ∀ a, (k0_off300 i) a + S1x16000.size a ≤ S16x160000.size a
  k0_off301_inb : ∀ i : grid0.Coords, ∀ a, (k0_off301 i) a + S1x1x16000.size a ≤ S16x180x16000.size a
  k0_off302_inb : ∀ i : grid0.Coords, ∀ a, (k0_off302 i) a + S1x16000.size a ≤ S16x160000.size a
  k0_off303_inb : ∀ i : grid0.Coords, ∀ a, (k0_off303 i) a + S1x1x16000.size a ≤ S16x180x16000.size a
  k0_off304_inb : ∀ i : grid0.Coords, ∀ a, (k0_off304 i) a + S1x16000.size a ≤ S16x160000.size a
  k0_off305_inb : ∀ i : grid0.Coords, ∀ a, (k0_off305 i) a + S1x1x16000.size a ≤ S16x180x16000.size a
  k0_off306_inb : ∀ i : grid0.Coords, ∀ a, (k0_off306 i) a + S1x16000.size a ≤ S16x160000.size a
  k0_off307_inb : ∀ i : grid0.Coords, ∀ a, (k0_off307 i) a + S1x1x16000.size a ≤ S16x180x16000.size a
  k0_off308_inb : ∀ i : grid0.Coords, ∀ a, (k0_off308 i) a + S1x16000.size a ≤ S16x160000.size a
  k0_off309_inb : ∀ i : grid0.Coords, ∀ a, (k0_off309 i) a + S1x1x16000.size a ≤ S16x180x16000.size a
  k0_off310_inb : ∀ i : grid0.Coords, ∀ a, (k0_off310 i) a + S1x16000.size a ≤ S16x160000.size a
  k0_off311_inb : ∀ i : grid0.Coords, ∀ a, (k0_off311 i) a + S1x1x16000.size a ≤ S16x180x16000.size a
  k0_off312_inb : ∀ i : grid0.Coords, ∀ a, (k0_off312 i) a + S1x16000.size a ≤ S16x160000.size a
  k0_off313_inb : ∀ i : grid0.Coords, ∀ a, (k0_off313 i) a + S1x1x16000.size a ≤ S16x180x16000.size a
  k0_off314_inb : ∀ i : grid0.Coords, ∀ a, (k0_off314 i) a + S1x16000.size a ≤ S16x160000.size a
  k0_off315_inb : ∀ i : grid0.Coords, ∀ a, (k0_off315 i) a + S1x1x16000.size a ≤ S16x180x16000.size a
  k0_off316_inb : ∀ i : grid0.Coords, ∀ a, (k0_off316 i) a + S1x16000.size a ≤ S16x160000.size a
  k0_off317_inb : ∀ i : grid0.Coords, ∀ a, (k0_off317 i) a + S1x1x16000.size a ≤ S16x180x16000.size a
  k0_off318_inb : ∀ i : grid0.Coords, ∀ a, (k0_off318 i) a + S1x16000.size a ≤ S16x160000.size a
  k0_off319_inb : ∀ i : grid0.Coords, ∀ a, (k0_off319 i) a + S1x1x16000.size a ≤ S16x180x16000.size a
  k0_off320_inb : ∀ i : grid0.Coords, ∀ a, (k0_off320 i) a + S1x16000.size a ≤ S16x160000.size a
  k0_off321_inb : ∀ i : grid0.Coords, ∀ a, (k0_off321 i) a + S1x1x16000.size a ≤ S16x180x16000.size a
  k0_off322_inb : ∀ i : grid0.Coords, ∀ a, (k0_off322 i) a + S1x16000.size a ≤ S16x160000.size a
  k0_off323_inb : ∀ i : grid0.Coords, ∀ a, (k0_off323 i) a + S1x1x16000.size a ≤ S16x180x16000.size a
  k0_off324_inb : ∀ i : grid0.Coords, ∀ a, (k0_off324 i) a + S1x16000.size a ≤ S16x160000.size a
  k0_off325_inb : ∀ i : grid0.Coords, ∀ a, (k0_off325 i) a + S1x1x16000.size a ≤ S16x180x16000.size a
  k0_off326_inb : ∀ i : grid0.Coords, ∀ a, (k0_off326 i) a + S1x16000.size a ≤ S16x160000.size a
  k0_off327_inb : ∀ i : grid0.Coords, ∀ a, (k0_off327 i) a + S1x1x16000.size a ≤ S16x180x16000.size a
  k0_off328_inb : ∀ i : grid0.Coords, ∀ a, (k0_off328 i) a + S1x16000.size a ≤ S16x160000.size a
  k0_off329_inb : ∀ i : grid0.Coords, ∀ a, (k0_off329 i) a + S1x1x16000.size a ≤ S16x180x16000.size a
  k0_off330_inb : ∀ i : grid0.Coords, ∀ a, (k0_off330 i) a + S1x16000.size a ≤ S16x160000.size a
  k0_off331_inb : ∀ i : grid0.Coords, ∀ a, (k0_off331 i) a + S1x1x16000.size a ≤ S16x180x16000.size a
  k0_off332_inb : ∀ i : grid0.Coords, ∀ a, (k0_off332 i) a + S1x16000.size a ≤ S16x160000.size a
  k0_off333_inb : ∀ i : grid0.Coords, ∀ a, (k0_off333 i) a + S1x1x16000.size a ≤ S16x180x16000.size a
  k0_off334_inb : ∀ i : grid0.Coords, ∀ a, (k0_off334 i) a + S1x16000.size a ≤ S16x160000.size a
  k0_off335_inb : ∀ i : grid0.Coords, ∀ a, (k0_off335 i) a + S1x1x16000.size a ≤ S16x180x16000.size a
  k0_off336_inb : ∀ i : grid0.Coords, ∀ a, (k0_off336 i) a + S1x16000.size a ≤ S16x160000.size a
  k0_off337_inb : ∀ i : grid0.Coords, ∀ a, (k0_off337 i) a + S1x1x16000.size a ≤ S16x180x16000.size a
  k0_off338_inb : ∀ i : grid0.Coords, ∀ a, (k0_off338 i) a + S1x16000.size a ≤ S16x160000.size a
  k0_off339_inb : ∀ i : grid0.Coords, ∀ a, (k0_off339 i) a + S1x1x16000.size a ≤ S16x180x16000.size a
  k0_off340_inb : ∀ i : grid0.Coords, ∀ a, (k0_off340 i) a + S1x16000.size a ≤ S16x160000.size a
  k0_off341_inb : ∀ i : grid0.Coords, ∀ a, (k0_off341 i) a + S1x1x16000.size a ≤ S16x180x16000.size a
  k0_off342_inb : ∀ i : grid0.Coords, ∀ a, (k0_off342 i) a + S1x16000.size a ≤ S16x160000.size a
  k0_off343_inb : ∀ i : grid0.Coords, ∀ a, (k0_off343 i) a + S1x1x16000.size a ≤ S16x180x16000.size a
  k0_off344_inb : ∀ i : grid0.Coords, ∀ a, (k0_off344 i) a + S1x16000.size a ≤ S16x160000.size a
  k0_off345_inb : ∀ i : grid0.Coords, ∀ a, (k0_off345 i) a + S1x1x16000.size a ≤ S16x180x16000.size a
  k0_off346_inb : ∀ i : grid0.Coords, ∀ a, (k0_off346 i) a + S1x16000.size a ≤ S16x160000.size a
  k0_off347_inb : ∀ i : grid0.Coords, ∀ a, (k0_off347 i) a + S1x1x16000.size a ≤ S16x180x16000.size a
  k0_off348_inb : ∀ i : grid0.Coords, ∀ a, (k0_off348 i) a + S1x16000.size a ≤ S16x160000.size a
  k0_off349_inb : ∀ i : grid0.Coords, ∀ a, (k0_off349 i) a + S1x1x16000.size a ≤ S16x180x16000.size a
  k0_off350_inb : ∀ i : grid0.Coords, ∀ a, (k0_off350 i) a + S1x16000.size a ≤ S16x160000.size a
  k0_off351_inb : ∀ i : grid0.Coords, ∀ a, (k0_off351 i) a + S1x1x16000.size a ≤ S16x180x16000.size a
  k0_off352_inb : ∀ i : grid0.Coords, ∀ a, (k0_off352 i) a + S1x16000.size a ≤ S16x160000.size a
  k0_off353_inb : ∀ i : grid0.Coords, ∀ a, (k0_off353 i) a + S1x1x16000.size a ≤ S16x180x16000.size a
  k0_off354_inb : ∀ i : grid0.Coords, ∀ a, (k0_off354 i) a + S1x16000.size a ≤ S16x160000.size a
  k0_off355_inb : ∀ i : grid0.Coords, ∀ a, (k0_off355 i) a + S1x1x16000.size a ≤ S16x180x16000.size a
  k0_off356_inb : ∀ i : grid0.Coords, ∀ a, (k0_off356 i) a + S1x16000.size a ≤ S16x160000.size a
  k0_off357_inb : ∀ i : grid0.Coords, ∀ a, (k0_off357 i) a + S1x1x16000.size a ≤ S16x180x16000.size a
  k0_off358_inb : ∀ i : grid0.Coords, ∀ a, (k0_off358 i) a + S1x16000.size a ≤ S16x160000.size a
  k0_off359_inb : ∀ i : grid0.Coords, ∀ a, (k0_off359 i) a + S1x1x16000.size a ≤ S16x180x16000.size a
  k0_off360_inb : ∀ i : grid0.Coords, ∀ a, (k0_off360 i) a + S1x16000.size a ≤ S16x160000.size a

variable [Facts₀]

abbrev cc0_scratch0 : DmaSems sig S8 := SemArray.consecutive 0 S8 hcc0_scratch0

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16x160000 : Shape := ⟨2, ![16, 160000]⟩
abbrev S180 : Shape := ⟨1, ![180]⟩
abbrev S180x1 : Shape := ⟨2, ![180, 1]⟩
abbrev S_ : Shape := ⟨0, ![]⟩
abbrev S16000 : Shape := ⟨1, ![16000]⟩
abbrev S1x16000 : Shape := ⟨2, ![1, 16000]⟩
abbrev S180x16000 : Shape := ⟨2, ![180, 16000]⟩
abbrev S180x16000x1 : Shape := ⟨3, ![180, 16000, 1]⟩
abbrev S16x180x16000 : Shape := ⟨3, ![16, 180, 16000]⟩

abbrev nBuf : Space → Nat
  | .hbm => 20
  | .vmem => 0
  | .smem => 0
  | _ => 0

abbrev bufTy : (tb : Table) → Fin (tcTables nBuf tb) → BufTy
  | .hbm, ⟨0, _⟩ => ⟨S16x160000, .f32⟩
  | .hbm, ⟨1, _⟩ => ⟨S180, .i32⟩
  | .hbm, ⟨2, _⟩ => ⟨S180x1, .i32⟩
  | .hbm, ⟨3, _⟩ => ⟨S_, .i32⟩
  | .hbm, ⟨4, _⟩ => ⟨S180x1, .i32⟩
  | .hbm, ⟨5, _⟩ => ⟨S180x1, .i32⟩
  | .hbm, ⟨6, _⟩ => ⟨S16000, .i32⟩
  | .hbm, ⟨7, _⟩ => ⟨S1x16000, .i32⟩
  | .hbm, ⟨8, _⟩ => ⟨S180x16000, .i32⟩
  | .hbm, ⟨9, _⟩ => ⟨S180x16000, .i32⟩
  | .hbm, ⟨10, _⟩ => ⟨S180x16000, .i32⟩
  | .hbm, ⟨11, _⟩ => ⟨S_, .i32⟩
  | .hbm, ⟨12, _⟩ => ⟨S180x16000, .i32⟩
  | .hbm, ⟨13, _⟩ => ⟨S180x16000, .i1⟩
  | .hbm, ⟨14, _⟩ => ⟨S_, .i32⟩
  | .hbm, ⟨15, _⟩ => ⟨S180x16000, .i32⟩
  | .hbm, ⟨16, _⟩ => ⟨S180x16000, .i32⟩
  | .hbm, ⟨17, _⟩ => ⟨S180x16000, .i32⟩
  | .hbm, ⟨18, _⟩ => ⟨S180x16000x1, .i32⟩
  | .hbm, ⟨19, _⟩ => ⟨S16x180x16000, .f32⟩
  | _, _ => ⟨S16x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  bcast_S180_S180x1_0 : S180.BroadcastsInDim S180x1 (![0] : Fin 1 → Fin S180x1.rank)
  bcast_S_S180x1 : S_.BroadcastsInDim S180x1 (![] : Fin 0 → Fin S180x1.rank)
  bcast_S16000_S1x16000_1 : S16000.BroadcastsInDim S1x16000 (![1] : Fin 1 → Fin S1x16000.rank)
  bcast_S180x1_S180x16000_0_1 : S180x1.BroadcastsInDim S180x16000 (![0, 1] : Fin 2 → Fin S180x16000.rank)
  bcast_S1x16000_S180x16000_0_1 : S1x16000.BroadcastsInDim S180x16000 (![0, 1] : Fin 2 → Fin S180x16000.rank)
  bcast_S_S180x16000 : S_.BroadcastsInDim S180x16000 (![] : Fin 0 → Fin S180x16000.rank)
  bcast_S180x16000_S180x16000x1_0_1 : S180x16000.BroadcastsInDim S180x16000x1 (![0, 1] : Fin 2 → Fin S180x16000x1.rank)
  gather_S16x160000_S180x16000x1_S16x180x16000_0_1_n_n_1_2_161_wf : GatherDims.WF S16x160000 S180x16000x1 S16x180x16000 [0] [1] [] [1] [] 2 ![16, 1]

variable [Facts₀]

def gather_S16x160000_S180x16000x1_S16x180x16000_0_1_n_n_1_2_161 : GatherDims S16x160000 S180x16000x1 S16x180x16000 where
  offsetDims := [0]
  collapsedSliceDims := [1]
  operandBatchingDims := []
  startIndicesBatchingDims := []
  startIndexMap := [1]
  indexVectorDim := 2
  sliceSizes := ![16, 1]
  wf := gather_S16x160000_S180x16000x1_S16x180x16000_0_1_n_n_1_2_161_wf

class Facts : Prop extends Facts₀ where

variable [Facts]
-- ==== Proof.Spec.lean ====
/-
  The specification both programs meet: the sliding-window unfold of a batch of rows.
  Row b of the input has 160000 entries; window s of row b is the 16000 consecutive entries starting at 800 * s,
  for s = 0 … 179 (the last window ends at 179 * 800 + 16000 = 159200 ≤ 160000). The result at (b, s, c) is the
  input at (b, 800 * s + c): a pure re-indexing, no arithmetic on the entries.
-/
import Idealize.ShloMosaic.PureOps.Ideal
import Idealize.ShloMosaic.Lib.ValueIdx

namespace Cert.Unfold

open Idealize.ShloMosaic Idealize.ShloMosaic.ValueIdx

/-- The input's shape, a batch of 16 rows of 160000 entries. -/
abbrev SIn : Shape := ⟨2, ![16, 160000]⟩
/-- The result's shape: per row, 180 windows of 16000 entries. -/
abbrev SOut : Shape := ⟨3, ![16, 180, 16000]⟩

/-- Entry c of window s lies at column 800 * s + c of its row, inside the row. -/
theorem col_lt {s c : Nat} (hs : s < 180) (hc : c < 16000) : 800 * s + c < 160000 := by omega

/-- Where the result's entry (b, s, c) is read from: (b, 800 * s + c). -/
def srcIdx (j : SOut.Idx) : SIn.Idx :=
  ix2 (n0 := 16) (n1 := 160000) ⟨(j 0).val, (j 0).isLt⟩ ⟨800 * (j 1).val + (j 2).val, col_lt (j 1).isLt (j 2).isLt⟩

/-- The unfold of an array x of any entries: the result's entry at j is x at srcIdx j. -/
def G {α : Type} (x : SIn.Idx → α) : SOut.Idx → α := fun j => x (srcIdx j)

theorem G_apply {α : Type} (x : SIn.Idx → α) (j : SOut.Idx) : G x j = x (srcIdx j) := rfl

theorem srcIdx_row (j : SOut.Idx) : (srcIdx j 0).val = (j 0).val := rfl
theorem srcIdx_col (j : SOut.Idx) : (srcIdx j 1).val = 800 * (j 1).val + (j 2).val := rfl

end Cert.Unfold
-- ==== Proof.KbNames.lean ====
/-
  Names for the sliding-window copy kernel: the two arrays, the 180 destination rows and the 180 source windows of
  one batch row, and the assertions a run of one grid point is stated over.

  At grid point b the kernel copies, for s = 0 … 179, the window [800 * s, 800 * s + 16000) of row b of the input
  into row (b, s) of the result, each copy on the semaphore s mod 8, at most eight copies outstanding. A destination
  row is addressed by the offsets (b, s, 0) and a source window by (b, 800 * s); written with the grid coordinate as
  the program reads it (a 32-bit word made from the coordinate), so that each of the program's printed offset vectors
  is one of these by unfolding alone.
-/
import proofs.«181463_j85426899517737_2_alg».proof.Proof.Gen.Kernel.Frame
import proofs.«181463_j85426899517737_2_alg».proof.Proof.Gen.Kernel.Skeleton
import proofs.«181463_j85426899517737_2_alg».proof.Proof.Spec
import Idealize.ShloMosaic.Lib.Pipeline.Kit
import Idealize.ShloMosaic.Lib.Ring
import Idealize.ShloMosaic.Lib.Batch
import Idealize.ShloMosaic.Lib.Tactic

noncomputable section

namespace Cert.Kernel.Unfold

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's beside the counters the kernel's own copies complete on. -/
abbrev UU (nD : Nat) (τ : Topo) : Type := UR sig nD τ × Counters
local notation "𝕄" => MT nD τ sig Unit (Elt F) ℕ (UU nD τ) ℕ
abbrev 𝒱₀ : Variants := Variants.none

/-- The input array and the result array, whole. -/
abbrev argM : Memref sig .tc .hbm S16x160000 .f32 := Memref.whole main_arg0
abbrev outM : Memref sig .tc .hbm S16x180x16000 .f32 := Memref.whole main_v0

/-- The grid coordinate as the program reads it is the coordinate itself: it is below 16. -/
theorem coord_word (i : grid0.Coords) : (BitVec.ofNat 32 (i 0).val).toNat = (i 0).val := by
  have h : (i 0).val < 16 := (i 0).isLt
  rw [BitVec.toNat_ofNat]; exact Nat.mod_eq_of_lt (by omega)

/-- Destination row s of the point's batch row: offsets (b, s, 0). -/
def dOff (i : grid0.Coords) (s : Fin 180) : Fin 3 → Nat := ![(BitVec.ofNat 32 (i 0).val).toNat, s.val, 0]
/-- Source window s of the point's batch row: offsets (b, 800 * s). -/
def sOff (i : grid0.Coords) (s : Fin 180) : Fin 2 → Nat := ![(BitVec.ofNat 32 (i 0).val).toNat, 800 * s.val]

theorem dOff_inb (i : grid0.Coords) (s : Fin 180) : ∀ a, dOff i s a + S1x1x16000.size a ≤ S16x180x16000.size a := by
  have hb : (i 0).val < 16 := (i 0).isLt
  have hs := s.isLt
  have e := coord_word i
  intro a; fin_cases a
  · show (BitVec.ofNat 32 (i 0).val).toNat + 1 ≤ 16; omega
  · show s.val + 1 ≤ 180; omega
  · show 0 + 16000 ≤ 16000; omega
theorem sOff_inb (i : grid0.Coords) (s : Fin 180) : ∀ a, sOff i s a + S1x16000.size a ≤ S16x160000.size a := by
  have hb : (i 0).val < 16 := (i 0).isLt
  have hs := s.isLt
  have e := coord_word i
  intro a; fin_cases a
  · show (BitVec.ofNat 32 (i 0).val).toNat + 1 ≤ 16; omega
  · show 800 * s.val + 16000 ≤ 160000; omega

/-- A row of the result at given offsets, as the body slices and squeezes it. -/
abbrev dP (off : Fin 3 → Nat) (h : ∀ a, off a + S1x1x16000.size a ≤ S16x180x16000.size a) : Memref sig .tc .hbm S16000 .f32 :=
  (outM.slice (Rect.unit (s := S16x180x16000) off S1x1x16000.size h) (fun _ => rfl)).squeeze S16000 squeezes_S1x1x16000_S16000
/-- A window of the input at given offsets, as the body slices and squeezes it. -/
abbrev sP (off : Fin 2 → Nat) (h : ∀ a, off a + S1x16000.size a ≤ S16x160000.size a) : Memref sig .tc .hbm S16000 .f32 :=
  (argM.slice (Rect.unit (s := S16x160000) off S1x16000.size h) (fun _ => rfl)).squeeze S16000 squeezes_S1x16000_S16000

/-- A row of the result held by exactly its own elements, at the contents f of the whole array. -/
abbrev rowP (c : Dev nD) (off : Fin 3 → Nat) (h : ∀ a, off a + S1x1x16000.size a ≤ S16x180x16000.size a)
    (f : Buf (Elt F) (outM.view.loc (c : Thread nD τ))) : sProp 𝕄 :=
  (dP off h).view.loc (c : Thread nD τ) ↦[(dP off h).view.set]{fullShare} f

/-- The input held whole at the read share of semaphore k: what the copies completing on that semaphore read through. -/
abbrev tokP (c : Dev nD) (k : Fin 8) (X : Buf (Elt F) (argM.view.loc (c : Thread nD τ))) : sProp 𝕄 :=
  argM.view.loc (c : Thread nD τ) ↦{Transfers.shareTok fullShare 8 k} X

/-- Semaphore k of the ring at zero. -/
abbrev cellP (c : Dev nD) (k : Fin 8) : sProp 𝕄 :=
  semVal ((c : Thread nD τ), SemLoc.dma (sig := sig) ⟨k.val, by have := k.isLt; show k.val < 8; omega⟩) 0

/-- The result array after one copy has landed: the window read out of X, written over the whole row, the rest of Y kept. -/
abbrev landed (c : Dev nD) (doff : Fin 3 → Nat) (dh : ∀ a, doff a + S1x1x16000.size a ≤ S16x180x16000.size a)
    (soff : Fin 2 → Nat) (sh : ∀ a, soff a + S1x16000.size a ≤ S16x160000.size a)
    (X : Buf (Elt F) (argM.view.loc (c : Thread nD τ))) (Y : Buf (Elt F) (outM.view.loc (c : Thread nD τ))) :
    Buf (Elt F) (outM.view.loc (c : Thread nD τ)) :=
  (dP doff dh).view.writes (Elt F) Y [⟨Rect.whole S16000, ReadAs.same.apply ((sP soff sh).view.read (Elt F) X)⟩]

/-- The printed offset vectors are these, by unfolding (two instances; every other one likewise). -/
example (i : grid0.Coords) : k0_off35 i = dOff i ⟨17, by decide⟩ := rfl
example (i : grid0.Coords) : k0_off36 i = sOff i ⟨17, by decide⟩ := rfl

end Cert.Kernel.Unfold

end
-- ==== Proof.KbBody.lean ====
/-
  One grid point of the sliding-window copy kernel, run.

  Before the point: the input held as eight read shares (one per semaphore of the ring) at contents X, the 180
  rows of the point's batch row of the result each held by its own elements at contents Y, the eight semaphores at
  zero. The body starts copies 0 … 7, then for s = 0 … 179 waits for copy s and, while s + 8 < 180, starts copy s + 8 on
  the semaphore copy s freed. Each start lends the window's elements of the share of its semaphore and the
  destination row to the copy in flight; each wait takes them back, the row now holding the window. After the point:
  the eight shares whole again, every row s at the window s of X written over Y, the semaphores at zero.
  The rows and windows are spelled here by the program's own offset vectors, in the order of s.
-/
import proofs.«181463_j85426899517737_2_alg».proof.Proof.KbNames

noncomputable section

namespace Cert.Kernel.Unfold

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The 180 rows of the point's batch row, each at the contents Y of the whole array. -/
def rowsAt (c : Dev nD) (i : grid0.Coords) (Y : Buf (Elt F) (outM.view.loc (c : Thread nD τ))) : sProp 𝕄 :=
  iprop(rowP c (k0_off1 i) (k0_off1_inb i) Y
    ∗ rowP c (k0_off3 i) (k0_off3_inb i) Y
    ∗ rowP c (k0_off5 i) (k0_off5_inb i) Y
    ∗ rowP c (k0_off7 i) (k0_off7_inb i) Y
    ∗ rowP c (k0_off9 i) (k0_off9_inb i) Y
    ∗ rowP c (k0_off11 i) (k0_off11_inb i) Y
    ∗ rowP c (k0_off13 i) (k0_off13_inb i) Y
    ∗ rowP c (k0_off15 i) (k0_off15_inb i) Y
    ∗ rowP c (k0_off17 i) (k0_off17_inb i) Y
    ∗ rowP c (k0_off19 i) (k0_off19_inb i) Y
    ∗ rowP c (k0_off21 i) (k0_off21_inb i) Y
    ∗ rowP c (k0_off23 i) (k0_off23_inb i) Y
    ∗ rowP c (k0_off25 i) (k0_off25_inb i) Y
    ∗ rowP c (k0_off27 i) (k0_off27_inb i) Y
    ∗ rowP c (k0_off29 i) (k0_off29_inb i) Y
    ∗ rowP c (k0_off31 i) (k0_off31_inb i) Y
    ∗ rowP c (k0_off33 i) (k0_off33_inb i) Y
    ∗ rowP c (k0_off35 i) (k0_off35_inb i) Y
    ∗ rowP c (k0_off37 i) (k0_off37_inb i) Y
    ∗ rowP c (k0_off39 i) (k0_off39_inb i) Y
    ∗ rowP c (k0_off41 i) (k0_off41_inb i) Y
    ∗ rowP c (k0_off43 i) (k0_off43_inb i) Y
    ∗ rowP c (k0_off45 i) (k0_off45_inb i) Y
    ∗ rowP c (k0_off47 i) (k0_off47_inb i) Y
    ∗ rowP c (k0_off49 i) (k0_off49_inb i) Y
    ∗ rowP c (k0_off51 i) (k0_off51_inb i) Y
    ∗ rowP c (k0_off53 i) (k0_off53_inb i) Y
    ∗ rowP c (k0_off55 i) (k0_off55_inb i) Y
    ∗ rowP c (k0_off57 i) (k0_off57_inb i) Y
    ∗ rowP c (k0_off59 i) (k0_off59_inb i) Y
    ∗ rowP c (k0_off61 i) (k0_off61_inb i) Y
    ∗ rowP c (k0_off63 i) (k0_off63_inb i) Y
    ∗ rowP c (k0_off65 i) (k0_off65_inb i) Y
    ∗ rowP c (k0_off67 i) (k0_off67_inb i) Y
    ∗ rowP c (k0_off69 i) (k0_off69_inb i) Y
    ∗ rowP c (k0_off71 i) (k0_off71_inb i) Y
    ∗ rowP c (k0_off73 i) (k0_off73_inb i) Y
    ∗ rowP c (k0_off75 i) (k0_off75_inb i) Y
    ∗ rowP c (k0_off77 i) (k0_off77_inb i) Y
    ∗ rowP c (k0_off79 i) (k0_off79_inb i) Y
    ∗ rowP c (k0_off81 i) (k0_off81_inb i) Y
    ∗ rowP c (k0_off83 i) (k0_off83_inb i) Y
    ∗ rowP c (k0_off85 i) (k0_off85_inb i) Y
    ∗ rowP c (k0_off87 i) (k0_off87_inb i) Y
    ∗ rowP c (k0_off89 i) (k0_off89_inb i) Y
    ∗ rowP c (k0_off91 i) (k0_off91_inb i) Y
    ∗ rowP c (k0_off93 i) (k0_off93_inb i) Y
    ∗ rowP c (k0_off95 i) (k0_off95_inb i) Y
    ∗ rowP c (k0_off97 i) (k0_off97_inb i) Y
    ∗ rowP c (k0_off99 i) (k0_off99_inb i) Y
    ∗ rowP c (k0_off101 i) (k0_off101_inb i) Y
    ∗ rowP c (k0_off103 i) (k0_off103_inb i) Y
    ∗ rowP c (k0_off105 i) (k0_off105_inb i) Y
    ∗ rowP c (k0_off107 i) (k0_off107_inb i) Y
    ∗ rowP c (k0_off109 i) (k0_off109_inb i) Y
    ∗ rowP c (k0_off111 i) (k0_off111_inb i) Y
    ∗ rowP c (k0_off113 i) (k0_off113_inb i) Y
    ∗ rowP c (k0_off115 i) (k0_off115_inb i) Y
    ∗ rowP c (k0_off117 i) (k0_off117_inb i) Y
    ∗ rowP c (k0_off119 i) (k0_off119_inb i) Y
    ∗ rowP c (k0_off121 i) (k0_off121_inb i) Y
    ∗ rowP c (k0_off123 i) (k0_off123_inb i) Y
    ∗ rowP c (k0_off125 i) (k0_off125_inb i) Y
    ∗ rowP c (k0_off127 i) (k0_off127_inb i) Y
    ∗ rowP c (k0_off129 i) (k0_off129_inb i) Y
    ∗ rowP c (k0_off131 i) (k0_off131_inb i) Y
    ∗ rowP c (k0_off133 i) (k0_off133_inb i) Y
    ∗ rowP c (k0_off135 i) (k0_off135_inb i) Y
    ∗ rowP c (k0_off137 i) (k0_off137_inb i) Y
    ∗ rowP c (k0_off139 i) (k0_off139_inb i) Y
    ∗ rowP c (k0_off141 i) (k0_off141_inb i) Y
    ∗ rowP c (k0_off143 i) (k0_off143_inb i) Y
    ∗ rowP c (k0_off145 i) (k0_off145_inb i) Y
    ∗ rowP c (k0_off147 i) (k0_off147_inb i) Y
    ∗ rowP c (k0_off149 i) (k0_off149_inb i) Y
    ∗ rowP c (k0_off151 i) (k0_off151_inb i) Y
    ∗ rowP c (k0_off153 i) (k0_off153_inb i) Y
    ∗ rowP c (k0_off155 i) (k0_off155_inb i) Y
    ∗ rowP c (k0_off157 i) (k0_off157_inb i) Y
    ∗ rowP c (k0_off159 i) (k0_off159_inb i) Y
    ∗ rowP c (k0_off161 i) (k0_off161_inb i) Y
    ∗ rowP c (k0_off163 i) (k0_off163_inb i) Y
    ∗ rowP c (k0_off165 i) (k0_off165_inb i) Y
    ∗ rowP c (k0_off167 i) (k0_off167_inb i) Y
    ∗ rowP c (k0_off169 i) (k0_off169_inb i) Y
    ∗ rowP c (k0_off171 i) (k0_off171_inb i) Y
    ∗ rowP c (k0_off173 i) (k0_off173_inb i) Y
    ∗ rowP c (k0_off175 i) (k0_off175_inb i) Y
    ∗ rowP c (k0_off177 i) (k0_off177_inb i) Y
    ∗ rowP c (k0_off179 i) (k0_off179_inb i) Y
    ∗ rowP c (k0_off181 i) (k0_off181_inb i) Y
    ∗ rowP c (k0_off183 i) (k0_off183_inb i) Y
    ∗ rowP c (k0_off185 i) (k0_off185_inb i) Y
    ∗ rowP c (k0_off187 i) (k0_off187_inb i) Y
    ∗ rowP c (k0_off189 i) (k0_off189_inb i) Y
    ∗ rowP c (k0_off191 i) (k0_off191_inb i) Y
    ∗ rowP c (k0_off193 i) (k0_off193_inb i) Y
    ∗ rowP c (k0_off195 i) (k0_off195_inb i) Y
    ∗ rowP c (k0_off197 i) (k0_off197_inb i) Y
    ∗ rowP c (k0_off199 i) (k0_off199_inb i) Y
    ∗ rowP c (k0_off201 i) (k0_off201_inb i) Y
    ∗ rowP c (k0_off203 i) (k0_off203_inb i) Y
    ∗ rowP c (k0_off205 i) (k0_off205_inb i) Y
    ∗ rowP c (k0_off207 i) (k0_off207_inb i) Y
    ∗ rowP c (k0_off209 i) (k0_off209_inb i) Y
    ∗ rowP c (k0_off211 i) (k0_off211_inb i) Y
    ∗ rowP c (k0_off213 i) (k0_off213_inb i) Y
    ∗ rowP c (k0_off215 i) (k0_off215_inb i) Y
    ∗ rowP c (k0_off217 i) (k0_off217_inb i) Y
    ∗ rowP c (k0_off219 i) (k0_off219_inb i) Y
    ∗ rowP c (k0_off221 i) (k0_off221_inb i) Y
    ∗ rowP c (k0_off223 i) (k0_off223_inb i) Y
    ∗ rowP c (k0_off225 i) (k0_off225_inb i) Y
    ∗ rowP c (k0_off227 i) (k0_off227_inb i) Y
    ∗ rowP c (k0_off229 i) (k0_off229_inb i) Y
    ∗ rowP c (k0_off231 i) (k0_off231_inb i) Y
    ∗ rowP c (k0_off233 i) (k0_off233_inb i) Y
    ∗ rowP c (k0_off235 i) (k0_off235_inb i) Y
    ∗ rowP c (k0_off237 i) (k0_off237_inb i) Y
    ∗ rowP c (k0_off239 i) (k0_off239_inb i) Y
    ∗ rowP c (k0_off241 i) (k0_off241_inb i) Y
    ∗ rowP c (k0_off243 i) (k0_off243_inb i) Y
    ∗ rowP c (k0_off245 i) (k0_off245_inb i) Y
    ∗ rowP c (k0_off247 i) (k0_off247_inb i) Y
    ∗ rowP c (k0_off249 i) (k0_off249_inb i) Y
    ∗ rowP c (k0_off251 i) (k0_off251_inb i) Y
    ∗ rowP c (k0_off253 i) (k0_off253_inb i) Y
    ∗ rowP c (k0_off255 i) (k0_off255_inb i) Y
    ∗ rowP c (k0_off257 i) (k0_off257_inb i) Y
    ∗ rowP c (k0_off259 i) (k0_off259_inb i) Y
    ∗ rowP c (k0_off261 i) (k0_off261_inb i) Y
    ∗ rowP c (k0_off263 i) (k0_off263_inb i) Y
    ∗ rowP c (k0_off265 i) (k0_off265_inb i) Y
    ∗ rowP c (k0_off267 i) (k0_off267_inb i) Y
    ∗ rowP c (k0_off269 i) (k0_off269_inb i) Y
    ∗ rowP c (k0_off271 i) (k0_off271_inb i) Y
    ∗ rowP c (k0_off273 i) (k0_off273_inb i) Y
    ∗ rowP c (k0_off275 i) (k0_off275_inb i) Y
    ∗ rowP c (k0_off277 i) (k0_off277_inb i) Y
    ∗ rowP c (k0_off279 i) (k0_off279_inb i) Y
    ∗ rowP c (k0_off281 i) (k0_off281_inb i) Y
    ∗ rowP c (k0_off283 i) (k0_off283_inb i) Y
    ∗ rowP c (k0_off285 i) (k0_off285_inb i) Y
    ∗ rowP c (k0_off287 i) (k0_off287_inb i) Y
    ∗ rowP c (k0_off289 i) (k0_off289_inb i) Y
    ∗ rowP c (k0_off291 i) (k0_off291_inb i) Y
    ∗ rowP c (k0_off293 i) (k0_off293_inb i) Y
    ∗ rowP c (k0_off295 i) (k0_off295_inb i) Y
    ∗ rowP c (k0_off297 i) (k0_off297_inb i) Y
    ∗ rowP c (k0_off299 i) (k0_off299_inb i) Y
    ∗ rowP c (k0_off301 i) (k0_off301_inb i) Y
    ∗ rowP c (k0_off303 i) (k0_off303_inb i) Y
    ∗ rowP c (k0_off305 i) (k0_off305_inb i) Y
    ∗ rowP c (k0_off307 i) (k0_off307_inb i) Y
    ∗ rowP c (k0_off309 i) (k0_off309_inb i) Y
    ∗ rowP c (k0_off311 i) (k0_off311_inb i) Y
    ∗ rowP c (k0_off313 i) (k0_off313_inb i) Y
    ∗ rowP c (k0_off315 i) (k0_off315_inb i) Y
    ∗ rowP c (k0_off317 i) (k0_off317_inb i) Y
    ∗ rowP c (k0_off319 i) (k0_off319_inb i) Y
    ∗ rowP c (k0_off321 i) (k0_off321_inb i) Y
    ∗ rowP c (k0_off323 i) (k0_off323_inb i) Y
    ∗ rowP c (k0_off325 i) (k0_off325_inb i) Y
    ∗ rowP c (k0_off327 i) (k0_off327_inb i) Y
    ∗ rowP c (k0_off329 i) (k0_off329_inb i) Y
    ∗ rowP c (k0_off331 i) (k0_off331_inb i) Y
    ∗ rowP c (k0_off333 i) (k0_off333_inb i) Y
    ∗ rowP c (k0_off335 i) (k0_off335_inb i) Y
    ∗ rowP c (k0_off337 i) (k0_off337_inb i) Y
    ∗ rowP c (k0_off339 i) (k0_off339_inb i) Y
    ∗ rowP c (k0_off341 i) (k0_off341_inb i) Y
    ∗ rowP c (k0_off343 i) (k0_off343_inb i) Y
    ∗ rowP c (k0_off345 i) (k0_off345_inb i) Y
    ∗ rowP c (k0_off347 i) (k0_off347_inb i) Y
    ∗ rowP c (k0_off349 i) (k0_off349_inb i) Y
    ∗ rowP c (k0_off351 i) (k0_off351_inb i) Y
    ∗ rowP c (k0_off353 i) (k0_off353_inb i) Y
    ∗ rowP c (k0_off355 i) (k0_off355_inb i) Y
    ∗ rowP c (k0_off357 i) (k0_off357_inb i) Y
    ∗ rowP c (k0_off359 i) (k0_off359_inb i) Y)

/-- The 180 rows after the point: row s at window s of X landed over Y. -/
def rowsLanded (c : Dev nD) (i : grid0.Coords) (X : Buf (Elt F) (argM.view.loc (c : Thread nD τ)))
    (Y : Buf (Elt F) (outM.view.loc (c : Thread nD τ))) : sProp 𝕄 :=
  iprop(rowP c (k0_off1 i) (k0_off1_inb i) (landed c (k0_off1 i) (k0_off1_inb i) (k0_off2 i) (k0_off2_inb i) X Y)
    ∗ rowP c (k0_off3 i) (k0_off3_inb i) (landed c (k0_off3 i) (k0_off3_inb i) (k0_off4 i) (k0_off4_inb i) X Y)
    ∗ rowP c (k0_off5 i) (k0_off5_inb i) (landed c (k0_off5 i) (k0_off5_inb i) (k0_off6 i) (k0_off6_inb i) X Y)
    ∗ rowP c (k0_off7 i) (k0_off7_inb i) (landed c (k0_off7 i) (k0_off7_inb i) (k0_off8 i) (k0_off8_inb i) X Y)
    ∗ rowP c (k0_off9 i) (k0_off9_inb i) (landed c (k0_off9 i) (k0_off9_inb i) (k0_off10 i) (k0_off10_inb i) X Y)
    ∗ rowP c (k0_off11 i) (k0_off11_inb i) (landed c (k0_off11 i) (k0_off11_inb i) (k0_off12 i) (k0_off12_inb i) X Y)
    ∗ rowP c (k0_off13 i) (k0_off13_inb i) (landed c (k0_off13 i) (k0_off13_inb i) (k0_off14 i) (k0_off14_inb i) X Y)
    ∗ rowP c (k0_off15 i) (k0_off15_inb i) (landed c (k0_off15 i) (k0_off15_inb i) (k0_off16 i) (k0_off16_inb i) X Y)
    ∗ rowP c (k0_off17 i) (k0_off17_inb i) (landed c (k0_off17 i) (k0_off17_inb i) (k0_off18 i) (k0_off18_inb i) X Y)
    ∗ rowP c (k0_off19 i) (k0_off19_inb i) (landed c (k0_off19 i) (k0_off19_inb i) (k0_off20 i) (k0_off20_inb i) X Y)
    ∗ rowP c (k0_off21 i) (k0_off21_inb i) (landed c (k0_off21 i) (k0_off21_inb i) (k0_off22 i) (k0_off22_inb i) X Y)
    ∗ rowP c (k0_off23 i) (k0_off23_inb i) (landed c (k0_off23 i) (k0_off23_inb i) (k0_off24 i) (k0_off24_inb i) X Y)
    ∗ rowP c (k0_off25 i) (k0_off25_inb i) (landed c (k0_off25 i) (k0_off25_inb i) (k0_off26 i) (k0_off26_inb i) X Y)
    ∗ rowP c (k0_off27 i) (k0_off27_inb i) (landed c (k0_off27 i) (k0_off27_inb i) (k0_off28 i) (k0_off28_inb i) X Y)
    ∗ rowP c (k0_off29 i) (k0_off29_inb i) (landed c (k0_off29 i) (k0_off29_inb i) (k0_off30 i) (k0_off30_inb i) X Y)
    ∗ rowP c (k0_off31 i) (k0_off31_inb i) (landed c (k0_off31 i) (k0_off31_inb i) (k0_off32 i) (k0_off32_inb i) X Y)
    ∗ rowP c (k0_off33 i) (k0_off33_inb i) (landed c (k0_off33 i) (k0_off33_inb i) (k0_off34 i) (k0_off34_inb i) X Y)
    ∗ rowP c (k0_off35 i) (k0_off35_inb i) (landed c (k0_off35 i) (k0_off35_inb i) (k0_off36 i) (k0_off36_inb i) X Y)
    ∗ rowP c (k0_off37 i) (k0_off37_inb i) (landed c (k0_off37 i) (k0_off37_inb i) (k0_off38 i) (k0_off38_inb i) X Y)
    ∗ rowP c (k0_off39 i) (k0_off39_inb i) (landed c (k0_off39 i) (k0_off39_inb i) (k0_off40 i) (k0_off40_inb i) X Y)
    ∗ rowP c (k0_off41 i) (k0_off41_inb i) (landed c (k0_off41 i) (k0_off41_inb i) (k0_off42 i) (k0_off42_inb i) X Y)
    ∗ rowP c (k0_off43 i) (k0_off43_inb i) (landed c (k0_off43 i) (k0_off43_inb i) (k0_off44 i) (k0_off44_inb i) X Y)
    ∗ rowP c (k0_off45 i) (k0_off45_inb i) (landed c (k0_off45 i) (k0_off45_inb i) (k0_off46 i) (k0_off46_inb i) X Y)
    ∗ rowP c (k0_off47 i) (k0_off47_inb i) (landed c (k0_off47 i) (k0_off47_inb i) (k0_off48 i) (k0_off48_inb i) X Y)
    ∗ rowP c (k0_off49 i) (k0_off49_inb i) (landed c (k0_off49 i) (k0_off49_inb i) (k0_off50 i) (k0_off50_inb i) X Y)
    ∗ rowP c (k0_off51 i) (k0_off51_inb i) (landed c (k0_off51 i) (k0_off51_inb i) (k0_off52 i) (k0_off52_inb i) X Y)
    ∗ rowP c (k0_off53 i) (k0_off53_inb i) (landed c (k0_off53 i) (k0_off53_inb i) (k0_off54 i) (k0_off54_inb i) X Y)
    ∗ rowP c (k0_off55 i) (k0_off55_inb i) (landed c (k0_off55 i) (k0_off55_inb i) (k0_off56 i) (k0_off56_inb i) X Y)
    ∗ rowP c (k0_off57 i) (k0_off57_inb i) (landed c (k0_off57 i) (k0_off57_inb i) (k0_off58 i) (k0_off58_inb i) X Y)
    ∗ rowP c (k0_off59 i) (k0_off59_inb i) (landed c (k0_off59 i) (k0_off59_inb i) (k0_off60 i) (k0_off60_inb i) X Y)
    ∗ rowP c (k0_off61 i) (k0_off61_inb i) (landed c (k0_off61 i) (k0_off61_inb i) (k0_off62 i) (k0_off62_inb i) X Y)
    ∗ rowP c (k0_off63 i) (k0_off63_inb i) (landed c (k0_off63 i) (k0_off63_inb i) (k0_off64 i) (k0_off64_inb i) X Y)
    ∗ rowP c (k0_off65 i) (k0_off65_inb i) (landed c (k0_off65 i) (k0_off65_inb i) (k0_off66 i) (k0_off66_inb i) X Y)
    ∗ rowP c (k0_off67 i) (k0_off67_inb i) (landed c (k0_off67 i) (k0_off67_inb i) (k0_off68 i) (k0_off68_inb i) X Y)
    ∗ rowP c (k0_off69 i) (k0_off69_inb i) (landed c (k0_off69 i) (k0_off69_inb i) (k0_off70 i) (k0_off70_inb i) X Y)
    ∗ rowP c (k0_off71 i) (k0_off71_inb i) (landed c (k0_off71 i) (k0_off71_inb i) (k0_off72 i) (k0_off72_inb i) X Y)
    ∗ rowP c (k0_off73 i) (k0_off73_inb i) (landed c (k0_off73 i) (k0_off73_inb i) (k0_off74 i) (k0_off74_inb i) X Y)
    ∗ rowP c (k0_off75 i) (k0_off75_inb i) (landed c (k0_off75 i) (k0_off75_inb i) (k0_off76 i) (k0_off76_inb i) X Y)
    ∗ rowP c (k0_off77 i) (k0_off77_inb i) (landed c (k0_off77 i) (k0_off77_inb i) (k0_off78 i) (k0_off78_inb i) X Y)
    ∗ rowP c (k0_off79 i) (k0_off79_inb i) (landed c (k0_off79 i) (k0_off79_inb i) (k0_off80 i) (k0_off80_inb i) X Y)
    ∗ rowP c (k0_off81 i) (k0_off81_inb i) (landed c (k0_off81 i) (k0_off81_inb i) (k0_off82 i) (k0_off82_inb i) X Y)
    ∗ rowP c (k0_off83 i) (k0_off83_inb i) (landed c (k0_off83 i) (k0_off83_inb i) (k0_off84 i) (k0_off84_inb i) X Y)
    ∗ rowP c (k0_off85 i) (k0_off85_inb i) (landed c (k0_off85 i) (k0_off85_inb i) (k0_off86 i) (k0_off86_inb i) X Y)
    ∗ rowP c (k0_off87 i) (k0_off87_inb i) (landed c (k0_off87 i) (k0_off87_inb i) (k0_off88 i) (k0_off88_inb i) X Y)
    ∗ rowP c (k0_off89 i) (k0_off89_inb i) (landed c (k0_off89 i) (k0_off89_inb i) (k0_off90 i) (k0_off90_inb i) X Y)
    ∗ rowP c (k0_off91 i) (k0_off91_inb i) (landed c (k0_off91 i) (k0_off91_inb i) (k0_off92 i) (k0_off92_inb i) X Y)
    ∗ rowP c (k0_off93 i) (k0_off93_inb i) (landed c (k0_off93 i) (k0_off93_inb i) (k0_off94 i) (k0_off94_inb i) X Y)
    ∗ rowP c (k0_off95 i) (k0_off95_inb i) (landed c (k0_off95 i) (k0_off95_inb i) (k0_off96 i) (k0_off96_inb i) X Y)
    ∗ rowP c (k0_off97 i) (k0_off97_inb i) (landed c (k0_off97 i) (k0_off97_inb i) (k0_off98 i) (k0_off98_inb i) X Y)
    ∗ rowP c (k0_off99 i) (k0_off99_inb i) (landed c (k0_off99 i) (k0_off99_inb i) (k0_off100 i) (k0_off100_inb i) X Y)
    ∗ rowP c (k0_off101 i) (k0_off101_inb i) (landed c (k0_off101 i) (k0_off101_inb i) (k0_off102 i) (k0_off102_inb i) X Y)
    ∗ rowP c (k0_off103 i) (k0_off103_inb i) (landed c (k0_off103 i) (k0_off103_inb i) (k0_off104 i) (k0_off104_inb i) X Y)
    ∗ rowP c (k0_off105 i) (k0_off105_inb i) (landed c (k0_off105 i) (k0_off105_inb i) (k0_off106 i) (k0_off106_inb i) X Y)
    ∗ rowP c (k0_off107 i) (k0_off107_inb i) (landed c (k0_off107 i) (k0_off107_inb i) (k0_off108 i) (k0_off108_inb i) X Y)
    ∗ rowP c (k0_off109 i) (k0_off109_inb i) (landed c (k0_off109 i) (k0_off109_inb i) (k0_off110 i) (k0_off110_inb i) X Y)
    ∗ rowP c (k0_off111 i) (k0_off111_inb i) (landed c (k0_off111 i) (k0_off111_inb i) (k0_off112 i) (k0_off112_inb i) X Y)
    ∗ rowP c (k0_off113 i) (k0_off113_inb i) (landed c (k0_off113 i) (k0_off113_inb i) (k0_off114 i) (k0_off114_inb i) X Y)
    ∗ rowP c (k0_off115 i) (k0_off115_inb i) (landed c (k0_off115 i) (k0_off115_inb i) (k0_off116 i) (k0_off116_inb i) X Y)
    ∗ rowP c (k0_off117 i) (k0_off117_inb i) (landed c (k0_off117 i) (k0_off117_inb i) (k0_off118 i) (k0_off118_inb i) X Y)
    ∗ rowP c (k0_off119 i) (k0_off119_inb i) (landed c (k0_off119 i) (k0_off119_inb i) (k0_off120 i) (k0_off120_inb i) X Y)
    ∗ rowP c (k0_off121 i) (k0_off121_inb i) (landed c (k0_off121 i) (k0_off121_inb i) (k0_off122 i) (k0_off122_inb i) X Y)
    ∗ rowP c (k0_off123 i) (k0_off123_inb i) (landed c (k0_off123 i) (k0_off123_inb i) (k0_off124 i) (k0_off124_inb i) X Y)
    ∗ rowP c (k0_off125 i) (k0_off125_inb i) (landed c (k0_off125 i) (k0_off125_inb i) (k0_off126 i) (k0_off126_inb i) X Y)
    ∗ rowP c (k0_off127 i) (k0_off127_inb i) (landed c (k0_off127 i) (k0_off127_inb i) (k0_off128 i) (k0_off128_inb i) X Y)
    ∗ rowP c (k0_off129 i) (k0_off129_inb i) (landed c (k0_off129 i) (k0_off129_inb i) (k0_off130 i) (k0_off130_inb i) X Y)
    ∗ rowP c (k0_off131 i) (k0_off131_inb i) (landed c (k0_off131 i) (k0_off131_inb i) (k0_off132 i) (k0_off132_inb i) X Y)
    ∗ rowP c (k0_off133 i) (k0_off133_inb i) (landed c (k0_off133 i) (k0_off133_inb i) (k0_off134 i) (k0_off134_inb i) X Y)
    ∗ rowP c (k0_off135 i) (k0_off135_inb i) (landed c (k0_off135 i) (k0_off135_inb i) (k0_off136 i) (k0_off136_inb i) X Y)
    ∗ rowP c (k0_off137 i) (k0_off137_inb i) (landed c (k0_off137 i) (k0_off137_inb i) (k0_off138 i) (k0_off138_inb i) X Y)
    ∗ rowP c (k0_off139 i) (k0_off139_inb i) (landed c (k0_off139 i) (k0_off139_inb i) (k0_off140 i) (k0_off140_inb i) X Y)
    ∗ rowP c (k0_off141 i) (k0_off141_inb i) (landed c (k0_off141 i) (k0_off141_inb i) (k0_off142 i) (k0_off142_inb i) X Y)
    ∗ rowP c (k0_off143 i) (k0_off143_inb i) (landed c (k0_off143 i) (k0_off143_inb i) (k0_off144 i) (k0_off144_inb i) X Y)
    ∗ rowP c (k0_off145 i) (k0_off145_inb i) (landed c (k0_off145 i) (k0_off145_inb i) (k0_off146 i) (k0_off146_inb i) X Y)
    ∗ rowP c (k0_off147 i) (k0_off147_inb i) (landed c (k0_off147 i) (k0_off147_inb i) (k0_off148 i) (k0_off148_inb i) X Y)
    ∗ rowP c (k0_off149 i) (k0_off149_inb i) (landed c (k0_off149 i) (k0_off149_inb i) (k0_off150 i) (k0_off150_inb i) X Y)
    ∗ rowP c (k0_off151 i) (k0_off151_inb i) (landed c (k0_off151 i) (k0_off151_inb i) (k0_off152 i) (k0_off152_inb i) X Y)
    ∗ rowP c (k0_off153 i) (k0_off153_inb i) (landed c (k0_off153 i) (k0_off153_inb i) (k0_off154 i) (k0_off154_inb i) X Y)
    ∗ rowP c (k0_off155 i) (k0_off155_inb i) (landed c (k0_off155 i) (k0_off155_inb i) (k0_off156 i) (k0_off156_inb i) X Y)
    ∗ rowP c (k0_off157 i) (k0_off157_inb i) (landed c (k0_off157 i) (k0_off157_inb i) (k0_off158 i) (k0_off158_inb i) X Y)
    ∗ rowP c (k0_off159 i) (k0_off159_inb i) (landed c (k0_off159 i) (k0_off159_inb i) (k0_off160 i) (k0_off160_inb i) X Y)
    ∗ rowP c (k0_off161 i) (k0_off161_inb i) (landed c (k0_off161 i) (k0_off161_inb i) (k0_off162 i) (k0_off162_inb i) X Y)
    ∗ rowP c (k0_off163 i) (k0_off163_inb i) (landed c (k0_off163 i) (k0_off163_inb i) (k0_off164 i) (k0_off164_inb i) X Y)
    ∗ rowP c (k0_off165 i) (k0_off165_inb i) (landed c (k0_off165 i) (k0_off165_inb i) (k0_off166 i) (k0_off166_inb i) X Y)
    ∗ rowP c (k0_off167 i) (k0_off167_inb i) (landed c (k0_off167 i) (k0_off167_inb i) (k0_off168 i) (k0_off168_inb i) X Y)
    ∗ rowP c (k0_off169 i) (k0_off169_inb i) (landed c (k0_off169 i) (k0_off169_inb i) (k0_off170 i) (k0_off170_inb i) X Y)
    ∗ rowP c (k0_off171 i) (k0_off171_inb i) (landed c (k0_off171 i) (k0_off171_inb i) (k0_off172 i) (k0_off172_inb i) X Y)
    ∗ rowP c (k0_off173 i) (k0_off173_inb i) (landed c (k0_off173 i) (k0_off173_inb i) (k0_off174 i) (k0_off174_inb i) X Y)
    ∗ rowP c (k0_off175 i) (k0_off175_inb i) (landed c (k0_off175 i) (k0_off175_inb i) (k0_off176 i) (k0_off176_inb i) X Y)
    ∗ rowP c (k0_off177 i) (k0_off177_inb i) (landed c (k0_off177 i) (k0_off177_inb i) (k0_off178 i) (k0_off178_inb i) X Y)
    ∗ rowP c (k0_off179 i) (k0_off179_inb i) (landed c (k0_off179 i) (k0_off179_inb i) (k0_off180 i) (k0_off180_inb i) X Y)
    ∗ rowP c (k0_off181 i) (k0_off181_inb i) (landed c (k0_off181 i) (k0_off181_inb i) (k0_off182 i) (k0_off182_inb i) X Y)
    ∗ rowP c (k0_off183 i) (k0_off183_inb i) (landed c (k0_off183 i) (k0_off183_inb i) (k0_off184 i) (k0_off184_inb i) X Y)
    ∗ rowP c (k0_off185 i) (k0_off185_inb i) (landed c (k0_off185 i) (k0_off185_inb i) (k0_off186 i) (k0_off186_inb i) X Y)
    ∗ rowP c (k0_off187 i) (k0_off187_inb i) (landed c (k0_off187 i) (k0_off187_inb i) (k0_off188 i) (k0_off188_inb i) X Y)
    ∗ rowP c (k0_off189 i) (k0_off189_inb i) (landed c (k0_off189 i) (k0_off189_inb i) (k0_off190 i) (k0_off190_inb i) X Y)
    ∗ rowP c (k0_off191 i) (k0_off191_inb i) (landed c (k0_off191 i) (k0_off191_inb i) (k0_off192 i) (k0_off192_inb i) X Y)
    ∗ rowP c (k0_off193 i) (k0_off193_inb i) (landed c (k0_off193 i) (k0_off193_inb i) (k0_off194 i) (k0_off194_inb i) X Y)
    ∗ rowP c (k0_off195 i) (k0_off195_inb i) (landed c (k0_off195 i) (k0_off195_inb i) (k0_off196 i) (k0_off196_inb i) X Y)
    ∗ rowP c (k0_off197 i) (k0_off197_inb i) (landed c (k0_off197 i) (k0_off197_inb i) (k0_off198 i) (k0_off198_inb i) X Y)
    ∗ rowP c (k0_off199 i) (k0_off199_inb i) (landed c (k0_off199 i) (k0_off199_inb i) (k0_off200 i) (k0_off200_inb i) X Y)
    ∗ rowP c (k0_off201 i) (k0_off201_inb i) (landed c (k0_off201 i) (k0_off201_inb i) (k0_off202 i) (k0_off202_inb i) X Y)
    ∗ rowP c (k0_off203 i) (k0_off203_inb i) (landed c (k0_off203 i) (k0_off203_inb i) (k0_off204 i) (k0_off204_inb i) X Y)
    ∗ rowP c (k0_off205 i) (k0_off205_inb i) (landed c (k0_off205 i) (k0_off205_inb i) (k0_off206 i) (k0_off206_inb i) X Y)
    ∗ rowP c (k0_off207 i) (k0_off207_inb i) (landed c (k0_off207 i) (k0_off207_inb i) (k0_off208 i) (k0_off208_inb i) X Y)
    ∗ rowP c (k0_off209 i) (k0_off209_inb i) (landed c (k0_off209 i) (k0_off209_inb i) (k0_off210 i) (k0_off210_inb i) X Y)
    ∗ rowP c (k0_off211 i) (k0_off211_inb i) (landed c (k0_off211 i) (k0_off211_inb i) (k0_off212 i) (k0_off212_inb i) X Y)
    ∗ rowP c (k0_off213 i) (k0_off213_inb i) (landed c (k0_off213 i) (k0_off213_inb i) (k0_off214 i) (k0_off214_inb i) X Y)
    ∗ rowP c (k0_off215 i) (k0_off215_inb i) (landed c (k0_off215 i) (k0_off215_inb i) (k0_off216 i) (k0_off216_inb i) X Y)
    ∗ rowP c (k0_off217 i) (k0_off217_inb i) (landed c (k0_off217 i) (k0_off217_inb i) (k0_off218 i) (k0_off218_inb i) X Y)
    ∗ rowP c (k0_off219 i) (k0_off219_inb i) (landed c (k0_off219 i) (k0_off219_inb i) (k0_off220 i) (k0_off220_inb i) X Y)
    ∗ rowP c (k0_off221 i) (k0_off221_inb i) (landed c (k0_off221 i) (k0_off221_inb i) (k0_off222 i) (k0_off222_inb i) X Y)
    ∗ rowP c (k0_off223 i) (k0_off223_inb i) (landed c (k0_off223 i) (k0_off223_inb i) (k0_off224 i) (k0_off224_inb i) X Y)
    ∗ rowP c (k0_off225 i) (k0_off225_inb i) (landed c (k0_off225 i) (k0_off225_inb i) (k0_off226 i) (k0_off226_inb i) X Y)
    ∗ rowP c (k0_off227 i) (k0_off227_inb i) (landed c (k0_off227 i) (k0_off227_inb i) (k0_off228 i) (k0_off228_inb i) X Y)
    ∗ rowP c (k0_off229 i) (k0_off229_inb i) (landed c (k0_off229 i) (k0_off229_inb i) (k0_off230 i) (k0_off230_inb i) X Y)
    ∗ rowP c (k0_off231 i) (k0_off231_inb i) (landed c (k0_off231 i) (k0_off231_inb i) (k0_off232 i) (k0_off232_inb i) X Y)
    ∗ rowP c (k0_off233 i) (k0_off233_inb i) (landed c (k0_off233 i) (k0_off233_inb i) (k0_off234 i) (k0_off234_inb i) X Y)
    ∗ rowP c (k0_off235 i) (k0_off235_inb i) (landed c (k0_off235 i) (k0_off235_inb i) (k0_off236 i) (k0_off236_inb i) X Y)
    ∗ rowP c (k0_off237 i) (k0_off237_inb i) (landed c (k0_off237 i) (k0_off237_inb i) (k0_off238 i) (k0_off238_inb i) X Y)
    ∗ rowP c (k0_off239 i) (k0_off239_inb i) (landed c (k0_off239 i) (k0_off239_inb i) (k0_off240 i) (k0_off240_inb i) X Y)
    ∗ rowP c (k0_off241 i) (k0_off241_inb i) (landed c (k0_off241 i) (k0_off241_inb i) (k0_off242 i) (k0_off242_inb i) X Y)
    ∗ rowP c (k0_off243 i) (k0_off243_inb i) (landed c (k0_off243 i) (k0_off243_inb i) (k0_off244 i) (k0_off244_inb i) X Y)
    ∗ rowP c (k0_off245 i) (k0_off245_inb i) (landed c (k0_off245 i) (k0_off245_inb i) (k0_off246 i) (k0_off246_inb i) X Y)
    ∗ rowP c (k0_off247 i) (k0_off247_inb i) (landed c (k0_off247 i) (k0_off247_inb i) (k0_off248 i) (k0_off248_inb i) X Y)
    ∗ rowP c (k0_off249 i) (k0_off249_inb i) (landed c (k0_off249 i) (k0_off249_inb i) (k0_off250 i) (k0_off250_inb i) X Y)
    ∗ rowP c (k0_off251 i) (k0_off251_inb i) (landed c (k0_off251 i) (k0_off251_inb i) (k0_off252 i) (k0_off252_inb i) X Y)
    ∗ rowP c (k0_off253 i) (k0_off253_inb i) (landed c (k0_off253 i) (k0_off253_inb i) (k0_off254 i) (k0_off254_inb i) X Y)
    ∗ rowP c (k0_off255 i) (k0_off255_inb i) (landed c (k0_off255 i) (k0_off255_inb i) (k0_off256 i) (k0_off256_inb i) X Y)
    ∗ rowP c (k0_off257 i) (k0_off257_inb i) (landed c (k0_off257 i) (k0_off257_inb i) (k0_off258 i) (k0_off258_inb i) X Y)
    ∗ rowP c (k0_off259 i) (k0_off259_inb i) (landed c (k0_off259 i) (k0_off259_inb i) (k0_off260 i) (k0_off260_inb i) X Y)
    ∗ rowP c (k0_off261 i) (k0_off261_inb i) (landed c (k0_off261 i) (k0_off261_inb i) (k0_off262 i) (k0_off262_inb i) X Y)
    ∗ rowP c (k0_off263 i) (k0_off263_inb i) (landed c (k0_off263 i) (k0_off263_inb i) (k0_off264 i) (k0_off264_inb i) X Y)
    ∗ rowP c (k0_off265 i) (k0_off265_inb i) (landed c (k0_off265 i) (k0_off265_inb i) (k0_off266 i) (k0_off266_inb i) X Y)
    ∗ rowP c (k0_off267 i) (k0_off267_inb i) (landed c (k0_off267 i) (k0_off267_inb i) (k0_off268 i) (k0_off268_inb i) X Y)
    ∗ rowP c (k0_off269 i) (k0_off269_inb i) (landed c (k0_off269 i) (k0_off269_inb i) (k0_off270 i) (k0_off270_inb i) X Y)
    ∗ rowP c (k0_off271 i) (k0_off271_inb i) (landed c (k0_off271 i) (k0_off271_inb i) (k0_off272 i) (k0_off272_inb i) X Y)
    ∗ rowP c (k0_off273 i) (k0_off273_inb i) (landed c (k0_off273 i) (k0_off273_inb i) (k0_off274 i) (k0_off274_inb i) X Y)
    ∗ rowP c (k0_off275 i) (k0_off275_inb i) (landed c (k0_off275 i) (k0_off275_inb i) (k0_off276 i) (k0_off276_inb i) X Y)
    ∗ rowP c (k0_off277 i) (k0_off277_inb i) (landed c (k0_off277 i) (k0_off277_inb i) (k0_off278 i) (k0_off278_inb i) X Y)
    ∗ rowP c (k0_off279 i) (k0_off279_inb i) (landed c (k0_off279 i) (k0_off279_inb i) (k0_off280 i) (k0_off280_inb i) X Y)
    ∗ rowP c (k0_off281 i) (k0_off281_inb i) (landed c (k0_off281 i) (k0_off281_inb i) (k0_off282 i) (k0_off282_inb i) X Y)
    ∗ rowP c (k0_off283 i) (k0_off283_inb i) (landed c (k0_off283 i) (k0_off283_inb i) (k0_off284 i) (k0_off284_inb i) X Y)
    ∗ rowP c (k0_off285 i) (k0_off285_inb i) (landed c (k0_off285 i) (k0_off285_inb i) (k0_off286 i) (k0_off286_inb i) X Y)
    ∗ rowP c (k0_off287 i) (k0_off287_inb i) (landed c (k0_off287 i) (k0_off287_inb i) (k0_off288 i) (k0_off288_inb i) X Y)
    ∗ rowP c (k0_off289 i) (k0_off289_inb i) (landed c (k0_off289 i) (k0_off289_inb i) (k0_off290 i) (k0_off290_inb i) X Y)
    ∗ rowP c (k0_off291 i) (k0_off291_inb i) (landed c (k0_off291 i) (k0_off291_inb i) (k0_off292 i) (k0_off292_inb i) X Y)
    ∗ rowP c (k0_off293 i) (k0_off293_inb i) (landed c (k0_off293 i) (k0_off293_inb i) (k0_off294 i) (k0_off294_inb i) X Y)
    ∗ rowP c (k0_off295 i) (k0_off295_inb i) (landed c (k0_off295 i) (k0_off295_inb i) (k0_off296 i) (k0_off296_inb i) X Y)
    ∗ rowP c (k0_off297 i) (k0_off297_inb i) (landed c (k0_off297 i) (k0_off297_inb i) (k0_off298 i) (k0_off298_inb i) X Y)
    ∗ rowP c (k0_off299 i) (k0_off299_inb i) (landed c (k0_off299 i) (k0_off299_inb i) (k0_off300 i) (k0_off300_inb i) X Y)
    ∗ rowP c (k0_off301 i) (k0_off301_inb i) (landed c (k0_off301 i) (k0_off301_inb i) (k0_off302 i) (k0_off302_inb i) X Y)
    ∗ rowP c (k0_off303 i) (k0_off303_inb i) (landed c (k0_off303 i) (k0_off303_inb i) (k0_off304 i) (k0_off304_inb i) X Y)
    ∗ rowP c (k0_off305 i) (k0_off305_inb i) (landed c (k0_off305 i) (k0_off305_inb i) (k0_off306 i) (k0_off306_inb i) X Y)
    ∗ rowP c (k0_off307 i) (k0_off307_inb i) (landed c (k0_off307 i) (k0_off307_inb i) (k0_off308 i) (k0_off308_inb i) X Y)
    ∗ rowP c (k0_off309 i) (k0_off309_inb i) (landed c (k0_off309 i) (k0_off309_inb i) (k0_off310 i) (k0_off310_inb i) X Y)
    ∗ rowP c (k0_off311 i) (k0_off311_inb i) (landed c (k0_off311 i) (k0_off311_inb i) (k0_off312 i) (k0_off312_inb i) X Y)
    ∗ rowP c (k0_off313 i) (k0_off313_inb i) (landed c (k0_off313 i) (k0_off313_inb i) (k0_off314 i) (k0_off314_inb i) X Y)
    ∗ rowP c (k0_off315 i) (k0_off315_inb i) (landed c (k0_off315 i) (k0_off315_inb i) (k0_off316 i) (k0_off316_inb i) X Y)
    ∗ rowP c (k0_off317 i) (k0_off317_inb i) (landed c (k0_off317 i) (k0_off317_inb i) (k0_off318 i) (k0_off318_inb i) X Y)
    ∗ rowP c (k0_off319 i) (k0_off319_inb i) (landed c (k0_off319 i) (k0_off319_inb i) (k0_off320 i) (k0_off320_inb i) X Y)
    ∗ rowP c (k0_off321 i) (k0_off321_inb i) (landed c (k0_off321 i) (k0_off321_inb i) (k0_off322 i) (k0_off322_inb i) X Y)
    ∗ rowP c (k0_off323 i) (k0_off323_inb i) (landed c (k0_off323 i) (k0_off323_inb i) (k0_off324 i) (k0_off324_inb i) X Y)
    ∗ rowP c (k0_off325 i) (k0_off325_inb i) (landed c (k0_off325 i) (k0_off325_inb i) (k0_off326 i) (k0_off326_inb i) X Y)
    ∗ rowP c (k0_off327 i) (k0_off327_inb i) (landed c (k0_off327 i) (k0_off327_inb i) (k0_off328 i) (k0_off328_inb i) X Y)
    ∗ rowP c (k0_off329 i) (k0_off329_inb i) (landed c (k0_off329 i) (k0_off329_inb i) (k0_off330 i) (k0_off330_inb i) X Y)
    ∗ rowP c (k0_off331 i) (k0_off331_inb i) (landed c (k0_off331 i) (k0_off331_inb i) (k0_off332 i) (k0_off332_inb i) X Y)
    ∗ rowP c (k0_off333 i) (k0_off333_inb i) (landed c (k0_off333 i) (k0_off333_inb i) (k0_off334 i) (k0_off334_inb i) X Y)
    ∗ rowP c (k0_off335 i) (k0_off335_inb i) (landed c (k0_off335 i) (k0_off335_inb i) (k0_off336 i) (k0_off336_inb i) X Y)
    ∗ rowP c (k0_off337 i) (k0_off337_inb i) (landed c (k0_off337 i) (k0_off337_inb i) (k0_off338 i) (k0_off338_inb i) X Y)
    ∗ rowP c (k0_off339 i) (k0_off339_inb i) (landed c (k0_off339 i) (k0_off339_inb i) (k0_off340 i) (k0_off340_inb i) X Y)
    ∗ rowP c (k0_off341 i) (k0_off341_inb i) (landed c (k0_off341 i) (k0_off341_inb i) (k0_off342 i) (k0_off342_inb i) X Y)
    ∗ rowP c (k0_off343 i) (k0_off343_inb i) (landed c (k0_off343 i) (k0_off343_inb i) (k0_off344 i) (k0_off344_inb i) X Y)
    ∗ rowP c (k0_off345 i) (k0_off345_inb i) (landed c (k0_off345 i) (k0_off345_inb i) (k0_off346 i) (k0_off346_inb i) X Y)
    ∗ rowP c (k0_off347 i) (k0_off347_inb i) (landed c (k0_off347 i) (k0_off347_inb i) (k0_off348 i) (k0_off348_inb i) X Y)
    ∗ rowP c (k0_off349 i) (k0_off349_inb i) (landed c (k0_off349 i) (k0_off349_inb i) (k0_off350 i) (k0_off350_inb i) X Y)
    ∗ rowP c (k0_off351 i) (k0_off351_inb i) (landed c (k0_off351 i) (k0_off351_inb i) (k0_off352 i) (k0_off352_inb i) X Y)
    ∗ rowP c (k0_off353 i) (k0_off353_inb i) (landed c (k0_off353 i) (k0_off353_inb i) (k0_off354 i) (k0_off354_inb i) X Y)
    ∗ rowP c (k0_off355 i) (k0_off355_inb i) (landed c (k0_off355 i) (k0_off355_inb i) (k0_off356 i) (k0_off356_inb i) X Y)
    ∗ rowP c (k0_off357 i) (k0_off357_inb i) (landed c (k0_off357 i) (k0_off357_inb i) (k0_off358 i) (k0_off358_inb i) X Y)
    ∗ rowP c (k0_off359 i) (k0_off359_inb i) (landed c (k0_off359 i) (k0_off359_inb i) (k0_off360 i) (k0_off360_inb i) X Y))

/-- The eight read shares of the input. -/
def toksAt (c : Dev nD) (X : Buf (Elt F) (argM.view.loc (c : Thread nD τ))) : sProp 𝕄 :=
  iprop(tokP c 0 X ∗ tokP c 1 X ∗ tokP c 2 X ∗ tokP c 3 X ∗ tokP c 4 X ∗ tokP c 5 X ∗ tokP c 6 X ∗ tokP c 7 X)
/-- The eight semaphores at zero. -/
def cellsAt (c : Dev nD) : sProp 𝕄 :=
  iprop(cellP (F := F) c 0 ∗ cellP c 1 ∗ cellP c 2 ∗ cellP c 3 ∗ cellP c 4 ∗ cellP c 5 ∗ cellP c 6 ∗ cellP c 7)

set_option maxHeartbeats 0 in
/-- THE POINT'S RUN: from the shares, the rows at Y, the semaphores at zero and the core's ledger of waits, the body
    runs to its end and hands back the shares, the rows landed, the semaphores at zero and a ledger. -/
theorem bodyRun [∀ e, Nonempty (Elt F e)] (c : Dev nD) (i : grid0.Coords) (X : Buf (Elt F) (argM.view.loc (c : Thread nD τ)))
    (Y : Buf (Elt F) (outM.view.loc (c : Thread nD τ))) (W : Waits sig Unit) (Q : PUnit → sProp 𝕄) :
    iprop((toksAt c X ∗ rowsAt c i Y ∗ cellsAt c ∗ owes (c : Thread nD τ) 0 W)
        ∗ ((toksAt c X ∗ rowsLanded c i X Y ∗ cellsAt c ∗ (∃ W', owes (c : Thread nD τ) 0 W')) -∗ Q ⟨⟩))
      ⊢ wp frame (wpE (defs₀ (F := F)) 𝒱₀ (c : Thread nD τ) none) Set.univ
          (cc0__unfold_dma_kernel (F := F) i argM (Memref.isWhole_whole _) outM (Memref.isWhole_whole _) cc0_scratch0) Q := by
  unfold toksAt rowsAt rowsLanded cellsAt
  iintro ⟨⟨⟨T0, T1, T2, T3, T4, T5, T6, T7⟩, ⟨R0, R1, R2, R3, R4, R5, R6, R7, R8, R9, R10, R11, R12, R13, R14, R15, R16, R17, R18, R19, R20, R21, R22, R23, R24, R25, R26, R27, R28, R29, R30, R31, R32, R33, R34, R35, R36, R37, R38, R39, R40, R41, R42, R43, R44, R45, R46, R47, R48, R49, R50, R51, R52, R53, R54, R55, R56, R57, R58, R59, R60, R61, R62, R63, R64, R65, R66, R67, R68, R69, R70, R71, R72, R73, R74, R75, R76, R77, R78, R79, R80, R81, R82, R83, R84, R85, R86, R87, R88, R89, R90, R91, R92, R93, R94, R95, R96, R97, R98, R99, R100, R101, R102, R103, R104, R105, R106, R107, R108, R109, R110, R111, R112, R113, R114, R115, R116, R117, R118, R119, R120, R121, R122, R123, R124, R125, R126, R127, R128, R129, R130, R131, R132, R133, R134, R135, R136, R137, R138, R139, R140, R141, R142, R143, R144, R145, R146, R147, R148, R149, R150, R151, R152, R153, R154, R155, R156, R157, R158, R159, R160, R161, R162, R163, R164, R165, R166, R167, R168, R169, R170, R171, R172, R173, R174, R175, R176, R177, R178, R179⟩, ⟨C0, C1, C2, C3, C4, C5, C6, C7⟩, HO⟩, Hk⟩
  sl_unfold [cc0__unfold_dma_kernel]
  sl_exec_parts
  sl_step
  iapply Hk
  isplitl [T0 T1 T2 T3 T4 T5 T6 T7]
  · isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  isplitl [R0 R1 R2 R3 R4 R5 R6 R7 R8 R9 R10 R11 R12 R13 R14 R15 R16 R17 R18 R19 R20 R21 R22 R23 R24 R25 R26 R27 R28 R29 R30 R31 R32 R33 R34 R35 R36 R37 R38 R39 R40 R41 R42 R43 R44 R45 R46 R47 R48 R49 R50 R51 R52 R53 R54 R55 R56 R57 R58 R59 R60 R61 R62 R63 R64 R65 R66 R67 R68 R69 R70 R71 R72 R73 R74 R75 R76 R77 R78 R79 R80 R81 R82 R83 R84 R85 R86 R87 R88 R89 R90 R91 R92 R93 R94 R95 R96 R97 R98 R99 R100 R101 R102 R103 R104 R105 R106 R107 R108 R109 R110 R111 R112 R113 R114 R115 R116 R117 R118 R119 R120 R121 R122 R123 R124 R125 R126 R127 R128 R129 R130 R131 R132 R133 R134 R135 R136 R137 R138 R139 R140 R141 R142 R143 R144 R145 R146 R147 R148 R149 R150 R151 R152 R153 R154 R155 R156 R157 R158 R159 R160 R161 R162 R163 R164 R165 R166 R167 R168 R169 R170 R171 R172 R173 R174 R175 R176 R177 R178 R179]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    isplitl [R20]; · iexact R20
    isplitl [R21]; · iexact R21
    isplitl [R22]; · iexact R22
    isplitl [R23]; · iexact R23
    isplitl [R24]; · iexact R24
    isplitl [R25]; · iexact R25
    isplitl [R26]; · iexact R26
    isplitl [R27]; · iexact R27
    isplitl [R28]; · iexact R28
    isplitl [R29]; · iexact R29
    isplitl [R30]; · iexact R30
    isplitl [R31]; · iexact R31
    isplitl [R32]; · iexact R32
    isplitl [R33]; · iexact R33
    isplitl [R34]; · iexact R34
    isplitl [R35]; · iexact R35
    isplitl [R36]; · iexact R36
    isplitl [R37]; · iexact R37
    isplitl [R38]; · iexact R38
    isplitl [R39]; · iexact R39
    isplitl [R40]; · iexact R40
    isplitl [R41]; · iexact R41
    isplitl [R42]; · iexact R42
    isplitl [R43]; · iexact R43
    isplitl [R44]; · iexact R44
    isplitl [R45]; · iexact R45
    isplitl [R46]; · iexact R46
    isplitl [R47]; · iexact R47
    isplitl [R48]; · iexact R48
    isplitl [R49]; · iexact R49
    isplitl [R50]; · iexact R50
    isplitl [R51]; · iexact R51
    isplitl [R52]; · iexact R52
    isplitl [R53]; · iexact R53
    isplitl [R54]; · iexact R54
    isplitl [R55]; · iexact R55
    isplitl [R56]; · iexact R56
    isplitl [R57]; · iexact R57
    isplitl [R58]; · iexact R58
    isplitl [R59]; · iexact R59
    isplitl [R60]; · iexact R60
    isplitl [R61]; · iexact R61
    isplitl [R62]; · iexact R62
    isplitl [R63]; · iexact R63
    isplitl [R64]; · iexact R64
    isplitl [R65]; · iexact R65
    isplitl [R66]; · iexact R66
    isplitl [R67]; · iexact R67
    isplitl [R68]; · iexact R68
    isplitl [R69]; · iexact R69
    isplitl [R70]; · iexact R70
    isplitl [R71]; · iexact R71
    isplitl [R72]; · iexact R72
    isplitl [R73]; · iexact R73
    isplitl [R74]; · iexact R74
    isplitl [R75]; · iexact R75
    isplitl [R76]; · iexact R76
    isplitl [R77]; · iexact R77
    isplitl [R78]; · iexact R78
    isplitl [R79]; · iexact R79
    isplitl [R80]; · iexact R80
    isplitl [R81]; · iexact R81
    isplitl [R82]; · iexact R82
    isplitl [R83]; · iexact R83
    isplitl [R84]; · iexact R84
    isplitl [R85]; · iexact R85
    isplitl [R86]; · iexact R86
    isplitl [R87]; · iexact R87
    isplitl [R88]; · iexact R88
    isplitl [R89]; · iexact R89
    isplitl [R90]; · iexact R90
    isplitl [R91]; · iexact R91
    isplitl [R92]; · iexact R92
    isplitl [R93]; · iexact R93
    isplitl [R94]; · iexact R94
    isplitl [R95]; · iexact R95
    isplitl [R96]; · iexact R96
    isplitl [R97]; · iexact R97
    isplitl [R98]; · iexact R98
    isplitl [R99]; · iexact R99
    isplitl [R100]; · iexact R100
    isplitl [R101]; · iexact R101
    isplitl [R102]; · iexact R102
    isplitl [R103]; · iexact R103
    isplitl [R104]; · iexact R104
    isplitl [R105]; · iexact R105
    isplitl [R106]; · iexact R106
    isplitl [R107]; · iexact R107
    isplitl [R108]; · iexact R108
    isplitl [R109]; · iexact R109
    isplitl [R110]; · iexact R110
    isplitl [R111]; · iexact R111
    isplitl [R112]; · iexact R112
    isplitl [R113]; · iexact R113
    isplitl [R114]; · iexact R114
    isplitl [R115]; · iexact R115
    isplitl [R116]; · iexact R116
    isplitl [R117]; · iexact R117
    isplitl [R118]; · iexact R118
    isplitl [R119]; · iexact R119
    isplitl [R120]; · iexact R120
    isplitl [R121]; · iexact R121
    isplitl [R122]; · iexact R122
    isplitl [R123]; · iexact R123
    isplitl [R124]; · iexact R124
    isplitl [R125]; · iexact R125
    isplitl [R126]; · iexact R126
    isplitl [R127]; · iexact R127
    isplitl [R128]; · iexact R128
    isplitl [R129]; · iexact R129
    isplitl [R130]; · iexact R130
    isplitl [R131]; · iexact R131
    isplitl [R132]; · iexact R132
    isplitl [R133]; · iexact R133
    isplitl [R134]; · iexact R134
    isplitl [R135]; · iexact R135
    isplitl [R136]; · iexact R136
    isplitl [R137]; · iexact R137
    isplitl [R138]; · iexact R138
    isplitl [R139]; · iexact R139
    isplitl [R140]; · iexact R140
    isplitl [R141]; · iexact R141
    isplitl [R142]; · iexact R142
    isplitl [R143]; · iexact R143
    isplitl [R144]; · iexact R144
    isplitl [R145]; · iexact R145
    isplitl [R146]; · iexact R146
    isplitl [R147]; · iexact R147
    isplitl [R148]; · iexact R148
    isplitl [R149]; · iexact R149
    isplitl [R150]; · iexact R150
    isplitl [R151]; · iexact R151
    isplitl [R152]; · iexact R152
    isplitl [R153]; · iexact R153
    isplitl [R154]; · iexact R154
    isplitl [R155]; · iexact R155
    isplitl [R156]; · iexact R156
    isplitl [R157]; · iexact R157
    isplitl [R158]; · iexact R158
    isplitl [R159]; · iexact R159
    isplitl [R160]; · iexact R160
    isplitl [R161]; · iexact R161
    isplitl [R162]; · iexact R162
    isplitl [R163]; · iexact R163
    isplitl [R164]; · iexact R164
    isplitl [R165]; · iexact R165
    isplitl [R166]; · iexact R166
    isplitl [R167]; · iexact R167
    isplitl [R168]; · iexact R168
    isplitl [R169]; · iexact R169
    isplitl [R170]; · iexact R170
    isplitl [R171]; · iexact R171
    isplitl [R172]; · iexact R172
    isplitl [R173]; · iexact R173
    isplitl [R174]; · iexact R174
    isplitl [R175]; · iexact R175
    isplitl [R176]; · iexact R176
    isplitl [R177]; · iexact R177
    isplitl [R178]; · iexact R178
    iexact R179
  isplitl [C0 C1 C2 C3 C4 C5 C6 C7]
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  iexists _; iexact HO

end Cert.Kernel.Unfold

end
-- ==== Proof.KbRows.lean ====
/-
  Geometry and values of the destination rows of the sliding-window copy kernel.

  Row (b, s) of the result is the set of indices y with y 0 = b and y 1 = s; the 180 rows of a batch row partition
  it, and the 16 batch rows partition the whole index set. After the copy of window s has landed, the result array
  holds, at an index (b, s, c) of that row, the input at (b, 800 * s + c).
-/
import proofs.«181463_j85426899517737_2_alg».proof.Proof.KbNames

noncomputable section

namespace Cert.Kernel.Unfold

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The element set of a destination row -/

/-- A row's view, sliced out of the whole result and squeezed, covers exactly the unit rectangle at its offsets. -/
theorem dP_set (off : Fin 3 → Nat) (h : ∀ a, off a + S1x1x16000.size a ≤ S16x180x16000.size a) :
    (dP off h).view.set = (Rect.unit (s := S16x180x16000) off S1x1x16000.size h).set :=
  (View.set_reshape _ _).trans (View.set_slice_whole _ _)

/-- An index lies in destination row s of the point's batch row iff its first two coordinates are (b, s). -/
theorem mem_row (i : grid0.Coords) (s : Fin 180) (y : S16x180x16000.Idx) :
    y ∈ (Rect.unit (s := S16x180x16000) (dOff i s) S1x1x16000.size (dOff_inb i s)).set ↔ (y 0).val = (i 0).val ∧ (y 1).val = s.val := by
  rw [Rect.mem_set_unit]
  have e := coord_word i
  have h2 : (y 2).val < 16000 := (y 2).isLt
  constructor
  · intro H
    have a0 : (BitVec.ofNat 32 (i 0).val).toNat ≤ (y 0).val ∧ (y 0).val < (BitVec.ofNat 32 (i 0).val).toNat + 1 := H 0
    have a1 : s.val ≤ (y 1).val ∧ (y 1).val < s.val + 1 := H 1
    omega
  · intro H a; fin_cases a
    · show (BitVec.ofNat 32 (i 0).val).toNat ≤ (y 0).val ∧ (y 0).val < (BitVec.ofNat 32 (i 0).val).toNat + 1; omega
    · show s.val ≤ (y 1).val ∧ (y 1).val < s.val + 1; omega
    · show 0 ≤ (y 2).val ∧ (y 2).val < 0 + 16000; omega

/-! ## The partition of the result's index set into batch rows, and of a batch row into its 180 rows -/

/-- The indices of batch row b. -/
def batchSet (b : Fin 16) : Finset S16x180x16000.Idx := Finset.univ.filter (fun y => (y 0).val = b.val)
/-- The indices of row s of batch row b. -/
def rowSet (b : Fin 16) (s : Fin 180) : Finset S16x180x16000.Idx := Finset.univ.filter (fun y => (y 0).val = b.val ∧ (y 1).val = s.val)

theorem mem_batchSet (b : Fin 16) (y : S16x180x16000.Idx) : y ∈ batchSet b ↔ (y 0).val = b.val := by
  unfold batchSet; rw [Finset.mem_filter]; exact ⟨fun H => H.2, fun H => ⟨Finset.mem_univ _, H⟩⟩
theorem mem_rowSet (b : Fin 16) (s : Fin 180) (y : S16x180x16000.Idx) : y ∈ rowSet b s ↔ (y 0).val = b.val ∧ (y 1).val = s.val := by
  unfold rowSet; rw [Finset.mem_filter]; exact ⟨fun H => H.2, fun H => ⟨Finset.mem_univ _, H⟩⟩

theorem batch_disjoint : ∀ b b' : Fin 16, b ≠ b' → Disjoint (batchSet b) (batchSet b') := by
  intro b b' hne; rw [Finset.disjoint_left]; intro y hy hy'; rw [mem_batchSet] at hy hy'; exact hne (Fin.ext (hy.symm.trans hy'))
theorem batch_cover : (Finset.univ : Finset (Fin 16)).biUnion batchSet = Finset.univ := by
  ext y; simp only [Finset.mem_biUnion, Finset.mem_univ, true_and, iff_true]; exact ⟨(y 0).cast (by decide), by rw [mem_batchSet]; rfl⟩
theorem row_disjoint (b : Fin 16) : ∀ s s' : Fin 180, s ≠ s' → Disjoint (rowSet b s) (rowSet b s') := by
  intro s s' hne; rw [Finset.disjoint_left]; intro y hy hy'; rw [mem_rowSet] at hy hy'; exact hne (Fin.ext (hy.2.symm.trans hy'.2))
theorem row_cover (b : Fin 16) : (Finset.univ : Finset (Fin 180)).biUnion (rowSet b) = batchSet b := by
  ext y; simp only [Finset.mem_biUnion, Finset.mem_univ, true_and]; rw [mem_batchSet]
  constructor
  · rintro ⟨s, hs⟩; rw [mem_rowSet] at hs; exact hs.1
  · intro H; exact ⟨(y 1).cast (by decide), by rw [mem_rowSet]; exact ⟨H, rfl⟩⟩

/-- The element set of the view of destination row s is row s of the point's batch row. -/
theorem row_set_eq (i : grid0.Coords) (s : Fin 180) :
    (dP (dOff i s) (dOff_inb i s)).view.set = rowSet ⟨(i 0).val, (i 0).isLt⟩ s := by
  rw [dP_set]; ext y; rw [mem_row, mem_rowSet]

/-! ## The index maps of a destination row and of a source window

  A row's view places the index c of the row at (doff 0, doff 1, doff 2 + c) of the result: the squeeze puts back the two
  unit axes (coordinates 0, 0, c), the unit rectangle adds its offsets. A window's view places c at (soff 0, soff 1 + c). -/

/-- Squeezing [1, 1, n] to [n]: the index of the longer shape matched with x has x's coordinate last; -/
theorem squeeze3_val (h : S16000.numel = S1x1x16000.numel) (x : S16000.Idx) :
    ((Shape.reshapeEquiv h x : S1x1x16000.Idx) 2).val = (x 0).val := by
  have e := Shape.rowMajor_reshapeEquiv h x
  rw [Shape.rowMajor_val_three, Shape.rowMajor_val_one] at e
  have h0 : ((Shape.reshapeEquiv h x : S1x1x16000.Idx) 0).val < 1 := (Shape.reshapeEquiv h x 0).isLt
  have h1 : ((Shape.reshapeEquiv h x : S1x1x16000.Idx) 1).val < 1 := (Shape.reshapeEquiv h x 1).isLt
  have e' : (((Shape.reshapeEquiv h x : S1x1x16000.Idx) 0).val * 1 + ((Shape.reshapeEquiv h x : S1x1x16000.Idx) 1).val) * 16000
      + ((Shape.reshapeEquiv h x : S1x1x16000.Idx) 2).val = (x 0).val := e
  omega
/-- squeezing [1, n] to [n] likewise. -/
theorem squeeze2_val (h : S16000.numel = S1x16000.numel) (x : S16000.Idx) :
    ((Shape.reshapeEquiv h x : S1x16000.Idx) 1).val = (x 0).val := by
  have e := Shape.rowMajor_reshapeEquiv h x
  rw [Shape.rowMajor_val_two, Shape.rowMajor_val_one] at e
  have h0 : ((Shape.reshapeEquiv h x : S1x16000.Idx) 0).val < 1 := (Shape.reshapeEquiv h x 0).isLt
  have e' : ((Shape.reshapeEquiv h x : S1x16000.Idx) 0).val * 16000 + ((Shape.reshapeEquiv h x : S1x16000.Idx) 1).val = (x 0).val := e
  omega

/-- Where a row's view places the row's index x in the result. -/
def dEmb (off : Fin 3 → Nat) (h : ∀ a, off a + S1x1x16000.size a ≤ S16x180x16000.size a) (x : S16000.Idx) : S16x180x16000.Idx :=
  (Rect.unit (s := S16x180x16000) off S1x1x16000.size h).emb (Shape.reshapeEquiv squeezes_S1x1x16000_S16000.numel_eq x)
/-- Where a window's view places the window's index x in the input. -/
def sEmb (off : Fin 2 → Nat) (h : ∀ a, off a + S1x16000.size a ≤ S16x160000.size a) (x : S16000.Idx) : S16x160000.Idx :=
  (Rect.unit (s := S16x160000) off S1x16000.size h).emb (Shape.reshapeEquiv squeezes_S1x16000_S16000.numel_eq x)

theorem dEmb_val (off : Fin 3 → Nat) (h : ∀ a, off a + S1x1x16000.size a ≤ S16x180x16000.size a) (x : S16000.Idx) :
    (dEmb off h x 0).val = off 0 ∧ (dEmb off h x 1).val = off 1 ∧ (dEmb off h x 2).val = off 2 + (x 0).val := by
  have h0 : ((Shape.reshapeEquiv squeezes_S1x1x16000_S16000.numel_eq x : S1x1x16000.Idx) 0).val < 1 := (Shape.reshapeEquiv _ x 0).isLt
  have h1 : ((Shape.reshapeEquiv squeezes_S1x1x16000_S16000.numel_eq x : S1x1x16000.Idx) 1).val < 1 := (Shape.reshapeEquiv _ x 1).isLt
  have h2 := squeeze3_val squeezes_S1x1x16000_S16000.numel_eq x
  have e0 : (dEmb off h x 0).val = off 0 + 1 * ((Shape.reshapeEquiv squeezes_S1x1x16000_S16000.numel_eq x : S1x1x16000.Idx) 0).val := rfl
  have e1 : (dEmb off h x 1).val = off 1 + 1 * ((Shape.reshapeEquiv squeezes_S1x1x16000_S16000.numel_eq x : S1x1x16000.Idx) 1).val := rfl
  have e2 : (dEmb off h x 2).val = off 2 + 1 * ((Shape.reshapeEquiv squeezes_S1x1x16000_S16000.numel_eq x : S1x1x16000.Idx) 2).val := rfl
  omega
theorem sEmb_val (off : Fin 2 → Nat) (h : ∀ a, off a + S1x16000.size a ≤ S16x160000.size a) (x : S16000.Idx) :
    (sEmb off h x 0).val = off 0 ∧ (sEmb off h x 1).val = off 1 + (x 0).val := by
  have h0 : ((Shape.reshapeEquiv squeezes_S1x16000_S16000.numel_eq x : S1x16000.Idx) 0).val < 1 := (Shape.reshapeEquiv _ x 0).isLt
  have h1 := squeeze2_val squeezes_S1x16000_S16000.numel_eq x
  have e0 : (sEmb off h x 0).val = off 0 + 1 * ((Shape.reshapeEquiv squeezes_S1x16000_S16000.numel_eq x : S1x16000.Idx) 0).val := rfl
  have e1 : (sEmb off h x 1).val = off 1 + 1 * ((Shape.reshapeEquiv squeezes_S1x16000_S16000.numel_eq x : S1x16000.Idx) 1).val := rfl
  omega

/-! ## The value of the landed array inside the row -/

/-- Reading any contents of the result through a row's view: the contents at the place of the row's index. -/
theorem dP_read (c : Dev nD) (off : Fin 3 → Nat) (h : ∀ a, off a + S1x1x16000.size a ≤ S16x180x16000.size a)
    (f : Buf (Elt F) (outM.view.loc (c : Thread nD τ))) (x : S16000.Idx) :
    (dP off h).view.read (Elt F) f x = f (dEmb off h x) := rfl
/-- Reading any contents of the input through a window's view: the contents at the place of the window's index. -/
theorem sP_read (c : Dev nD) (off : Fin 2 → Nat) (h : ∀ a, off a + S1x16000.size a ≤ S16x160000.size a)
    (f : Buf (Elt F) (argM.view.loc (c : Thread nD τ))) (x : S16000.Idx) :
    (sP off h).view.read (Elt F) f x = f (sEmb off h x) := rfl

/-- At the place of the row's index x the landed array holds the input at the place of the window's index x: the one piece
    covers the whole row, so the row reads back the piece's payload, which is the window read as it is. -/
theorem landed_at (c : Dev nD) (doff : Fin 3 → Nat) (dh : ∀ a, doff a + S1x1x16000.size a ≤ S16x180x16000.size a)
    (soff : Fin 2 → Nat) (sh : ∀ a, soff a + S1x16000.size a ≤ S16x160000.size a)
    (X : Buf (Elt F) (argM.view.loc (c : Thread nD τ))) (Y : Buf (Elt F) (outM.view.loc (c : Thread nD τ))) (x : S16000.Idx) :
    landed c doff dh soff sh X Y (dEmb doff dh x) = X (sEmb soff sh x) :=
  (dP_read c doff dh (landed c doff dh soff sh X Y) x).symm.trans
    ((congrFun (View.read_writes_whole (dP doff dh).view Y (ReadAs.same.apply ((sP soff sh).view.read (Elt F) X))) x).trans
      (sP_read c soff sh X x))

/-- THE VALUE. Inside row (b, s) the landed array holds the input at (b, 800 * s + c): the index y = (b, s, c) of the row is
    the place of the row's index c, and the place of the window's index c is (b, 800 * s + c), where y is read from. -/
theorem landed_apply (c : Dev nD) (i : grid0.Coords) (s : Fin 180)
    (X : Buf (Elt F) (argM.view.loc (c : Thread nD τ))) (Y : Buf (Elt F) (outM.view.loc (c : Thread nD τ)))
    (y : S16x180x16000.Idx) (hy : (y 0).val = (i 0).val ∧ (y 1).val = s.val) :
    landed c (dOff i s) (dOff_inb i s) (sOff i s) (sOff_inb i s) X Y y = X (Cert.Unfold.srcIdx y) := by
  have ew := coord_word i
  let x : S16000.Idx := Idealize.ShloMosaic.ValueIdx.ix1 (n := 16000) ⟨(y 2).val, (y 2).isLt⟩
  have hx : (x 0).val = (y 2).val := rfl
  have ed : dEmb (dOff i s) (dOff_inb i s) x = y := by
    obtain ⟨e0, e1, e2⟩ := dEmb_val (dOff i s) (dOff_inb i s) x
    have d0 : dOff i s 0 = (BitVec.ofNat 32 (i 0).val).toNat := rfl
    have d1 : dOff i s 1 = s.val := rfl
    have d2 : dOff i s 2 = 0 := rfl
    funext a; apply Fin.ext; fin_cases a
    · show (dEmb (dOff i s) (dOff_inb i s) x 0).val = (y 0).val; omega
    · show (dEmb (dOff i s) (dOff_inb i s) x 1).val = (y 1).val; omega
    · show (dEmb (dOff i s) (dOff_inb i s) x 2).val = (y 2).val; omega
  have es : sEmb (sOff i s) (sOff_inb i s) x = Cert.Unfold.srcIdx y := by
    obtain ⟨e0, e1⟩ := sEmb_val (sOff i s) (sOff_inb i s) x
    have s0 : sOff i s 0 = (BitVec.ofNat 32 (i 0).val).toNat := rfl
    have s1 : sOff i s 1 = 800 * s.val := rfl
    have r0 := Cert.Unfold.srcIdx_row y
    have r1 := Cert.Unfold.srcIdx_col y
    funext a; apply Fin.ext; fin_cases a
    · show (sEmb (sOff i s) (sOff_inb i s) x 0).val = (Cert.Unfold.srcIdx y 0).val; omega
    · show (sEmb (sOff i s) (sOff_inb i s) x 1).val = (Cert.Unfold.srcIdx y 1).val; omega
  exact (congrArg (landed c (dOff i s) (dOff_inb i s) (sOff i s) (sOff_inb i s) X Y) ed.symm).trans
    ((landed_at c (dOff i s) (dOff_inb i s) (sOff i s) (sOff_inb i s) X Y x).trans (congrArg X es))

end Cert.Kernel.Unfold

end
-- ==== Proof.KbOblig.lean ====
/-
  The invariant between grid points, and one point's obligation.

  Before point t the input holds its launch contents X and the result holds Y t: on the batch rows b < t the unfold
  of X (entry (b, s, c) is X at (b, 800 * s + c)), on the rows b ≥ t what the array held at launch; the eight
  semaphores are at zero. Point t touches batch row t only: the result array, held whole, is cut into the batch rows,
  batch row t into its 180 rows; the point's run lands window s of X in row s; inside row (t, s) the landed array is
  the unfold of X, on every other batch row Y t and Y (t + 1) agree; the pieces join to the array whole at Y (t + 1).
  The input is lent to the run as eight read shares beside a remainder, and joined back.
-/
import proofs.«181463_j85426899517737_2_alg».proof.Proof.KbBody
import proofs.«181463_j85426899517737_2_alg».proof.Proof.KbRows

noncomputable section

namespace Cert.Kernel.Unfold

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ)

omit [FloatOps F] in
theorem entails_of_eq {P Q : sProp 𝕄} (e : P = Q) : P ⊢ Q := e ▸ .rfl

/-- The input's and the result's contents at launch. -/
abbrev X0 (c : Dev nD) : Buf (Elt F) (argM.view.loc (c : Thread nD τ)) := m ((c : Thread nD τ).loc main_arg0)
abbrev Y0 (c : Dev nD) : Buf (Elt F) (outM.view.loc (c : Thread nD τ)) := m ((c : Thread nD τ).loc main_v0)

/-- The result before point n: the unfold of the input on the batch rows below n, the launch contents on the others. -/
def Yt (c : Dev nD) (n : ℕ) : Buf (Elt F) (outM.view.loc (c : Thread nD τ)) :=
  fun y => if (y 0).val < n then X0 m c (Cert.Unfold.srcIdx y) else Y0 m c y

/-- The invariant before point n. -/
def Φt (c : Dev nD) (n : ℕ) : sProp 𝕄 :=
  iprop((argM.view.loc (c : Thread nD τ) ↦{fullShare} X0 m c) ∗ (outM.view.loc (c : Thread nD τ) ↦{fullShare} Yt m c n) ∗ cellsAt c)

/-! ## The grid point's batch row -/

/-- The grid has one axis: point t has coordinate t. -/
theorem coords_val : ∀ t : Fin cfg0.N, (grid0.coords t 0).val = t.val := by decide +kernel

/-- The batch row point t copies into. -/
def bOf (t : Fin cfg0.N) : Fin 16 := ⟨(grid0.coords t 0).val, (grid0.coords t 0).isLt⟩
theorem bOf_val (t : Fin cfg0.N) : (bOf t).val = t.val := coords_val t

/-! ## The result array cut into the point's rows and the other batch rows -/

/-- The batch rows other than the point's, each held by its elements at f. -/
def restAt (c : Dev nD) (t : Fin cfg0.N) (f : Buf (Elt F) (outM.view.loc (c : Thread nD τ))) : sProp 𝕄 :=
  bigSep (Finset.univ.erase (bOf t)) fun b => outM.view.loc (c : Thread nD τ) ↦[batchSet b]{fullShare} f

/-- The 180 rows of the point's batch row at f, as a family over s. -/
def rowsC (c : Dev nD) (i : grid0.Coords) (f : Fin 180 → Buf (Elt F) (outM.view.loc (c : Thread nD τ))) : sProp 𝕄 :=
  bigSep Finset.univ fun s : Fin 180 => rowP c (dOff i s) (dOff_inb i s) (f s)

/-- The array whole is the point's 180 rows beside the other batch rows. -/
theorem out_split (c : Dev nD) (t : Fin cfg0.N) (f : Buf (Elt F) (outM.view.loc (c : Thread nD τ))) :
    (outM.view.loc (c : Thread nD τ) ↦{fullShare} f : sProp 𝕄) = iprop(rowsC c (grid0.coords t) (fun _ => f) ∗ restAt c t f) := by
  unfold restAt rowsC
  rw [Ring.pointsTo_blocks (ℓ := outM.view.loc (c : Thread nD τ)) batchSet batch_disjoint batch_cover f, bigSep_univ_split (bOf t)]
  congr 1
  rw [← row_cover (bOf t)]
  refine (pointsTo_biUnion (ℓ := outM.view.loc (c : Thread nD τ)) (q := fullShare) (f := f) Finset.univ (rowSet (bOf t))
    (fun s _ s' _ h => row_disjoint (bOf t) s s' h)).trans ?_
  refine bigSep_congr fun s _ => ?_
  unfold bOf
  rw [← row_set_eq (grid0.coords t) s]

/-! ## The family over s is the chain the run is stated over -/

/-- s = 0 … 179, listed. -/
def rowList : List (Fin 180) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩, ⟨28, by decide⟩, ⟨29, by decide⟩, ⟨30, by decide⟩, ⟨31, by decide⟩, ⟨32, by decide⟩, ⟨33, by decide⟩, ⟨34, by decide⟩, ⟨35, by decide⟩, ⟨36, by decide⟩, ⟨37, by decide⟩, ⟨38, by decide⟩, ⟨39, by decide⟩, ⟨40, by decide⟩, ⟨41, by decide⟩, ⟨42, by decide⟩, ⟨43, by decide⟩, ⟨44, by decide⟩, ⟨45, by decide⟩, ⟨46, by decide⟩, ⟨47, by decide⟩, ⟨48, by decide⟩, ⟨49, by decide⟩, ⟨50, by decide⟩, ⟨51, by decide⟩, ⟨52, by decide⟩, ⟨53, by decide⟩, ⟨54, by decide⟩, ⟨55, by decide⟩, ⟨56, by decide⟩, ⟨57, by decide⟩, ⟨58, by decide⟩, ⟨59, by decide⟩, ⟨60, by decide⟩, ⟨61, by decide⟩, ⟨62, by decide⟩, ⟨63, by decide⟩, ⟨64, by decide⟩, ⟨65, by decide⟩, ⟨66, by decide⟩, ⟨67, by decide⟩, ⟨68, by decide⟩, ⟨69, by decide⟩, ⟨70, by decide⟩, ⟨71, by decide⟩, ⟨72, by decide⟩, ⟨73, by decide⟩, ⟨74, by decide⟩, ⟨75, by decide⟩, ⟨76, by decide⟩, ⟨77, by decide⟩, ⟨78, by decide⟩, ⟨79, by decide⟩, ⟨80, by decide⟩, ⟨81, by decide⟩, ⟨82, by decide⟩, ⟨83, by decide⟩, ⟨84, by decide⟩, ⟨85, by decide⟩, ⟨86, by decide⟩, ⟨87, by decide⟩, ⟨88, by decide⟩, ⟨89, by decide⟩, ⟨90, by decide⟩, ⟨91, by decide⟩, ⟨92, by decide⟩, ⟨93, by decide⟩, ⟨94, by decide⟩, ⟨95, by decide⟩, ⟨96, by decide⟩, ⟨97, by decide⟩, ⟨98, by decide⟩, ⟨99, by decide⟩, ⟨100, by decide⟩, ⟨101, by decide⟩, ⟨102, by decide⟩, ⟨103, by decide⟩, ⟨104, by decide⟩, ⟨105, by decide⟩, ⟨106, by decide⟩, ⟨107, by decide⟩, ⟨108, by decide⟩, ⟨109, by decide⟩, ⟨110, by decide⟩, ⟨111, by decide⟩, ⟨112, by decide⟩, ⟨113, by decide⟩, ⟨114, by decide⟩, ⟨115, by decide⟩, ⟨116, by decide⟩, ⟨117, by decide⟩, ⟨118, by decide⟩, ⟨119, by decide⟩, ⟨120, by decide⟩, ⟨121, by decide⟩, ⟨122, by decide⟩, ⟨123, by decide⟩, ⟨124, by decide⟩, ⟨125, by decide⟩, ⟨126, by decide⟩, ⟨127, by decide⟩, ⟨128, by decide⟩, ⟨129, by decide⟩, ⟨130, by decide⟩, ⟨131, by decide⟩, ⟨132, by decide⟩, ⟨133, by decide⟩, ⟨134, by decide⟩, ⟨135, by decide⟩, ⟨136, by decide⟩, ⟨137, by decide⟩, ⟨138, by decide⟩, ⟨139, by decide⟩, ⟨140, by decide⟩, ⟨141, by decide⟩, ⟨142, by decide⟩, ⟨143, by decide⟩, ⟨144, by decide⟩, ⟨145, by decide⟩, ⟨146, by decide⟩, ⟨147, by decide⟩, ⟨148, by decide⟩, ⟨149, by decide⟩, ⟨150, by decide⟩, ⟨151, by decide⟩, ⟨152, by decide⟩, ⟨153, by decide⟩, ⟨154, by decide⟩, ⟨155, by decide⟩, ⟨156, by decide⟩, ⟨157, by decide⟩, ⟨158, by decide⟩, ⟨159, by decide⟩, ⟨160, by decide⟩, ⟨161, by decide⟩, ⟨162, by decide⟩, ⟨163, by decide⟩, ⟨164, by decide⟩, ⟨165, by decide⟩, ⟨166, by decide⟩, ⟨167, by decide⟩, ⟨168, by decide⟩, ⟨169, by decide⟩, ⟨170, by decide⟩, ⟨171, by decide⟩, ⟨172, by decide⟩, ⟨173, by decide⟩, ⟨174, by decide⟩, ⟨175, by decide⟩, ⟨176, by decide⟩, ⟨177, by decide⟩, ⟨178, by decide⟩, ⟨179, by decide⟩]

theorem rowList_eq : List.finRange 180 = rowList := by decide +kernel
theorem rowList_univ : (Finset.univ : Finset (Fin 180)) = rowList.toFinset := by
  rw [← rowList_eq]; exact (List.toFinset_finRange 180).symm
theorem rowList_nodup : rowList.Nodup := rowList_eq ▸ List.nodup_finRange 180

theorem rowsC_eq (c : Dev nD) (i : grid0.Coords) (f : Buf (Elt F) (outM.view.loc (c : Thread nD τ))) :
    rowsC c i (fun _ => f) = rowsAt c i f :=
  (bigSep_univ_eq_bigSepL rowList rowList_univ rowList_nodup _).trans rfl

theorem rowsC_landed_eq (c : Dev nD) (i : grid0.Coords) (X : Buf (Elt F) (argM.view.loc (c : Thread nD τ)))
    (Y : Buf (Elt F) (outM.view.loc (c : Thread nD τ))) :
    rowsC c i (fun s => landed c (dOff i s) (dOff_inb i s) (sOff i s) (sOff_inb i s) X Y) = rowsLanded c i X Y :=
  (bigSep_univ_eq_bigSepL rowList rowList_univ rowList_nodup _).trans rfl

/-! ## From Y t to Y (t + 1) -/

/-- Inside the point's rows the landed array is Y (t + 1): the unfold of the input. -/
theorem rows_step (c : Dev nD) (t : Fin cfg0.N) :
    rowsC c (grid0.coords t) (fun s => landed c (dOff (grid0.coords t) s) (dOff_inb (grid0.coords t) s)
        (sOff (grid0.coords t) s) (sOff_inb (grid0.coords t) s) (X0 m c) (Yt m c t.val))
      = rowsC c (grid0.coords t) (fun _ => Yt m c (t.val + 1)) := by
  unfold rowsC
  refine bigSep_congr fun s _ => pointsTo_congr fun y hy => ?_
  rw [row_set_eq (grid0.coords t) s] at hy
  have hy' : (y 0).val = (grid0.coords t 0).val ∧ (y 1).val = s.val := (mem_rowSet _ s y).mp hy
  refine (landed_apply c (grid0.coords t) s (X0 m c) (Yt m c t.val) y hy').trans ?_
  have h0 : (y 0).val < t.val + 1 := by rw [hy'.1, coords_val t]; omega
  show X0 m c (Cert.Unfold.srcIdx y) = Yt m c (t.val + 1) y
  unfold Yt; rw [if_pos h0]

/-- On the other batch rows Y t and Y (t + 1) agree. -/
theorem rest_step (c : Dev nD) (t : Fin cfg0.N) : restAt c t (Yt m c t.val) = restAt c t (Yt m c (t.val + 1)) := by
  unfold restAt
  refine bigSep_congr fun b hb => pointsTo_congr fun y hy => ?_
  have hb' : b ≠ bOf t := (Finset.mem_erase.mp hb).1
  have hy' : (y 0).val = b.val := (mem_batchSet b y).mp hy
  have hne : (y 0).val ≠ t.val := by
    intro h; exact hb' (Fin.ext (by rw [bOf_val t, ← h, hy']))
  unfold Yt
  by_cases h : (y 0).val < t.val
  · rw [if_pos h, if_pos (by omega)]
  · rw [if_neg h, if_neg (by omega)]

/-! ## The input as eight read shares -/

theorem toks_eq (c : Dev nD) (X : Buf (Elt F) (argM.view.loc (c : Thread nD τ))) :
    (bigSep Finset.univ fun k : Fin 8 => (argM.view.loc (c : Thread nD τ) ↦{Transfers.shareTok fullShare 8 k} X : sProp 𝕄)) = toksAt c X :=
  (bigSep_univ_eq_bigSepL [(0 : Fin 8), 1, 2, 3, 4, 5, 6, 7] (by decide) (by decide) _).trans rfl

theorem toks_split (c : Dev nD) (X : Buf (Elt F) (argM.view.loc (c : Thread nD τ))) :
    (argM.view.loc (c : Thread nD τ) ↦{fullShare} X : sProp 𝕄)
      ⊢ iprop((argM.view.loc (c : Thread nD τ) ↦{Transfers.shareDrop fullShare 8} X) ∗ toksAt c X) :=
  (Transfers.pointsTo_toks_split (Ix := Unit) (Name := ℕ) (U := UU nD τ) (Lvl := ℕ) fullShare 8).trans
    (entails_of_eq (by rw [toks_eq c X]))
theorem toks_join (c : Dev nD) (X : Buf (Elt F) (argM.view.loc (c : Thread nD τ))) :
    iprop((argM.view.loc (c : Thread nD τ) ↦{Transfers.shareDrop fullShare 8} X) ∗ toksAt c X)
      ⊢ (argM.view.loc (c : Thread nD τ) ↦{fullShare} X : sProp 𝕄) :=
  (entails_of_eq (by rw [toks_eq c X])).trans
    (Transfers.pointsTo_toks_join (Ix := Unit) (Name := ℕ) (U := UU nD τ) (Lvl := ℕ) fullShare 8)

/-! ## The proof data and the obligation -/

/-- The pipeline stages no window: the proof data is the invariant alone. -/
def dats (_ : Fin 1) (c : Dev nD) : Dat τ (Elt F) Unit ℕ (UU nD τ) ℕ cfg0 c where
  A w := w.elim0
  after w := w.elim0
  Φ t := Φt m c t.val
  q w := w.elim0
  owed _ := 0

/-- The body table's entry at a point is the kernel on the two arrays and the ring — in two steps (the table's
    function, then its application), so that the kernel function itself is never unfolded. -/
theorem defs_tc : (defs₀ (F := F)) .tc cfg0.body
    = fun a => cc0__unfold_dma_kernel (F := F) (grid0.coords a.1) argM (Memref.isWhole_whole _) outM (Memref.isWhole_whole _) cc0_scratch0 := rfl
theorem prog_eq (t : Fin cfg0.N) : (defs₀ (F := F)) .tc cfg0.body (cfg0.bodyArgs t (cfg0.slots t))
    = cc0__unfold_dma_kernel (F := F) (grid0.coords t) argM (Memref.isWhole_whole _) outM (Memref.isWhole_whole _) cc0_scratch0 :=
  (congrFun defs_tc _).trans rfl

omit [FloatOps F] in
theorem noWindows (Ψ : Fin cfg0.W → sProp 𝕄) : bigSep Finset.univ Ψ = (BI.emp : sProp 𝕄) := rfl

set_option backward.isDefEq.respectTransparency.types false in
theorem body_obligation [∀ e, Nonempty (Elt F e)] (c : Dev nD) :
    BodyObligation (dats (F := F) m 0 c) (defs₀ (F := F)) 𝒱₀ () Set.univ := fun t => by
  rw [noWindows, noWindows]
  rw [show (dats m 0 c).Φ t.castSucc = Φt m c t.val from rfl, show (dats m 0 c).Φ t.succ = Φt m c (t.val + 1) from rfl]
  unfold Dat.owesAt Pipeline.owesWithin
  rw [show (dats m 0 c).owed t.castSucc = 0 from rfl, show (dats m 0 c).owed t.succ = 0 from rfl]
  unfold Φt
  rw [out_split c t (Yt m c t.val), out_split c t (Yt m c (t.val + 1)), rowsC_eq, ← rows_step m c t, rowsC_landed_eq, ← rest_step m c t]
  iintro ⟨⟨HA, ⟨HR, Hrest⟩, HC⟩, ⟨%W, -, HW⟩, -⟩
  ihave HT := (toks_split c (X0 m c)) $$ HA
  icases HT with ⟨Hdrop, HT⟩
  sl_rw [prog_eq t]
  iapply (bodyRun c (grid0.coords t) (X0 m c) (Yt m c t.val) W)
  isplitl [HT HR HC HW]
  · isplitl [HT]; · iexact HT
    isplitl [HR]; · iexact HR
    isplitl [HC]; · iexact HC
    iexact HW
  · iintro ⟨HT, HR, HC, ⟨%W', HW⟩⟩
    isplitl [Hdrop HT HR Hrest HC]
    · isplitl [Hdrop HT]
      · iapply (toks_join c (X0 m c))
        isplitl [Hdrop]; · iexact Hdrop
        iexact HT
      isplitl [HR Hrest]
      · isplitl [HR]; · iexact HR
        iexact Hrest
      iexact HC
    isplitl [HW]
    · iexists W'; isplitr; · ipureintro; exact fun _ _ => Or.inl trivial
      iexact HW
    iempintro

end Cert.Kernel.Unfold

end
-- ==== Proof.KbRun.lean ====
/-
  The launch: the whole program's run from the per-point obligation.

  The program is the one region. The launch hands the kernel the two arrays whole at their launch contents and the
  eight semaphores at zero: that is the invariant before point 0 (no batch row is below 0, so Y 0 is the launch
  contents). After the last point every batch row is below 16, so Y 16 is the unfold of the input; the arrays' final
  contents are read off the invariant against the final memory: the input unchanged, the result the unfold of the input.
-/
import proofs.«181463_j85426899517737_2_alg».proof.Proof.KbOblig

noncomputable section

namespace Cert.Kernel.Unfold

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

abbrev EP : Emb (UR sig nD τ) (MT nD τ sig Unit (Elt F) ℕ (UU nD τ) ℕ) := embL

/-- The kernel's own semaphores: the ring's eight. -/
abbrev osem : Fin 8 → SemLoc sig := fun k => .dma ⟨k.val, by have := k.isLt; show k.val < 8; omega⟩
theorem ownSemFacts : Pipeline.OwnSemFacts (cfg0.spec) osem := by decide

omit [FloatOps F] in
theorem ownSems0_eq (c : Dev nD) :
    (Pipeline.ownSems0 (Ix := Unit) (Name := ℕ) (U := UU nD τ) (Lvl := ℕ) (Val := Elt F) (τ := τ) osem c : sProp 𝕄) = cellsAt c := by
  unfold Pipeline.ownSems0
  exact (bigSep_univ_eq_bigSepL [(0 : Fin 8), 1, 2, 3, 4, 5, 6, 7] (by decide) (by decide) _).trans rfl

/-- Before the first point the result holds its launch contents; -/
theorem Yt_zero (c : Dev nD) : Yt m c 0 = Y0 m c := by
  funext y; unfold Yt; rw [if_neg (Nat.not_lt_zero _)]
/-- after the last, the unfold of the input. -/
theorem Yt_last (c : Dev nD) : Yt m c 16 = Cert.Unfold.G (X0 m c) := by
  funext y
  have h : (y 0).val < 16 := (y 0).isLt
  unfold Yt; rw [if_pos h]; rfl

/-- What the launch hands the kernel: the two arrays whole at their launch contents, the ring at zero. -/
def intoΦ (c : Dev nD) : sProp 𝕄 :=
  iprop((argM.view.loc (c : Thread nD τ) ↦{fullShare} X0 m c) ∗ (outM.view.loc (c : Thread nD τ) ↦{fullShare} Y0 m c)
    ∗ Pipeline.ownSems0 osem c)
/-- What the kernel hands back: the input as launched, the result the unfold of the input. -/
def outOfΦ (c : Dev nD) : sProp 𝕄 :=
  iprop((argM.view.loc (c : Thread nD τ) ↦{fullShare} X0 m c) ∗ (outM.view.loc (c : Thread nD τ) ↦{fullShare} Yt m c 16))

def u₀ : UU nD τ := (initOf (Pipeline.cells cfgs Cert.Kernel.Gen.cellOf_inj) (Pipeline.launchToks cfgs Cert.Kernel.Gen.cellOf_inj), 1)

/-- What the final memory holds on core c: the input as launched, the result the unfold of the input. -/
def QY (c : Dev nD) (s : MemSt nD τ sig (Elt F)) : Prop :=
  s.mem ((c : Thread nD τ).loc main_arg0) = m ((c : Thread nD τ).loc main_arg0)
    ∧ s.mem ((c : Thread nD τ).loc main_v0) = Cert.Unfold.G (m ((c : Thread nD τ).loc main_arg0))

set_option backward.isDefEq.respectTransparency.types false in
/-- From any memory with zero counters: every weakly fair execution of the program terminates, nothing faulting, with
    the input unchanged and the result the unfold of the input. -/
theorem run_main [∀ e, Nonempty (Elt F e)] :
    θ_run defs (onTc (τ := τ) (main (F := F))) (s₀ m ρ) (fun r => ∀ c : Dev nD, QY m c r.2) :=
  Pipeline.θ_run_region_kit cfgs (dats m) () (0 : Fin 1) launch0 ownSemFacts EP defs₀ 𝒱₀ m ρ main
    (hbody := fun c => (body_obligation m c).loose) (hshare := fun _ w => w.elim0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := intoΦ m) (Y := outOfΦ m)
    (Z := fun _ => iprop(emp))
    (hX := fun c => by
      rw [unscopedRest0_eq]
      unfold intoΦ
      iintro ⟨⟨H0, H1⟩, HS, -, -, -, -⟩; imodintro
      isplitl [H0 H1 HS]
      · isplitl [H0]; · iexact H0
        isplitl [H1]; · iexact H1
        iexact HS
      iempintro)
    (hin := fun c => by
      rw [scopedRest0_eq, show (dats m 0 c).Φ 0 = Φt m c 0 from rfl]
      unfold intoΦ Φt; rw [ownSems0_eq, Yt_zero]
      iintro ⟨⟨H0, H1, HS⟩, -⟩
      isplitl [H0]; · iexact H0
      isplitl [H1]; · iexact H1
      iexact HS)
    (hout := fun c => by
      rw [scopedRest0_eq, show (dats m 0 c).Φ (Fin.last cfg0.N) = Φt m c 16 from rfl, ownSems0_eq]
      unfold Φt outOfΦ
      iintro ⟨H0, H1, HS⟩
      isplitl [H0 H1]
      · isplitl [H0]; · iexact H0
        iexact H1
      isplitl [HS]; · iexact HS
      iempintro)
    (QY := QY m)
    (hY := fun c s' => by
      unfold outOfΦ
      rw [Yt_last]
      iintro ⟨⟨H0, H1⟩, -, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh c => (hh c).2)

end Cert.Kernel.Unfold

end
-- ==== Proof.KiNames.lean ====
/-
  Names for the sliding-window copy kernel: the two arrays, the 180 destination rows and the 180 source windows of
  one batch row, and the assertions a run of one grid point is stated over.

  At grid point b the kernel copies, for s = 0 … 179, the window [800 * s, 800 * s + 16000) of row b of the input
  into row (b, s) of the result, each copy on the semaphore s mod 8, at most eight copies outstanding. A destination
  row is addressed by the offsets (b, s, 0) and a source window by (b, 800 * s); written with the grid coordinate as
  the program reads it (a 32-bit word made from the coordinate), so that each of the program's printed offset vectors
  is one of these by unfolding alone.
-/
import proofs.«181463_j85426899517737_2_alg».proof.Proof.Gen.KernelIdeal.Frame
import proofs.«181463_j85426899517737_2_alg».proof.Proof.Gen.KernelIdeal.Skeleton
import proofs.«181463_j85426899517737_2_alg».proof.Proof.Spec
import Idealize.ShloMosaic.Lib.Pipeline.Kit
import Idealize.ShloMosaic.Lib.Ring
import Idealize.ShloMosaic.Lib.Batch
import Idealize.ShloMosaic.Lib.Tactic

noncomputable section

namespace Cert.KernelIdeal.Unfold

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's beside the counters the kernel's own copies complete on. -/
abbrev UU (nD : Nat) (τ : Topo) : Type := UR sig nD τ × Counters
local notation "𝕄" => MT nD τ sig Unit (Elt F) ℕ (UU nD τ) ℕ
abbrev 𝒱₀ : Variants := Variants.none

/-- The input array and the result array, whole. -/
abbrev argM : Memref sig .tc .hbm S16x160000 .f32 := Memref.whole main_arg0
abbrev outM : Memref sig .tc .hbm S16x180x16000 .f32 := Memref.whole main_v0

/-- The grid coordinate as the program reads it is the coordinate itself: it is below 16. -/
theorem coord_word (i : grid0.Coords) : (BitVec.ofNat 32 (i 0).val).toNat = (i 0).val := by
  have h : (i 0).val < 16 := (i 0).isLt
  rw [BitVec.toNat_ofNat]; exact Nat.mod_eq_of_lt (by omega)

/-- Destination row s of the point's batch row: offsets (b, s, 0). -/
def dOff (i : grid0.Coords) (s : Fin 180) : Fin 3 → Nat := ![(BitVec.ofNat 32 (i 0).val).toNat, s.val, 0]
/-- Source window s of the point's batch row: offsets (b, 800 * s). -/
def sOff (i : grid0.Coords) (s : Fin 180) : Fin 2 → Nat := ![(BitVec.ofNat 32 (i 0).val).toNat, 800 * s.val]

theorem dOff_inb (i : grid0.Coords) (s : Fin 180) : ∀ a, dOff i s a + S1x1x16000.size a ≤ S16x180x16000.size a := by
  have hb : (i 0).val < 16 := (i 0).isLt
  have hs := s.isLt
  have e := coord_word i
  intro a; fin_cases a
  · show (BitVec.ofNat 32 (i 0).val).toNat + 1 ≤ 16; omega
  · show s.val + 1 ≤ 180; omega
  · show 0 + 16000 ≤ 16000; omega
theorem sOff_inb (i : grid0.Coords) (s : Fin 180) : ∀ a, sOff i s a + S1x16000.size a ≤ S16x160000.size a := by
  have hb : (i 0).val < 16 := (i 0).isLt
  have hs := s.isLt
  have e := coord_word i
  intro a; fin_cases a
  · show (BitVec.ofNat 32 (i 0).val).toNat + 1 ≤ 16; omega
  · show 800 * s.val + 16000 ≤ 160000; omega

/-- A row of the result at given offsets, as the body slices and squeezes it. -/
abbrev dP (off : Fin 3 → Nat) (h : ∀ a, off a + S1x1x16000.size a ≤ S16x180x16000.size a) : Memref sig .tc .hbm S16000 .f32 :=
  (outM.slice (Rect.unit (s := S16x180x16000) off S1x1x16000.size h) (fun _ => rfl)).squeeze S16000 squeezes_S1x1x16000_S16000
/-- A window of the input at given offsets, as the body slices and squeezes it. -/
abbrev sP (off : Fin 2 → Nat) (h : ∀ a, off a + S1x16000.size a ≤ S16x160000.size a) : Memref sig .tc .hbm S16000 .f32 :=
  (argM.slice (Rect.unit (s := S16x160000) off S1x16000.size h) (fun _ => rfl)).squeeze S16000 squeezes_S1x16000_S16000

/-- A row of the result held by exactly its own elements, at the contents f of the whole array. -/
abbrev rowP (c : Dev nD) (off : Fin 3 → Nat) (h : ∀ a, off a + S1x1x16000.size a ≤ S16x180x16000.size a)
    (f : Buf (Elt F) (outM.view.loc (c : Thread nD τ))) : sProp 𝕄 :=
  (dP off h).view.loc (c : Thread nD τ) ↦[(dP off h).view.set]{fullShare} f

/-- The input held whole at the read share of semaphore k: what the copies completing on that semaphore read through. -/
abbrev tokP (c : Dev nD) (k : Fin 8) (X : Buf (Elt F) (argM.view.loc (c : Thread nD τ))) : sProp 𝕄 :=
  argM.view.loc (c : Thread nD τ) ↦{Transfers.shareTok fullShare 8 k} X

/-- Semaphore k of the ring at zero. -/
abbrev cellP (c : Dev nD) (k : Fin 8) : sProp 𝕄 :=
  semVal ((c : Thread nD τ), SemLoc.dma (sig := sig) ⟨k.val, by have := k.isLt; show k.val < 8; omega⟩) 0

/-- The result array after one copy has landed: the window read out of X, written over the whole row, the rest of Y kept. -/
abbrev landed (c : Dev nD) (doff : Fin 3 → Nat) (dh : ∀ a, doff a + S1x1x16000.size a ≤ S16x180x16000.size a)
    (soff : Fin 2 → Nat) (sh : ∀ a, soff a + S1x16000.size a ≤ S16x160000.size a)
    (X : Buf (Elt F) (argM.view.loc (c : Thread nD τ))) (Y : Buf (Elt F) (outM.view.loc (c : Thread nD τ))) :
    Buf (Elt F) (outM.view.loc (c : Thread nD τ)) :=
  (dP doff dh).view.writes (Elt F) Y [⟨Rect.whole S16000, ReadAs.same.apply ((sP soff sh).view.read (Elt F) X)⟩]

/-- The printed offset vectors are these, by unfolding (two instances; every other one likewise). -/
example (i : grid0.Coords) : k0_off35 i = dOff i ⟨17, by decide⟩ := rfl
example (i : grid0.Coords) : k0_off36 i = sOff i ⟨17, by decide⟩ := rfl

end Cert.KernelIdeal.Unfold

end
-- ==== Proof.KiBody.lean ====
/-
  One grid point of the sliding-window copy kernel, run.

  Before the point: the input held as eight read shares (one per semaphore of the ring) at contents X, the 180
  rows of the point's batch row of the result each held by its own elements at contents Y, the eight semaphores at
  zero. The body starts copies 0 … 7, then for s = 0 … 179 waits for copy s and, while s + 8 < 180, starts copy s + 8 on
  the semaphore copy s freed. Each start lends the window's elements of the share of its semaphore and the
  destination row to the copy in flight; each wait takes them back, the row now holding the window. After the point:
  the eight shares whole again, every row s at the window s of X written over Y, the semaphores at zero.
  The rows and windows are spelled here by the program's own offset vectors, in the order of s.
-/
import proofs.«181463_j85426899517737_2_alg».proof.Proof.KiNames

noncomputable section

namespace Cert.KernelIdeal.Unfold

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The 180 rows of the point's batch row, each at the contents Y of the whole array. -/
def rowsAt (c : Dev nD) (i : grid0.Coords) (Y : Buf (Elt F) (outM.view.loc (c : Thread nD τ))) : sProp 𝕄 :=
  iprop(rowP c (k0_off1 i) (k0_off1_inb i) Y
    ∗ rowP c (k0_off3 i) (k0_off3_inb i) Y
    ∗ rowP c (k0_off5 i) (k0_off5_inb i) Y
    ∗ rowP c (k0_off7 i) (k0_off7_inb i) Y
    ∗ rowP c (k0_off9 i) (k0_off9_inb i) Y
    ∗ rowP c (k0_off11 i) (k0_off11_inb i) Y
    ∗ rowP c (k0_off13 i) (k0_off13_inb i) Y
    ∗ rowP c (k0_off15 i) (k0_off15_inb i) Y
    ∗ rowP c (k0_off17 i) (k0_off17_inb i) Y
    ∗ rowP c (k0_off19 i) (k0_off19_inb i) Y
    ∗ rowP c (k0_off21 i) (k0_off21_inb i) Y
    ∗ rowP c (k0_off23 i) (k0_off23_inb i) Y
    ∗ rowP c (k0_off25 i) (k0_off25_inb i) Y
    ∗ rowP c (k0_off27 i) (k0_off27_inb i) Y
    ∗ rowP c (k0_off29 i) (k0_off29_inb i) Y
    ∗ rowP c (k0_off31 i) (k0_off31_inb i) Y
    ∗ rowP c (k0_off33 i) (k0_off33_inb i) Y
    ∗ rowP c (k0_off35 i) (k0_off35_inb i) Y
    ∗ rowP c (k0_off37 i) (k0_off37_inb i) Y
    ∗ rowP c (k0_off39 i) (k0_off39_inb i) Y
    ∗ rowP c (k0_off41 i) (k0_off41_inb i) Y
    ∗ rowP c (k0_off43 i) (k0_off43_inb i) Y
    ∗ rowP c (k0_off45 i) (k0_off45_inb i) Y
    ∗ rowP c (k0_off47 i) (k0_off47_inb i) Y
    ∗ rowP c (k0_off49 i) (k0_off49_inb i) Y
    ∗ rowP c (k0_off51 i) (k0_off51_inb i) Y
    ∗ rowP c (k0_off53 i) (k0_off53_inb i) Y
    ∗ rowP c (k0_off55 i) (k0_off55_inb i) Y
    ∗ rowP c (k0_off57 i) (k0_off57_inb i) Y
    ∗ rowP c (k0_off59 i) (k0_off59_inb i) Y
    ∗ rowP c (k0_off61 i) (k0_off61_inb i) Y
    ∗ rowP c (k0_off63 i) (k0_off63_inb i) Y
    ∗ rowP c (k0_off65 i) (k0_off65_inb i) Y
    ∗ rowP c (k0_off67 i) (k0_off67_inb i) Y
    ∗ rowP c (k0_off69 i) (k0_off69_inb i) Y
    ∗ rowP c (k0_off71 i) (k0_off71_inb i) Y
    ∗ rowP c (k0_off73 i) (k0_off73_inb i) Y
    ∗ rowP c (k0_off75 i) (k0_off75_inb i) Y
    ∗ rowP c (k0_off77 i) (k0_off77_inb i) Y
    ∗ rowP c (k0_off79 i) (k0_off79_inb i) Y
    ∗ rowP c (k0_off81 i) (k0_off81_inb i) Y
    ∗ rowP c (k0_off83 i) (k0_off83_inb i) Y
    ∗ rowP c (k0_off85 i) (k0_off85_inb i) Y
    ∗ rowP c (k0_off87 i) (k0_off87_inb i) Y
    ∗ rowP c (k0_off89 i) (k0_off89_inb i) Y
    ∗ rowP c (k0_off91 i) (k0_off91_inb i) Y
    ∗ rowP c (k0_off93 i) (k0_off93_inb i) Y
    ∗ rowP c (k0_off95 i) (k0_off95_inb i) Y
    ∗ rowP c (k0_off97 i) (k0_off97_inb i) Y
    ∗ rowP c (k0_off99 i) (k0_off99_inb i) Y
    ∗ rowP c (k0_off101 i) (k0_off101_inb i) Y
    ∗ rowP c (k0_off103 i) (k0_off103_inb i) Y
    ∗ rowP c (k0_off105 i) (k0_off105_inb i) Y
    ∗ rowP c (k0_off107 i) (k0_off107_inb i) Y
    ∗ rowP c (k0_off109 i) (k0_off109_inb i) Y
    ∗ rowP c (k0_off111 i) (k0_off111_inb i) Y
    ∗ rowP c (k0_off113 i) (k0_off113_inb i) Y
    ∗ rowP c (k0_off115 i) (k0_off115_inb i) Y
    ∗ rowP c (k0_off117 i) (k0_off117_inb i) Y
    ∗ rowP c (k0_off119 i) (k0_off119_inb i) Y
    ∗ rowP c (k0_off121 i) (k0_off121_inb i) Y
    ∗ rowP c (k0_off123 i) (k0_off123_inb i) Y
    ∗ rowP c (k0_off125 i) (k0_off125_inb i) Y
    ∗ rowP c (k0_off127 i) (k0_off127_inb i) Y
    ∗ rowP c (k0_off129 i) (k0_off129_inb i) Y
    ∗ rowP c (k0_off131 i) (k0_off131_inb i) Y
    ∗ rowP c (k0_off133 i) (k0_off133_inb i) Y
    ∗ rowP c (k0_off135 i) (k0_off135_inb i) Y
    ∗ rowP c (k0_off137 i) (k0_off137_inb i) Y
    ∗ rowP c (k0_off139 i) (k0_off139_inb i) Y
    ∗ rowP c (k0_off141 i) (k0_off141_inb i) Y
    ∗ rowP c (k0_off143 i) (k0_off143_inb i) Y
    ∗ rowP c (k0_off145 i) (k0_off145_inb i) Y
    ∗ rowP c (k0_off147 i) (k0_off147_inb i) Y
    ∗ rowP c (k0_off149 i) (k0_off149_inb i) Y
    ∗ rowP c (k0_off151 i) (k0_off151_inb i) Y
    ∗ rowP c (k0_off153 i) (k0_off153_inb i) Y
    ∗ rowP c (k0_off155 i) (k0_off155_inb i) Y
    ∗ rowP c (k0_off157 i) (k0_off157_inb i) Y
    ∗ rowP c (k0_off159 i) (k0_off159_inb i) Y
    ∗ rowP c (k0_off161 i) (k0_off161_inb i) Y
    ∗ rowP c (k0_off163 i) (k0_off163_inb i) Y
    ∗ rowP c (k0_off165 i) (k0_off165_inb i) Y
    ∗ rowP c (k0_off167 i) (k0_off167_inb i) Y
    ∗ rowP c (k0_off169 i) (k0_off169_inb i) Y
    ∗ rowP c (k0_off171 i) (k0_off171_inb i) Y
    ∗ rowP c (k0_off173 i) (k0_off173_inb i) Y
    ∗ rowP c (k0_off175 i) (k0_off175_inb i) Y
    ∗ rowP c (k0_off177 i) (k0_off177_inb i) Y
    ∗ rowP c (k0_off179 i) (k0_off179_inb i) Y
    ∗ rowP c (k0_off181 i) (k0_off181_inb i) Y
    ∗ rowP c (k0_off183 i) (k0_off183_inb i) Y
    ∗ rowP c (k0_off185 i) (k0_off185_inb i) Y
    ∗ rowP c (k0_off187 i) (k0_off187_inb i) Y
    ∗ rowP c (k0_off189 i) (k0_off189_inb i) Y
    ∗ rowP c (k0_off191 i) (k0_off191_inb i) Y
    ∗ rowP c (k0_off193 i) (k0_off193_inb i) Y
    ∗ rowP c (k0_off195 i) (k0_off195_inb i) Y
    ∗ rowP c (k0_off197 i) (k0_off197_inb i) Y
    ∗ rowP c (k0_off199 i) (k0_off199_inb i) Y
    ∗ rowP c (k0_off201 i) (k0_off201_inb i) Y
    ∗ rowP c (k0_off203 i) (k0_off203_inb i) Y
    ∗ rowP c (k0_off205 i) (k0_off205_inb i) Y
    ∗ rowP c (k0_off207 i) (k0_off207_inb i) Y
    ∗ rowP c (k0_off209 i) (k0_off209_inb i) Y
    ∗ rowP c (k0_off211 i) (k0_off211_inb i) Y
    ∗ rowP c (k0_off213 i) (k0_off213_inb i) Y
    ∗ rowP c (k0_off215 i) (k0_off215_inb i) Y
    ∗ rowP c (k0_off217 i) (k0_off217_inb i) Y
    ∗ rowP c (k0_off219 i) (k0_off219_inb i) Y
    ∗ rowP c (k0_off221 i) (k0_off221_inb i) Y
    ∗ rowP c (k0_off223 i) (k0_off223_inb i) Y
    ∗ rowP c (k0_off225 i) (k0_off225_inb i) Y
    ∗ rowP c (k0_off227 i) (k0_off227_inb i) Y
    ∗ rowP c (k0_off229 i) (k0_off229_inb i) Y
    ∗ rowP c (k0_off231 i) (k0_off231_inb i) Y
    ∗ rowP c (k0_off233 i) (k0_off233_inb i) Y
    ∗ rowP c (k0_off235 i) (k0_off235_inb i) Y
    ∗ rowP c (k0_off237 i) (k0_off237_inb i) Y
    ∗ rowP c (k0_off239 i) (k0_off239_inb i) Y
    ∗ rowP c (k0_off241 i) (k0_off241_inb i) Y
    ∗ rowP c (k0_off243 i) (k0_off243_inb i) Y
    ∗ rowP c (k0_off245 i) (k0_off245_inb i) Y
    ∗ rowP c (k0_off247 i) (k0_off247_inb i) Y
    ∗ rowP c (k0_off249 i) (k0_off249_inb i) Y
    ∗ rowP c (k0_off251 i) (k0_off251_inb i) Y
    ∗ rowP c (k0_off253 i) (k0_off253_inb i) Y
    ∗ rowP c (k0_off255 i) (k0_off255_inb i) Y
    ∗ rowP c (k0_off257 i) (k0_off257_inb i) Y
    ∗ rowP c (k0_off259 i) (k0_off259_inb i) Y
    ∗ rowP c (k0_off261 i) (k0_off261_inb i) Y
    ∗ rowP c (k0_off263 i) (k0_off263_inb i) Y
    ∗ rowP c (k0_off265 i) (k0_off265_inb i) Y
    ∗ rowP c (k0_off267 i) (k0_off267_inb i) Y
    ∗ rowP c (k0_off269 i) (k0_off269_inb i) Y
    ∗ rowP c (k0_off271 i) (k0_off271_inb i) Y
    ∗ rowP c (k0_off273 i) (k0_off273_inb i) Y
    ∗ rowP c (k0_off275 i) (k0_off275_inb i) Y
    ∗ rowP c (k0_off277 i) (k0_off277_inb i) Y
    ∗ rowP c (k0_off279 i) (k0_off279_inb i) Y
    ∗ rowP c (k0_off281 i) (k0_off281_inb i) Y
    ∗ rowP c (k0_off283 i) (k0_off283_inb i) Y
    ∗ rowP c (k0_off285 i) (k0_off285_inb i) Y
    ∗ rowP c (k0_off287 i) (k0_off287_inb i) Y
    ∗ rowP c (k0_off289 i) (k0_off289_inb i) Y
    ∗ rowP c (k0_off291 i) (k0_off291_inb i) Y
    ∗ rowP c (k0_off293 i) (k0_off293_inb i) Y
    ∗ rowP c (k0_off295 i) (k0_off295_inb i) Y
    ∗ rowP c (k0_off297 i) (k0_off297_inb i) Y
    ∗ rowP c (k0_off299 i) (k0_off299_inb i) Y
    ∗ rowP c (k0_off301 i) (k0_off301_inb i) Y
    ∗ rowP c (k0_off303 i) (k0_off303_inb i) Y
    ∗ rowP c (k0_off305 i) (k0_off305_inb i) Y
    ∗ rowP c (k0_off307 i) (k0_off307_inb i) Y
    ∗ rowP c (k0_off309 i) (k0_off309_inb i) Y
    ∗ rowP c (k0_off311 i) (k0_off311_inb i) Y
    ∗ rowP c (k0_off313 i) (k0_off313_inb i) Y
    ∗ rowP c (k0_off315 i) (k0_off315_inb i) Y
    ∗ rowP c (k0_off317 i) (k0_off317_inb i) Y
    ∗ rowP c (k0_off319 i) (k0_off319_inb i) Y
    ∗ rowP c (k0_off321 i) (k0_off321_inb i) Y
    ∗ rowP c (k0_off323 i) (k0_off323_inb i) Y
    ∗ rowP c (k0_off325 i) (k0_off325_inb i) Y
    ∗ rowP c (k0_off327 i) (k0_off327_inb i) Y
    ∗ rowP c (k0_off329 i) (k0_off329_inb i) Y
    ∗ rowP c (k0_off331 i) (k0_off331_inb i) Y
    ∗ rowP c (k0_off333 i) (k0_off333_inb i) Y
    ∗ rowP c (k0_off335 i) (k0_off335_inb i) Y
    ∗ rowP c (k0_off337 i) (k0_off337_inb i) Y
    ∗ rowP c (k0_off339 i) (k0_off339_inb i) Y
    ∗ rowP c (k0_off341 i) (k0_off341_inb i) Y
    ∗ rowP c (k0_off343 i) (k0_off343_inb i) Y
    ∗ rowP c (k0_off345 i) (k0_off345_inb i) Y
    ∗ rowP c (k0_off347 i) (k0_off347_inb i) Y
    ∗ rowP c (k0_off349 i) (k0_off349_inb i) Y
    ∗ rowP c (k0_off351 i) (k0_off351_inb i) Y
    ∗ rowP c (k0_off353 i) (k0_off353_inb i) Y
    ∗ rowP c (k0_off355 i) (k0_off355_inb i) Y
    ∗ rowP c (k0_off357 i) (k0_off357_inb i) Y
    ∗ rowP c (k0_off359 i) (k0_off359_inb i) Y)

/-- The 180 rows after the point: row s at window s of X landed over Y. -/
def rowsLanded (c : Dev nD) (i : grid0.Coords) (X : Buf (Elt F) (argM.view.loc (c : Thread nD τ)))
    (Y : Buf (Elt F) (outM.view.loc (c : Thread nD τ))) : sProp 𝕄 :=
  iprop(rowP c (k0_off1 i) (k0_off1_inb i) (landed c (k0_off1 i) (k0_off1_inb i) (k0_off2 i) (k0_off2_inb i) X Y)
    ∗ rowP c (k0_off3 i) (k0_off3_inb i) (landed c (k0_off3 i) (k0_off3_inb i) (k0_off4 i) (k0_off4_inb i) X Y)
    ∗ rowP c (k0_off5 i) (k0_off5_inb i) (landed c (k0_off5 i) (k0_off5_inb i) (k0_off6 i) (k0_off6_inb i) X Y)
    ∗ rowP c (k0_off7 i) (k0_off7_inb i) (landed c (k0_off7 i) (k0_off7_inb i) (k0_off8 i) (k0_off8_inb i) X Y)
    ∗ rowP c (k0_off9 i) (k0_off9_inb i) (landed c (k0_off9 i) (k0_off9_inb i) (k0_off10 i) (k0_off10_inb i) X Y)
    ∗ rowP c (k0_off11 i) (k0_off11_inb i) (landed c (k0_off11 i) (k0_off11_inb i) (k0_off12 i) (k0_off12_inb i) X Y)
    ∗ rowP c (k0_off13 i) (k0_off13_inb i) (landed c (k0_off13 i) (k0_off13_inb i) (k0_off14 i) (k0_off14_inb i) X Y)
    ∗ rowP c (k0_off15 i) (k0_off15_inb i) (landed c (k0_off15 i) (k0_off15_inb i) (k0_off16 i) (k0_off16_inb i) X Y)
    ∗ rowP c (k0_off17 i) (k0_off17_inb i) (landed c (k0_off17 i) (k0_off17_inb i) (k0_off18 i) (k0_off18_inb i) X Y)
    ∗ rowP c (k0_off19 i) (k0_off19_inb i) (landed c (k0_off19 i) (k0_off19_inb i) (k0_off20 i) (k0_off20_inb i) X Y)
    ∗ rowP c (k0_off21 i) (k0_off21_inb i) (landed c (k0_off21 i) (k0_off21_inb i) (k0_off22 i) (k0_off22_inb i) X Y)
    ∗ rowP c (k0_off23 i) (k0_off23_inb i) (landed c (k0_off23 i) (k0_off23_inb i) (k0_off24 i) (k0_off24_inb i) X Y)
    ∗ rowP c (k0_off25 i) (k0_off25_inb i) (landed c (k0_off25 i) (k0_off25_inb i) (k0_off26 i) (k0_off26_inb i) X Y)
    ∗ rowP c (k0_off27 i) (k0_off27_inb i) (landed c (k0_off27 i) (k0_off27_inb i) (k0_off28 i) (k0_off28_inb i) X Y)
    ∗ rowP c (k0_off29 i) (k0_off29_inb i) (landed c (k0_off29 i) (k0_off29_inb i) (k0_off30 i) (k0_off30_inb i) X Y)
    ∗ rowP c (k0_off31 i) (k0_off31_inb i) (landed c (k0_off31 i) (k0_off31_inb i) (k0_off32 i) (k0_off32_inb i) X Y)
    ∗ rowP c (k0_off33 i) (k0_off33_inb i) (landed c (k0_off33 i) (k0_off33_inb i) (k0_off34 i) (k0_off34_inb i) X Y)
    ∗ rowP c (k0_off35 i) (k0_off35_inb i) (landed c (k0_off35 i) (k0_off35_inb i) (k0_off36 i) (k0_off36_inb i) X Y)
    ∗ rowP c (k0_off37 i) (k0_off37_inb i) (landed c (k0_off37 i) (k0_off37_inb i) (k0_off38 i) (k0_off38_inb i) X Y)
    ∗ rowP c (k0_off39 i) (k0_off39_inb i) (landed c (k0_off39 i) (k0_off39_inb i) (k0_off40 i) (k0_off40_inb i) X Y)
    ∗ rowP c (k0_off41 i) (k0_off41_inb i) (landed c (k0_off41 i) (k0_off41_inb i) (k0_off42 i) (k0_off42_inb i) X Y)
    ∗ rowP c (k0_off43 i) (k0_off43_inb i) (landed c (k0_off43 i) (k0_off43_inb i) (k0_off44 i) (k0_off44_inb i) X Y)
    ∗ rowP c (k0_off45 i) (k0_off45_inb i) (landed c (k0_off45 i) (k0_off45_inb i) (k0_off46 i) (k0_off46_inb i) X Y)
    ∗ rowP c (k0_off47 i) (k0_off47_inb i) (landed c (k0_off47 i) (k0_off47_inb i) (k0_off48 i) (k0_off48_inb i) X Y)
    ∗ rowP c (k0_off49 i) (k0_off49_inb i) (landed c (k0_off49 i) (k0_off49_inb i) (k0_off50 i) (k0_off50_inb i) X Y)
    ∗ rowP c (k0_off51 i) (k0_off51_inb i) (landed c (k0_off51 i) (k0_off51_inb i) (k0_off52 i) (k0_off52_inb i) X Y)
    ∗ rowP c (k0_off53 i) (k0_off53_inb i) (landed c (k0_off53 i) (k0_off53_inb i) (k0_off54 i) (k0_off54_inb i) X Y)
    ∗ rowP c (k0_off55 i) (k0_off55_inb i) (landed c (k0_off55 i) (k0_off55_inb i) (k0_off56 i) (k0_off56_inb i) X Y)
    ∗ rowP c (k0_off57 i) (k0_off57_inb i) (landed c (k0_off57 i) (k0_off57_inb i) (k0_off58 i) (k0_off58_inb i) X Y)
    ∗ rowP c (k0_off59 i) (k0_off59_inb i) (landed c (k0_off59 i) (k0_off59_inb i) (k0_off60 i) (k0_off60_inb i) X Y)
    ∗ rowP c (k0_off61 i) (k0_off61_inb i) (landed c (k0_off61 i) (k0_off61_inb i) (k0_off62 i) (k0_off62_inb i) X Y)
    ∗ rowP c (k0_off63 i) (k0_off63_inb i) (landed c (k0_off63 i) (k0_off63_inb i) (k0_off64 i) (k0_off64_inb i) X Y)
    ∗ rowP c (k0_off65 i) (k0_off65_inb i) (landed c (k0_off65 i) (k0_off65_inb i) (k0_off66 i) (k0_off66_inb i) X Y)
    ∗ rowP c (k0_off67 i) (k0_off67_inb i) (landed c (k0_off67 i) (k0_off67_inb i) (k0_off68 i) (k0_off68_inb i) X Y)
    ∗ rowP c (k0_off69 i) (k0_off69_inb i) (landed c (k0_off69 i) (k0_off69_inb i) (k0_off70 i) (k0_off70_inb i) X Y)
    ∗ rowP c (k0_off71 i) (k0_off71_inb i) (landed c (k0_off71 i) (k0_off71_inb i) (k0_off72 i) (k0_off72_inb i) X Y)
    ∗ rowP c (k0_off73 i) (k0_off73_inb i) (landed c (k0_off73 i) (k0_off73_inb i) (k0_off74 i) (k0_off74_inb i) X Y)
    ∗ rowP c (k0_off75 i) (k0_off75_inb i) (landed c (k0_off75 i) (k0_off75_inb i) (k0_off76 i) (k0_off76_inb i) X Y)
    ∗ rowP c (k0_off77 i) (k0_off77_inb i) (landed c (k0_off77 i) (k0_off77_inb i) (k0_off78 i) (k0_off78_inb i) X Y)
    ∗ rowP c (k0_off79 i) (k0_off79_inb i) (landed c (k0_off79 i) (k0_off79_inb i) (k0_off80 i) (k0_off80_inb i) X Y)
    ∗ rowP c (k0_off81 i) (k0_off81_inb i) (landed c (k0_off81 i) (k0_off81_inb i) (k0_off82 i) (k0_off82_inb i) X Y)
    ∗ rowP c (k0_off83 i) (k0_off83_inb i) (landed c (k0_off83 i) (k0_off83_inb i) (k0_off84 i) (k0_off84_inb i) X Y)
    ∗ rowP c (k0_off85 i) (k0_off85_inb i) (landed c (k0_off85 i) (k0_off85_inb i) (k0_off86 i) (k0_off86_inb i) X Y)
    ∗ rowP c (k0_off87 i) (k0_off87_inb i) (landed c (k0_off87 i) (k0_off87_inb i) (k0_off88 i) (k0_off88_inb i) X Y)
    ∗ rowP c (k0_off89 i) (k0_off89_inb i) (landed c (k0_off89 i) (k0_off89_inb i) (k0_off90 i) (k0_off90_inb i) X Y)
    ∗ rowP c (k0_off91 i) (k0_off91_inb i) (landed c (k0_off91 i) (k0_off91_inb i) (k0_off92 i) (k0_off92_inb i) X Y)
    ∗ rowP c (k0_off93 i) (k0_off93_inb i) (landed c (k0_off93 i) (k0_off93_inb i) (k0_off94 i) (k0_off94_inb i) X Y)
    ∗ rowP c (k0_off95 i) (k0_off95_inb i) (landed c (k0_off95 i) (k0_off95_inb i) (k0_off96 i) (k0_off96_inb i) X Y)
    ∗ rowP c (k0_off97 i) (k0_off97_inb i) (landed c (k0_off97 i) (k0_off97_inb i) (k0_off98 i) (k0_off98_inb i) X Y)
    ∗ rowP c (k0_off99 i) (k0_off99_inb i) (landed c (k0_off99 i) (k0_off99_inb i) (k0_off100 i) (k0_off100_inb i) X Y)
    ∗ rowP c (k0_off101 i) (k0_off101_inb i) (landed c (k0_off101 i) (k0_off101_inb i) (k0_off102 i) (k0_off102_inb i) X Y)
    ∗ rowP c (k0_off103 i) (k0_off103_inb i) (landed c (k0_off103 i) (k0_off103_inb i) (k0_off104 i) (k0_off104_inb i) X Y)
    ∗ rowP c (k0_off105 i) (k0_off105_inb i) (landed c (k0_off105 i) (k0_off105_inb i) (k0_off106 i) (k0_off106_inb i) X Y)
    ∗ rowP c (k0_off107 i) (k0_off107_inb i) (landed c (k0_off107 i) (k0_off107_inb i) (k0_off108 i) (k0_off108_inb i) X Y)
    ∗ rowP c (k0_off109 i) (k0_off109_inb i) (landed c (k0_off109 i) (k0_off109_inb i) (k0_off110 i) (k0_off110_inb i) X Y)
    ∗ rowP c (k0_off111 i) (k0_off111_inb i) (landed c (k0_off111 i) (k0_off111_inb i) (k0_off112 i) (k0_off112_inb i) X Y)
    ∗ rowP c (k0_off113 i) (k0_off113_inb i) (landed c (k0_off113 i) (k0_off113_inb i) (k0_off114 i) (k0_off114_inb i) X Y)
    ∗ rowP c (k0_off115 i) (k0_off115_inb i) (landed c (k0_off115 i) (k0_off115_inb i) (k0_off116 i) (k0_off116_inb i) X Y)
    ∗ rowP c (k0_off117 i) (k0_off117_inb i) (landed c (k0_off117 i) (k0_off117_inb i) (k0_off118 i) (k0_off118_inb i) X Y)
    ∗ rowP c (k0_off119 i) (k0_off119_inb i) (landed c (k0_off119 i) (k0_off119_inb i) (k0_off120 i) (k0_off120_inb i) X Y)
    ∗ rowP c (k0_off121 i) (k0_off121_inb i) (landed c (k0_off121 i) (k0_off121_inb i) (k0_off122 i) (k0_off122_inb i) X Y)
    ∗ rowP c (k0_off123 i) (k0_off123_inb i) (landed c (k0_off123 i) (k0_off123_inb i) (k0_off124 i) (k0_off124_inb i) X Y)
    ∗ rowP c (k0_off125 i) (k0_off125_inb i) (landed c (k0_off125 i) (k0_off125_inb i) (k0_off126 i) (k0_off126_inb i) X Y)
    ∗ rowP c (k0_off127 i) (k0_off127_inb i) (landed c (k0_off127 i) (k0_off127_inb i) (k0_off128 i) (k0_off128_inb i) X Y)
    ∗ rowP c (k0_off129 i) (k0_off129_inb i) (landed c (k0_off129 i) (k0_off129_inb i) (k0_off130 i) (k0_off130_inb i) X Y)
    ∗ rowP c (k0_off131 i) (k0_off131_inb i) (landed c (k0_off131 i) (k0_off131_inb i) (k0_off132 i) (k0_off132_inb i) X Y)
    ∗ rowP c (k0_off133 i) (k0_off133_inb i) (landed c (k0_off133 i) (k0_off133_inb i) (k0_off134 i) (k0_off134_inb i) X Y)
    ∗ rowP c (k0_off135 i) (k0_off135_inb i) (landed c (k0_off135 i) (k0_off135_inb i) (k0_off136 i) (k0_off136_inb i) X Y)
    ∗ rowP c (k0_off137 i) (k0_off137_inb i) (landed c (k0_off137 i) (k0_off137_inb i) (k0_off138 i) (k0_off138_inb i) X Y)
    ∗ rowP c (k0_off139 i) (k0_off139_inb i) (landed c (k0_off139 i) (k0_off139_inb i) (k0_off140 i) (k0_off140_inb i) X Y)
    ∗ rowP c (k0_off141 i) (k0_off141_inb i) (landed c (k0_off141 i) (k0_off141_inb i) (k0_off142 i) (k0_off142_inb i) X Y)
    ∗ rowP c (k0_off143 i) (k0_off143_inb i) (landed c (k0_off143 i) (k0_off143_inb i) (k0_off144 i) (k0_off144_inb i) X Y)
    ∗ rowP c (k0_off145 i) (k0_off145_inb i) (landed c (k0_off145 i) (k0_off145_inb i) (k0_off146 i) (k0_off146_inb i) X Y)
    ∗ rowP c (k0_off147 i) (k0_off147_inb i) (landed c (k0_off147 i) (k0_off147_inb i) (k0_off148 i) (k0_off148_inb i) X Y)
    ∗ rowP c (k0_off149 i) (k0_off149_inb i) (landed c (k0_off149 i) (k0_off149_inb i) (k0_off150 i) (k0_off150_inb i) X Y)
    ∗ rowP c (k0_off151 i) (k0_off151_inb i) (landed c (k0_off151 i) (k0_off151_inb i) (k0_off152 i) (k0_off152_inb i) X Y)
    ∗ rowP c (k0_off153 i) (k0_off153_inb i) (landed c (k0_off153 i) (k0_off153_inb i) (k0_off154 i) (k0_off154_inb i) X Y)
    ∗ rowP c (k0_off155 i) (k0_off155_inb i) (landed c (k0_off155 i) (k0_off155_inb i) (k0_off156 i) (k0_off156_inb i) X Y)
    ∗ rowP c (k0_off157 i) (k0_off157_inb i) (landed c (k0_off157 i) (k0_off157_inb i) (k0_off158 i) (k0_off158_inb i) X Y)
    ∗ rowP c (k0_off159 i) (k0_off159_inb i) (landed c (k0_off159 i) (k0_off159_inb i) (k0_off160 i) (k0_off160_inb i) X Y)
    ∗ rowP c (k0_off161 i) (k0_off161_inb i) (landed c (k0_off161 i) (k0_off161_inb i) (k0_off162 i) (k0_off162_inb i) X Y)
    ∗ rowP c (k0_off163 i) (k0_off163_inb i) (landed c (k0_off163 i) (k0_off163_inb i) (k0_off164 i) (k0_off164_inb i) X Y)
    ∗ rowP c (k0_off165 i) (k0_off165_inb i) (landed c (k0_off165 i) (k0_off165_inb i) (k0_off166 i) (k0_off166_inb i) X Y)
    ∗ rowP c (k0_off167 i) (k0_off167_inb i) (landed c (k0_off167 i) (k0_off167_inb i) (k0_off168 i) (k0_off168_inb i) X Y)
    ∗ rowP c (k0_off169 i) (k0_off169_inb i) (landed c (k0_off169 i) (k0_off169_inb i) (k0_off170 i) (k0_off170_inb i) X Y)
    ∗ rowP c (k0_off171 i) (k0_off171_inb i) (landed c (k0_off171 i) (k0_off171_inb i) (k0_off172 i) (k0_off172_inb i) X Y)
    ∗ rowP c (k0_off173 i) (k0_off173_inb i) (landed c (k0_off173 i) (k0_off173_inb i) (k0_off174 i) (k0_off174_inb i) X Y)
    ∗ rowP c (k0_off175 i) (k0_off175_inb i) (landed c (k0_off175 i) (k0_off175_inb i) (k0_off176 i) (k0_off176_inb i) X Y)
    ∗ rowP c (k0_off177 i) (k0_off177_inb i) (landed c (k0_off177 i) (k0_off177_inb i) (k0_off178 i) (k0_off178_inb i) X Y)
    ∗ rowP c (k0_off179 i) (k0_off179_inb i) (landed c (k0_off179 i) (k0_off179_inb i) (k0_off180 i) (k0_off180_inb i) X Y)
    ∗ rowP c (k0_off181 i) (k0_off181_inb i) (landed c (k0_off181 i) (k0_off181_inb i) (k0_off182 i) (k0_off182_inb i) X Y)
    ∗ rowP c (k0_off183 i) (k0_off183_inb i) (landed c (k0_off183 i) (k0_off183_inb i) (k0_off184 i) (k0_off184_inb i) X Y)
    ∗ rowP c (k0_off185 i) (k0_off185_inb i) (landed c (k0_off185 i) (k0_off185_inb i) (k0_off186 i) (k0_off186_inb i) X Y)
    ∗ rowP c (k0_off187 i) (k0_off187_inb i) (landed c (k0_off187 i) (k0_off187_inb i) (k0_off188 i) (k0_off188_inb i) X Y)
    ∗ rowP c (k0_off189 i) (k0_off189_inb i) (landed c (k0_off189 i) (k0_off189_inb i) (k0_off190 i) (k0_off190_inb i) X Y)
    ∗ rowP c (k0_off191 i) (k0_off191_inb i) (landed c (k0_off191 i) (k0_off191_inb i) (k0_off192 i) (k0_off192_inb i) X Y)
    ∗ rowP c (k0_off193 i) (k0_off193_inb i) (landed c (k0_off193 i) (k0_off193_inb i) (k0_off194 i) (k0_off194_inb i) X Y)
    ∗ rowP c (k0_off195 i) (k0_off195_inb i) (landed c (k0_off195 i) (k0_off195_inb i) (k0_off196 i) (k0_off196_inb i) X Y)
    ∗ rowP c (k0_off197 i) (k0_off197_inb i) (landed c (k0_off197 i) (k0_off197_inb i) (k0_off198 i) (k0_off198_inb i) X Y)
    ∗ rowP c (k0_off199 i) (k0_off199_inb i) (landed c (k0_off199 i) (k0_off199_inb i) (k0_off200 i) (k0_off200_inb i) X Y)
    ∗ rowP c (k0_off201 i) (k0_off201_inb i) (landed c (k0_off201 i) (k0_off201_inb i) (k0_off202 i) (k0_off202_inb i) X Y)
    ∗ rowP c (k0_off203 i) (k0_off203_inb i) (landed c (k0_off203 i) (k0_off203_inb i) (k0_off204 i) (k0_off204_inb i) X Y)
    ∗ rowP c (k0_off205 i) (k0_off205_inb i) (landed c (k0_off205 i) (k0_off205_inb i) (k0_off206 i) (k0_off206_inb i) X Y)
    ∗ rowP c (k0_off207 i) (k0_off207_inb i) (landed c (k0_off207 i) (k0_off207_inb i) (k0_off208 i) (k0_off208_inb i) X Y)
    ∗ rowP c (k0_off209 i) (k0_off209_inb i) (landed c (k0_off209 i) (k0_off209_inb i) (k0_off210 i) (k0_off210_inb i) X Y)
    ∗ rowP c (k0_off211 i) (k0_off211_inb i) (landed c (k0_off211 i) (k0_off211_inb i) (k0_off212 i) (k0_off212_inb i) X Y)
    ∗ rowP c (k0_off213 i) (k0_off213_inb i) (landed c (k0_off213 i) (k0_off213_inb i) (k0_off214 i) (k0_off214_inb i) X Y)
    ∗ rowP c (k0_off215 i) (k0_off215_inb i) (landed c (k0_off215 i) (k0_off215_inb i) (k0_off216 i) (k0_off216_inb i) X Y)
    ∗ rowP c (k0_off217 i) (k0_off217_inb i) (landed c (k0_off217 i) (k0_off217_inb i) (k0_off218 i) (k0_off218_inb i) X Y)
    ∗ rowP c (k0_off219 i) (k0_off219_inb i) (landed c (k0_off219 i) (k0_off219_inb i) (k0_off220 i) (k0_off220_inb i) X Y)
    ∗ rowP c (k0_off221 i) (k0_off221_inb i) (landed c (k0_off221 i) (k0_off221_inb i) (k0_off222 i) (k0_off222_inb i) X Y)
    ∗ rowP c (k0_off223 i) (k0_off223_inb i) (landed c (k0_off223 i) (k0_off223_inb i) (k0_off224 i) (k0_off224_inb i) X Y)
    ∗ rowP c (k0_off225 i) (k0_off225_inb i) (landed c (k0_off225 i) (k0_off225_inb i) (k0_off226 i) (k0_off226_inb i) X Y)
    ∗ rowP c (k0_off227 i) (k0_off227_inb i) (landed c (k0_off227 i) (k0_off227_inb i) (k0_off228 i) (k0_off228_inb i) X Y)
    ∗ rowP c (k0_off229 i) (k0_off229_inb i) (landed c (k0_off229 i) (k0_off229_inb i) (k0_off230 i) (k0_off230_inb i) X Y)
    ∗ rowP c (k0_off231 i) (k0_off231_inb i) (landed c (k0_off231 i) (k0_off231_inb i) (k0_off232 i) (k0_off232_inb i) X Y)
    ∗ rowP c (k0_off233 i) (k0_off233_inb i) (landed c (k0_off233 i) (k0_off233_inb i) (k0_off234 i) (k0_off234_inb i) X Y)
    ∗ rowP c (k0_off235 i) (k0_off235_inb i) (landed c (k0_off235 i) (k0_off235_inb i) (k0_off236 i) (k0_off236_inb i) X Y)
    ∗ rowP c (k0_off237 i) (k0_off237_inb i) (landed c (k0_off237 i) (k0_off237_inb i) (k0_off238 i) (k0_off238_inb i) X Y)
    ∗ rowP c (k0_off239 i) (k0_off239_inb i) (landed c (k0_off239 i) (k0_off239_inb i) (k0_off240 i) (k0_off240_inb i) X Y)
    ∗ rowP c (k0_off241 i) (k0_off241_inb i) (landed c (k0_off241 i) (k0_off241_inb i) (k0_off242 i) (k0_off242_inb i) X Y)
    ∗ rowP c (k0_off243 i) (k0_off243_inb i) (landed c (k0_off243 i) (k0_off243_inb i) (k0_off244 i) (k0_off244_inb i) X Y)
    ∗ rowP c (k0_off245 i) (k0_off245_inb i) (landed c (k0_off245 i) (k0_off245_inb i) (k0_off246 i) (k0_off246_inb i) X Y)
    ∗ rowP c (k0_off247 i) (k0_off247_inb i) (landed c (k0_off247 i) (k0_off247_inb i) (k0_off248 i) (k0_off248_inb i) X Y)
    ∗ rowP c (k0_off249 i) (k0_off249_inb i) (landed c (k0_off249 i) (k0_off249_inb i) (k0_off250 i) (k0_off250_inb i) X Y)
    ∗ rowP c (k0_off251 i) (k0_off251_inb i) (landed c (k0_off251 i) (k0_off251_inb i) (k0_off252 i) (k0_off252_inb i) X Y)
    ∗ rowP c (k0_off253 i) (k0_off253_inb i) (landed c (k0_off253 i) (k0_off253_inb i) (k0_off254 i) (k0_off254_inb i) X Y)
    ∗ rowP c (k0_off255 i) (k0_off255_inb i) (landed c (k0_off255 i) (k0_off255_inb i) (k0_off256 i) (k0_off256_inb i) X Y)
    ∗ rowP c (k0_off257 i) (k0_off257_inb i) (landed c (k0_off257 i) (k0_off257_inb i) (k0_off258 i) (k0_off258_inb i) X Y)
    ∗ rowP c (k0_off259 i) (k0_off259_inb i) (landed c (k0_off259 i) (k0_off259_inb i) (k0_off260 i) (k0_off260_inb i) X Y)
    ∗ rowP c (k0_off261 i) (k0_off261_inb i) (landed c (k0_off261 i) (k0_off261_inb i) (k0_off262 i) (k0_off262_inb i) X Y)
    ∗ rowP c (k0_off263 i) (k0_off263_inb i) (landed c (k0_off263 i) (k0_off263_inb i) (k0_off264 i) (k0_off264_inb i) X Y)
    ∗ rowP c (k0_off265 i) (k0_off265_inb i) (landed c (k0_off265 i) (k0_off265_inb i) (k0_off266 i) (k0_off266_inb i) X Y)
    ∗ rowP c (k0_off267 i) (k0_off267_inb i) (landed c (k0_off267 i) (k0_off267_inb i) (k0_off268 i) (k0_off268_inb i) X Y)
    ∗ rowP c (k0_off269 i) (k0_off269_inb i) (landed c (k0_off269 i) (k0_off269_inb i) (k0_off270 i) (k0_off270_inb i) X Y)
    ∗ rowP c (k0_off271 i) (k0_off271_inb i) (landed c (k0_off271 i) (k0_off271_inb i) (k0_off272 i) (k0_off272_inb i) X Y)
    ∗ rowP c (k0_off273 i) (k0_off273_inb i) (landed c (k0_off273 i) (k0_off273_inb i) (k0_off274 i) (k0_off274_inb i) X Y)
    ∗ rowP c (k0_off275 i) (k0_off275_inb i) (landed c (k0_off275 i) (k0_off275_inb i) (k0_off276 i) (k0_off276_inb i) X Y)
    ∗ rowP c (k0_off277 i) (k0_off277_inb i) (landed c (k0_off277 i) (k0_off277_inb i) (k0_off278 i) (k0_off278_inb i) X Y)
    ∗ rowP c (k0_off279 i) (k0_off279_inb i) (landed c (k0_off279 i) (k0_off279_inb i) (k0_off280 i) (k0_off280_inb i) X Y)
    ∗ rowP c (k0_off281 i) (k0_off281_inb i) (landed c (k0_off281 i) (k0_off281_inb i) (k0_off282 i) (k0_off282_inb i) X Y)
    ∗ rowP c (k0_off283 i) (k0_off283_inb i) (landed c (k0_off283 i) (k0_off283_inb i) (k0_off284 i) (k0_off284_inb i) X Y)
    ∗ rowP c (k0_off285 i) (k0_off285_inb i) (landed c (k0_off285 i) (k0_off285_inb i) (k0_off286 i) (k0_off286_inb i) X Y)
    ∗ rowP c (k0_off287 i) (k0_off287_inb i) (landed c (k0_off287 i) (k0_off287_inb i) (k0_off288 i) (k0_off288_inb i) X Y)
    ∗ rowP c (k0_off289 i) (k0_off289_inb i) (landed c (k0_off289 i) (k0_off289_inb i) (k0_off290 i) (k0_off290_inb i) X Y)
    ∗ rowP c (k0_off291 i) (k0_off291_inb i) (landed c (k0_off291 i) (k0_off291_inb i) (k0_off292 i) (k0_off292_inb i) X Y)
    ∗ rowP c (k0_off293 i) (k0_off293_inb i) (landed c (k0_off293 i) (k0_off293_inb i) (k0_off294 i) (k0_off294_inb i) X Y)
    ∗ rowP c (k0_off295 i) (k0_off295_inb i) (landed c (k0_off295 i) (k0_off295_inb i) (k0_off296 i) (k0_off296_inb i) X Y)
    ∗ rowP c (k0_off297 i) (k0_off297_inb i) (landed c (k0_off297 i) (k0_off297_inb i) (k0_off298 i) (k0_off298_inb i) X Y)
    ∗ rowP c (k0_off299 i) (k0_off299_inb i) (landed c (k0_off299 i) (k0_off299_inb i) (k0_off300 i) (k0_off300_inb i) X Y)
    ∗ rowP c (k0_off301 i) (k0_off301_inb i) (landed c (k0_off301 i) (k0_off301_inb i) (k0_off302 i) (k0_off302_inb i) X Y)
    ∗ rowP c (k0_off303 i) (k0_off303_inb i) (landed c (k0_off303 i) (k0_off303_inb i) (k0_off304 i) (k0_off304_inb i) X Y)
    ∗ rowP c (k0_off305 i) (k0_off305_inb i) (landed c (k0_off305 i) (k0_off305_inb i) (k0_off306 i) (k0_off306_inb i) X Y)
    ∗ rowP c (k0_off307 i) (k0_off307_inb i) (landed c (k0_off307 i) (k0_off307_inb i) (k0_off308 i) (k0_off308_inb i) X Y)
    ∗ rowP c (k0_off309 i) (k0_off309_inb i) (landed c (k0_off309 i) (k0_off309_inb i) (k0_off310 i) (k0_off310_inb i) X Y)
    ∗ rowP c (k0_off311 i) (k0_off311_inb i) (landed c (k0_off311 i) (k0_off311_inb i) (k0_off312 i) (k0_off312_inb i) X Y)
    ∗ rowP c (k0_off313 i) (k0_off313_inb i) (landed c (k0_off313 i) (k0_off313_inb i) (k0_off314 i) (k0_off314_inb i) X Y)
    ∗ rowP c (k0_off315 i) (k0_off315_inb i) (landed c (k0_off315 i) (k0_off315_inb i) (k0_off316 i) (k0_off316_inb i) X Y)
    ∗ rowP c (k0_off317 i) (k0_off317_inb i) (landed c (k0_off317 i) (k0_off317_inb i) (k0_off318 i) (k0_off318_inb i) X Y)
    ∗ rowP c (k0_off319 i) (k0_off319_inb i) (landed c (k0_off319 i) (k0_off319_inb i) (k0_off320 i) (k0_off320_inb i) X Y)
    ∗ rowP c (k0_off321 i) (k0_off321_inb i) (landed c (k0_off321 i) (k0_off321_inb i) (k0_off322 i) (k0_off322_inb i) X Y)
    ∗ rowP c (k0_off323 i) (k0_off323_inb i) (landed c (k0_off323 i) (k0_off323_inb i) (k0_off324 i) (k0_off324_inb i) X Y)
    ∗ rowP c (k0_off325 i) (k0_off325_inb i) (landed c (k0_off325 i) (k0_off325_inb i) (k0_off326 i) (k0_off326_inb i) X Y)
    ∗ rowP c (k0_off327 i) (k0_off327_inb i) (landed c (k0_off327 i) (k0_off327_inb i) (k0_off328 i) (k0_off328_inb i) X Y)
    ∗ rowP c (k0_off329 i) (k0_off329_inb i) (landed c (k0_off329 i) (k0_off329_inb i) (k0_off330 i) (k0_off330_inb i) X Y)
    ∗ rowP c (k0_off331 i) (k0_off331_inb i) (landed c (k0_off331 i) (k0_off331_inb i) (k0_off332 i) (k0_off332_inb i) X Y)
    ∗ rowP c (k0_off333 i) (k0_off333_inb i) (landed c (k0_off333 i) (k0_off333_inb i) (k0_off334 i) (k0_off334_inb i) X Y)
    ∗ rowP c (k0_off335 i) (k0_off335_inb i) (landed c (k0_off335 i) (k0_off335_inb i) (k0_off336 i) (k0_off336_inb i) X Y)
    ∗ rowP c (k0_off337 i) (k0_off337_inb i) (landed c (k0_off337 i) (k0_off337_inb i) (k0_off338 i) (k0_off338_inb i) X Y)
    ∗ rowP c (k0_off339 i) (k0_off339_inb i) (landed c (k0_off339 i) (k0_off339_inb i) (k0_off340 i) (k0_off340_inb i) X Y)
    ∗ rowP c (k0_off341 i) (k0_off341_inb i) (landed c (k0_off341 i) (k0_off341_inb i) (k0_off342 i) (k0_off342_inb i) X Y)
    ∗ rowP c (k0_off343 i) (k0_off343_inb i) (landed c (k0_off343 i) (k0_off343_inb i) (k0_off344 i) (k0_off344_inb i) X Y)
    ∗ rowP c (k0_off345 i) (k0_off345_inb i) (landed c (k0_off345 i) (k0_off345_inb i) (k0_off346 i) (k0_off346_inb i) X Y)
    ∗ rowP c (k0_off347 i) (k0_off347_inb i) (landed c (k0_off347 i) (k0_off347_inb i) (k0_off348 i) (k0_off348_inb i) X Y)
    ∗ rowP c (k0_off349 i) (k0_off349_inb i) (landed c (k0_off349 i) (k0_off349_inb i) (k0_off350 i) (k0_off350_inb i) X Y)
    ∗ rowP c (k0_off351 i) (k0_off351_inb i) (landed c (k0_off351 i) (k0_off351_inb i) (k0_off352 i) (k0_off352_inb i) X Y)
    ∗ rowP c (k0_off353 i) (k0_off353_inb i) (landed c (k0_off353 i) (k0_off353_inb i) (k0_off354 i) (k0_off354_inb i) X Y)
    ∗ rowP c (k0_off355 i) (k0_off355_inb i) (landed c (k0_off355 i) (k0_off355_inb i) (k0_off356 i) (k0_off356_inb i) X Y)
    ∗ rowP c (k0_off357 i) (k0_off357_inb i) (landed c (k0_off357 i) (k0_off357_inb i) (k0_off358 i) (k0_off358_inb i) X Y)
    ∗ rowP c (k0_off359 i) (k0_off359_inb i) (landed c (k0_off359 i) (k0_off359_inb i) (k0_off360 i) (k0_off360_inb i) X Y))

/-- The eight read shares of the input. -/
def toksAt (c : Dev nD) (X : Buf (Elt F) (argM.view.loc (c : Thread nD τ))) : sProp 𝕄 :=
  iprop(tokP c 0 X ∗ tokP c 1 X ∗ tokP c 2 X ∗ tokP c 3 X ∗ tokP c 4 X ∗ tokP c 5 X ∗ tokP c 6 X ∗ tokP c 7 X)
/-- The eight semaphores at zero. -/
def cellsAt (c : Dev nD) : sProp 𝕄 :=
  iprop(cellP (F := F) c 0 ∗ cellP c 1 ∗ cellP c 2 ∗ cellP c 3 ∗ cellP c 4 ∗ cellP c 5 ∗ cellP c 6 ∗ cellP c 7)

set_option maxHeartbeats 0 in
/-- THE POINT'S RUN: from the shares, the rows at Y, the semaphores at zero and the core's ledger of waits, the body
    runs to its end and hands back the shares, the rows landed, the semaphores at zero and a ledger. -/
theorem bodyRun [∀ e, Nonempty (Elt F e)] (c : Dev nD) (i : grid0.Coords) (X : Buf (Elt F) (argM.view.loc (c : Thread nD τ)))
    (Y : Buf (Elt F) (outM.view.loc (c : Thread nD τ))) (W : Waits sig Unit) (Q : PUnit → sProp 𝕄) :
    iprop((toksAt c X ∗ rowsAt c i Y ∗ cellsAt c ∗ owes (c : Thread nD τ) 0 W)
        ∗ ((toksAt c X ∗ rowsLanded c i X Y ∗ cellsAt c ∗ (∃ W', owes (c : Thread nD τ) 0 W')) -∗ Q ⟨⟩))
      ⊢ wp frame (wpE (defs₀ (F := F)) 𝒱₀ (c : Thread nD τ) none) Set.univ
          (cc0__unfold_dma_kernel (F := F) i argM (Memref.isWhole_whole _) outM (Memref.isWhole_whole _) cc0_scratch0) Q := by
  unfold toksAt rowsAt rowsLanded cellsAt
  iintro ⟨⟨⟨T0, T1, T2, T3, T4, T5, T6, T7⟩, ⟨R0, R1, R2, R3, R4, R5, R6, R7, R8, R9, R10, R11, R12, R13, R14, R15, R16, R17, R18, R19, R20, R21, R22, R23, R24, R25, R26, R27, R28, R29, R30, R31, R32, R33, R34, R35, R36, R37, R38, R39, R40, R41, R42, R43, R44, R45, R46, R47, R48, R49, R50, R51, R52, R53, R54, R55, R56, R57, R58, R59, R60, R61, R62, R63, R64, R65, R66, R67, R68, R69, R70, R71, R72, R73, R74, R75, R76, R77, R78, R79, R80, R81, R82, R83, R84, R85, R86, R87, R88, R89, R90, R91, R92, R93, R94, R95, R96, R97, R98, R99, R100, R101, R102, R103, R104, R105, R106, R107, R108, R109, R110, R111, R112, R113, R114, R115, R116, R117, R118, R119, R120, R121, R122, R123, R124, R125, R126, R127, R128, R129, R130, R131, R132, R133, R134, R135, R136, R137, R138, R139, R140, R141, R142, R143, R144, R145, R146, R147, R148, R149, R150, R151, R152, R153, R154, R155, R156, R157, R158, R159, R160, R161, R162, R163, R164, R165, R166, R167, R168, R169, R170, R171, R172, R173, R174, R175, R176, R177, R178, R179⟩, ⟨C0, C1, C2, C3, C4, C5, C6, C7⟩, HO⟩, Hk⟩
  sl_unfold [cc0__unfold_dma_kernel]
  sl_exec_parts
  sl_step
  iapply Hk
  isplitl [T0 T1 T2 T3 T4 T5 T6 T7]
  · isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  isplitl [R0 R1 R2 R3 R4 R5 R6 R7 R8 R9 R10 R11 R12 R13 R14 R15 R16 R17 R18 R19 R20 R21 R22 R23 R24 R25 R26 R27 R28 R29 R30 R31 R32 R33 R34 R35 R36 R37 R38 R39 R40 R41 R42 R43 R44 R45 R46 R47 R48 R49 R50 R51 R52 R53 R54 R55 R56 R57 R58 R59 R60 R61 R62 R63 R64 R65 R66 R67 R68 R69 R70 R71 R72 R73 R74 R75 R76 R77 R78 R79 R80 R81 R82 R83 R84 R85 R86 R87 R88 R89 R90 R91 R92 R93 R94 R95 R96 R97 R98 R99 R100 R101 R102 R103 R104 R105 R106 R107 R108 R109 R110 R111 R112 R113 R114 R115 R116 R117 R118 R119 R120 R121 R122 R123 R124 R125 R126 R127 R128 R129 R130 R131 R132 R133 R134 R135 R136 R137 R138 R139 R140 R141 R142 R143 R144 R145 R146 R147 R148 R149 R150 R151 R152 R153 R154 R155 R156 R157 R158 R159 R160 R161 R162 R163 R164 R165 R166 R167 R168 R169 R170 R171 R172 R173 R174 R175 R176 R177 R178 R179]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    isplitl [R20]; · iexact R20
    isplitl [R21]; · iexact R21
    isplitl [R22]; · iexact R22
    isplitl [R23]; · iexact R23
    isplitl [R24]; · iexact R24
    isplitl [R25]; · iexact R25
    isplitl [R26]; · iexact R26
    isplitl [R27]; · iexact R27
    isplitl [R28]; · iexact R28
    isplitl [R29]; · iexact R29
    isplitl [R30]; · iexact R30
    isplitl [R31]; · iexact R31
    isplitl [R32]; · iexact R32
    isplitl [R33]; · iexact R33
    isplitl [R34]; · iexact R34
    isplitl [R35]; · iexact R35
    isplitl [R36]; · iexact R36
    isplitl [R37]; · iexact R37
    isplitl [R38]; · iexact R38
    isplitl [R39]; · iexact R39
    isplitl [R40]; · iexact R40
    isplitl [R41]; · iexact R41
    isplitl [R42]; · iexact R42
    isplitl [R43]; · iexact R43
    isplitl [R44]; · iexact R44
    isplitl [R45]; · iexact R45
    isplitl [R46]; · iexact R46
    isplitl [R47]; · iexact R47
    isplitl [R48]; · iexact R48
    isplitl [R49]; · iexact R49
    isplitl [R50]; · iexact R50
    isplitl [R51]; · iexact R51
    isplitl [R52]; · iexact R52
    isplitl [R53]; · iexact R53
    isplitl [R54]; · iexact R54
    isplitl [R55]; · iexact R55
    isplitl [R56]; · iexact R56
    isplitl [R57]; · iexact R57
    isplitl [R58]; · iexact R58
    isplitl [R59]; · iexact R59
    isplitl [R60]; · iexact R60
    isplitl [R61]; · iexact R61
    isplitl [R62]; · iexact R62
    isplitl [R63]; · iexact R63
    isplitl [R64]; · iexact R64
    isplitl [R65]; · iexact R65
    isplitl [R66]; · iexact R66
    isplitl [R67]; · iexact R67
    isplitl [R68]; · iexact R68
    isplitl [R69]; · iexact R69
    isplitl [R70]; · iexact R70
    isplitl [R71]; · iexact R71
    isplitl [R72]; · iexact R72
    isplitl [R73]; · iexact R73
    isplitl [R74]; · iexact R74
    isplitl [R75]; · iexact R75
    isplitl [R76]; · iexact R76
    isplitl [R77]; · iexact R77
    isplitl [R78]; · iexact R78
    isplitl [R79]; · iexact R79
    isplitl [R80]; · iexact R80
    isplitl [R81]; · iexact R81
    isplitl [R82]; · iexact R82
    isplitl [R83]; · iexact R83
    isplitl [R84]; · iexact R84
    isplitl [R85]; · iexact R85
    isplitl [R86]; · iexact R86
    isplitl [R87]; · iexact R87
    isplitl [R88]; · iexact R88
    isplitl [R89]; · iexact R89
    isplitl [R90]; · iexact R90
    isplitl [R91]; · iexact R91
    isplitl [R92]; · iexact R92
    isplitl [R93]; · iexact R93
    isplitl [R94]; · iexact R94
    isplitl [R95]; · iexact R95
    isplitl [R96]; · iexact R96
    isplitl [R97]; · iexact R97
    isplitl [R98]; · iexact R98
    isplitl [R99]; · iexact R99
    isplitl [R100]; · iexact R100
    isplitl [R101]; · iexact R101
    isplitl [R102]; · iexact R102
    isplitl [R103]; · iexact R103
    isplitl [R104]; · iexact R104
    isplitl [R105]; · iexact R105
    isplitl [R106]; · iexact R106
    isplitl [R107]; · iexact R107
    isplitl [R108]; · iexact R108
    isplitl [R109]; · iexact R109
    isplitl [R110]; · iexact R110
    isplitl [R111]; · iexact R111
    isplitl [R112]; · iexact R112
    isplitl [R113]; · iexact R113
    isplitl [R114]; · iexact R114
    isplitl [R115]; · iexact R115
    isplitl [R116]; · iexact R116
    isplitl [R117]; · iexact R117
    isplitl [R118]; · iexact R118
    isplitl [R119]; · iexact R119
    isplitl [R120]; · iexact R120
    isplitl [R121]; · iexact R121
    isplitl [R122]; · iexact R122
    isplitl [R123]; · iexact R123
    isplitl [R124]; · iexact R124
    isplitl [R125]; · iexact R125
    isplitl [R126]; · iexact R126
    isplitl [R127]; · iexact R127
    isplitl [R128]; · iexact R128
    isplitl [R129]; · iexact R129
    isplitl [R130]; · iexact R130
    isplitl [R131]; · iexact R131
    isplitl [R132]; · iexact R132
    isplitl [R133]; · iexact R133
    isplitl [R134]; · iexact R134
    isplitl [R135]; · iexact R135
    isplitl [R136]; · iexact R136
    isplitl [R137]; · iexact R137
    isplitl [R138]; · iexact R138
    isplitl [R139]; · iexact R139
    isplitl [R140]; · iexact R140
    isplitl [R141]; · iexact R141
    isplitl [R142]; · iexact R142
    isplitl [R143]; · iexact R143
    isplitl [R144]; · iexact R144
    isplitl [R145]; · iexact R145
    isplitl [R146]; · iexact R146
    isplitl [R147]; · iexact R147
    isplitl [R148]; · iexact R148
    isplitl [R149]; · iexact R149
    isplitl [R150]; · iexact R150
    isplitl [R151]; · iexact R151
    isplitl [R152]; · iexact R152
    isplitl [R153]; · iexact R153
    isplitl [R154]; · iexact R154
    isplitl [R155]; · iexact R155
    isplitl [R156]; · iexact R156
    isplitl [R157]; · iexact R157
    isplitl [R158]; · iexact R158
    isplitl [R159]; · iexact R159
    isplitl [R160]; · iexact R160
    isplitl [R161]; · iexact R161
    isplitl [R162]; · iexact R162
    isplitl [R163]; · iexact R163
    isplitl [R164]; · iexact R164
    isplitl [R165]; · iexact R165
    isplitl [R166]; · iexact R166
    isplitl [R167]; · iexact R167
    isplitl [R168]; · iexact R168
    isplitl [R169]; · iexact R169
    isplitl [R170]; · iexact R170
    isplitl [R171]; · iexact R171
    isplitl [R172]; · iexact R172
    isplitl [R173]; · iexact R173
    isplitl [R174]; · iexact R174
    isplitl [R175]; · iexact R175
    isplitl [R176]; · iexact R176
    isplitl [R177]; · iexact R177
    isplitl [R178]; · iexact R178
    iexact R179
  isplitl [C0 C1 C2 C3 C4 C5 C6 C7]
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  iexists _; iexact HO

end Cert.KernelIdeal.Unfold

end
-- ==== Proof.KiRows.lean ====
/-
  Geometry and values of the destination rows of the sliding-window copy kernel.

  Row (b, s) of the result is the set of indices y with y 0 = b and y 1 = s; the 180 rows of a batch row partition
  it, and the 16 batch rows partition the whole index set. After the copy of window s has landed, the result array
  holds, at an index (b, s, c) of that row, the input at (b, 800 * s + c).
-/
import proofs.«181463_j85426899517737_2_alg».proof.Proof.KiNames

noncomputable section

namespace Cert.KernelIdeal.Unfold

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The element set of a destination row -/

/-- A row's view, sliced out of the whole result and squeezed, covers exactly the unit rectangle at its offsets. -/
theorem dP_set (off : Fin 3 → Nat) (h : ∀ a, off a + S1x1x16000.size a ≤ S16x180x16000.size a) :
    (dP off h).view.set = (Rect.unit (s := S16x180x16000) off S1x1x16000.size h).set :=
  (View.set_reshape _ _).trans (View.set_slice_whole _ _)

/-- An index lies in destination row s of the point's batch row iff its first two coordinates are (b, s). -/
theorem mem_row (i : grid0.Coords) (s : Fin 180) (y : S16x180x16000.Idx) :
    y ∈ (Rect.unit (s := S16x180x16000) (dOff i s) S1x1x16000.size (dOff_inb i s)).set ↔ (y 0).val = (i 0).val ∧ (y 1).val = s.val := by
  rw [Rect.mem_set_unit]
  have e := coord_word i
  have h2 : (y 2).val < 16000 := (y 2).isLt
  constructor
  · intro H
    have a0 : (BitVec.ofNat 32 (i 0).val).toNat ≤ (y 0).val ∧ (y 0).val < (BitVec.ofNat 32 (i 0).val).toNat + 1 := H 0
    have a1 : s.val ≤ (y 1).val ∧ (y 1).val < s.val + 1 := H 1
    omega
  · intro H a; fin_cases a
    · show (BitVec.ofNat 32 (i 0).val).toNat ≤ (y 0).val ∧ (y 0).val < (BitVec.ofNat 32 (i 0).val).toNat + 1; omega
    · show s.val ≤ (y 1).val ∧ (y 1).val < s.val + 1; omega
    · show 0 ≤ (y 2).val ∧ (y 2).val < 0 + 16000; omega

/-! ## The partition of the result's index set into batch rows, and of a batch row into its 180 rows -/

/-- The indices of batch row b. -/
def batchSet (b : Fin 16) : Finset S16x180x16000.Idx := Finset.univ.filter (fun y => (y 0).val = b.val)
/-- The indices of row s of batch row b. -/
def rowSet (b : Fin 16) (s : Fin 180) : Finset S16x180x16000.Idx := Finset.univ.filter (fun y => (y 0).val = b.val ∧ (y 1).val = s.val)

theorem mem_batchSet (b : Fin 16) (y : S16x180x16000.Idx) : y ∈ batchSet b ↔ (y 0).val = b.val := by
  unfold batchSet; rw [Finset.mem_filter]; exact ⟨fun H => H.2, fun H => ⟨Finset.mem_univ _, H⟩⟩
theorem mem_rowSet (b : Fin 16) (s : Fin 180) (y : S16x180x16000.Idx) : y ∈ rowSet b s ↔ (y 0).val = b.val ∧ (y 1).val = s.val := by
  unfold rowSet; rw [Finset.mem_filter]; exact ⟨fun H => H.2, fun H => ⟨Finset.mem_univ _, H⟩⟩

theorem batch_disjoint : ∀ b b' : Fin 16, b ≠ b' → Disjoint (batchSet b) (batchSet b') := by
  intro b b' hne; rw [Finset.disjoint_left]; intro y hy hy'; rw [mem_batchSet] at hy hy'; exact hne (Fin.ext (hy.symm.trans hy'))
theorem batch_cover : (Finset.univ : Finset (Fin 16)).biUnion batchSet = Finset.univ := by
  ext y; simp only [Finset.mem_biUnion, Finset.mem_univ, true_and, iff_true]; exact ⟨(y 0).cast (by decide), by rw [mem_batchSet]; rfl⟩
theorem row_disjoint (b : Fin 16) : ∀ s s' : Fin 180, s ≠ s' → Disjoint (rowSet b s) (rowSet b s') := by
  intro s s' hne; rw [Finset.disjoint_left]; intro y hy hy'; rw [mem_rowSet] at hy hy'; exact hne (Fin.ext (hy.2.symm.trans hy'.2))
theorem row_cover (b : Fin 16) : (Finset.univ : Finset (Fin 180)).biUnion (rowSet b) = batchSet b := by
  ext y; simp only [Finset.mem_biUnion, Finset.mem_univ, true_and]; rw [mem_batchSet]
  constructor
  · rintro ⟨s, hs⟩; rw [mem_rowSet] at hs; exact hs.1
  · intro H; exact ⟨(y 1).cast (by decide), by rw [mem_rowSet]; exact ⟨H, rfl⟩⟩

/-- The element set of the view of destination row s is row s of the point's batch row. -/
theorem row_set_eq (i : grid0.Coords) (s : Fin 180) :
    (dP (dOff i s) (dOff_inb i s)).view.set = rowSet ⟨(i 0).val, (i 0).isLt⟩ s := by
  rw [dP_set]; ext y; rw [mem_row, mem_rowSet]

/-! ## The index maps of a destination row and of a source window

  A row's view places the index c of the row at (doff 0, doff 1, doff 2 + c) of the result: the squeeze puts back the two
  unit axes (coordinates 0, 0, c), the unit rectangle adds its offsets. A window's view places c at (soff 0, soff 1 + c). -/

/-- Squeezing [1, 1, n] to [n]: the index of the longer shape matched with x has x's coordinate last; -/
theorem squeeze3_val (h : S16000.numel = S1x1x16000.numel) (x : S16000.Idx) :
    ((Shape.reshapeEquiv h x : S1x1x16000.Idx) 2).val = (x 0).val := by
  have e := Shape.rowMajor_reshapeEquiv h x
  rw [Shape.rowMajor_val_three, Shape.rowMajor_val_one] at e
  have h0 : ((Shape.reshapeEquiv h x : S1x1x16000.Idx) 0).val < 1 := (Shape.reshapeEquiv h x 0).isLt
  have h1 : ((Shape.reshapeEquiv h x : S1x1x16000.Idx) 1).val < 1 := (Shape.reshapeEquiv h x 1).isLt
  have e' : (((Shape.reshapeEquiv h x : S1x1x16000.Idx) 0).val * 1 + ((Shape.reshapeEquiv h x : S1x1x16000.Idx) 1).val) * 16000
      + ((Shape.reshapeEquiv h x : S1x1x16000.Idx) 2).val = (x 0).val := e
  omega
/-- squeezing [1, n] to [n] likewise. -/
theorem squeeze2_val (h : S16000.numel = S1x16000.numel) (x : S16000.Idx) :
    ((Shape.reshapeEquiv h x : S1x16000.Idx) 1).val = (x 0).val := by
  have e := Shape.rowMajor_reshapeEquiv h x
  rw [Shape.rowMajor_val_two, Shape.rowMajor_val_one] at e
  have h0 : ((Shape.reshapeEquiv h x : S1x16000.Idx) 0).val < 1 := (Shape.reshapeEquiv h x 0).isLt
  have e' : ((Shape.reshapeEquiv h x : S1x16000.Idx) 0).val * 16000 + ((Shape.reshapeEquiv h x : S1x16000.Idx) 1).val = (x 0).val := e
  omega

/-- Where a row's view places the row's index x in the result. -/
def dEmb (off : Fin 3 → Nat) (h : ∀ a, off a + S1x1x16000.size a ≤ S16x180x16000.size a) (x : S16000.Idx) : S16x180x16000.Idx :=
  (Rect.unit (s := S16x180x16000) off S1x1x16000.size h).emb (Shape.reshapeEquiv squeezes_S1x1x16000_S16000.numel_eq x)
/-- Where a window's view places the window's index x in the input. -/
def sEmb (off : Fin 2 → Nat) (h : ∀ a, off a + S1x16000.size a ≤ S16x160000.size a) (x : S16000.Idx) : S16x160000.Idx :=
  (Rect.unit (s := S16x160000) off S1x16000.size h).emb (Shape.reshapeEquiv squeezes_S1x16000_S16000.numel_eq x)

theorem dEmb_val (off : Fin 3 → Nat) (h : ∀ a, off a + S1x1x16000.size a ≤ S16x180x16000.size a) (x : S16000.Idx) :
    (dEmb off h x 0).val = off 0 ∧ (dEmb off h x 1).val = off 1 ∧ (dEmb off h x 2).val = off 2 + (x 0).val := by
  have h0 : ((Shape.reshapeEquiv squeezes_S1x1x16000_S16000.numel_eq x : S1x1x16000.Idx) 0).val < 1 := (Shape.reshapeEquiv _ x 0).isLt
  have h1 : ((Shape.reshapeEquiv squeezes_S1x1x16000_S16000.numel_eq x : S1x1x16000.Idx) 1).val < 1 := (Shape.reshapeEquiv _ x 1).isLt
  have h2 := squeeze3_val squeezes_S1x1x16000_S16000.numel_eq x
  have e0 : (dEmb off h x 0).val = off 0 + 1 * ((Shape.reshapeEquiv squeezes_S1x1x16000_S16000.numel_eq x : S1x1x16000.Idx) 0).val := rfl
  have e1 : (dEmb off h x 1).val = off 1 + 1 * ((Shape.reshapeEquiv squeezes_S1x1x16000_S16000.numel_eq x : S1x1x16000.Idx) 1).val := rfl
  have e2 : (dEmb off h x 2).val = off 2 + 1 * ((Shape.reshapeEquiv squeezes_S1x1x16000_S16000.numel_eq x : S1x1x16000.Idx) 2).val := rfl
  omega
theorem sEmb_val (off : Fin 2 → Nat) (h : ∀ a, off a + S1x16000.size a ≤ S16x160000.size a) (x : S16000.Idx) :
    (sEmb off h x 0).val = off 0 ∧ (sEmb off h x 1).val = off 1 + (x 0).val := by
  have h0 : ((Shape.reshapeEquiv squeezes_S1x16000_S16000.numel_eq x : S1x16000.Idx) 0).val < 1 := (Shape.reshapeEquiv _ x 0).isLt
  have h1 := squeeze2_val squeezes_S1x16000_S16000.numel_eq x
  have e0 : (sEmb off h x 0).val = off 0 + 1 * ((Shape.reshapeEquiv squeezes_S1x16000_S16000.numel_eq x : S1x16000.Idx) 0).val := rfl
  have e1 : (sEmb off h x 1).val = off 1 + 1 * ((Shape.reshapeEquiv squeezes_S1x16000_S16000.numel_eq x : S1x16000.Idx) 1).val := rfl
  omega

/-! ## The value of the landed array inside the row -/

/-- Reading any contents of the result through a row's view: the contents at the place of the row's index. -/
theorem dP_read (c : Dev nD) (off : Fin 3 → Nat) (h : ∀ a, off a + S1x1x16000.size a ≤ S16x180x16000.size a)
    (f : Buf (Elt F) (outM.view.loc (c : Thread nD τ))) (x : S16000.Idx) :
    (dP off h).view.read (Elt F) f x = f (dEmb off h x) := rfl
/-- Reading any contents of the input through a window's view: the contents at the place of the window's index. -/
theorem sP_read (c : Dev nD) (off : Fin 2 → Nat) (h : ∀ a, off a + S1x16000.size a ≤ S16x160000.size a)
    (f : Buf (Elt F) (argM.view.loc (c : Thread nD τ))) (x : S16000.Idx) :
    (sP off h).view.read (Elt F) f x = f (sEmb off h x) := rfl

/-- At the place of the row's index x the landed array holds the input at the place of the window's index x: the one piece
    covers the whole row, so the row reads back the piece's payload, which is the window read as it is. -/
theorem landed_at (c : Dev nD) (doff : Fin 3 → Nat) (dh : ∀ a, doff a + S1x1x16000.size a ≤ S16x180x16000.size a)
    (soff : Fin 2 → Nat) (sh : ∀ a, soff a + S1x16000.size a ≤ S16x160000.size a)
    (X : Buf (Elt F) (argM.view.loc (c : Thread nD τ))) (Y : Buf (Elt F) (outM.view.loc (c : Thread nD τ))) (x : S16000.Idx) :
    landed c doff dh soff sh X Y (dEmb doff dh x) = X (sEmb soff sh x) :=
  (dP_read c doff dh (landed c doff dh soff sh X Y) x).symm.trans
    ((congrFun (View.read_writes_whole (dP doff dh).view Y (ReadAs.same.apply ((sP soff sh).view.read (Elt F) X))) x).trans
      (sP_read c soff sh X x))

/-- THE VALUE. Inside row (b, s) the landed array holds the input at (b, 800 * s + c): the index y = (b, s, c) of the row is
    the place of the row's index c, and the place of the window's index c is (b, 800 * s + c), where y is read from. -/
theorem landed_apply (c : Dev nD) (i : grid0.Coords) (s : Fin 180)
    (X : Buf (Elt F) (argM.view.loc (c : Thread nD τ))) (Y : Buf (Elt F) (outM.view.loc (c : Thread nD τ)))
    (y : S16x180x16000.Idx) (hy : (y 0).val = (i 0).val ∧ (y 1).val = s.val) :
    landed c (dOff i s) (dOff_inb i s) (sOff i s) (sOff_inb i s) X Y y = X (Cert.Unfold.srcIdx y) := by
  have ew := coord_word i
  let x : S16000.Idx := Idealize.ShloMosaic.ValueIdx.ix1 (n := 16000) ⟨(y 2).val, (y 2).isLt⟩
  have hx : (x 0).val = (y 2).val := rfl
  have ed : dEmb (dOff i s) (dOff_inb i s) x = y := by
    obtain ⟨e0, e1, e2⟩ := dEmb_val (dOff i s) (dOff_inb i s) x
    have d0 : dOff i s 0 = (BitVec.ofNat 32 (i 0).val).toNat := rfl
    have d1 : dOff i s 1 = s.val := rfl
    have d2 : dOff i s 2 = 0 := rfl
    funext a; apply Fin.ext; fin_cases a
    · show (dEmb (dOff i s) (dOff_inb i s) x 0).val = (y 0).val; omega
    · show (dEmb (dOff i s) (dOff_inb i s) x 1).val = (y 1).val; omega
    · show (dEmb (dOff i s) (dOff_inb i s) x 2).val = (y 2).val; omega
  have es : sEmb (sOff i s) (sOff_inb i s) x = Cert.Unfold.srcIdx y := by
    obtain ⟨e0, e1⟩ := sEmb_val (sOff i s) (sOff_inb i s) x
    have s0 : sOff i s 0 = (BitVec.ofNat 32 (i 0).val).toNat := rfl
    have s1 : sOff i s 1 = 800 * s.val := rfl
    have r0 := Cert.Unfold.srcIdx_row y
    have r1 := Cert.Unfold.srcIdx_col y
    funext a; apply Fin.ext; fin_cases a
    · show (sEmb (sOff i s) (sOff_inb i s) x 0).val = (Cert.Unfold.srcIdx y 0).val; omega
    · show (sEmb (sOff i s) (sOff_inb i s) x 1).val = (Cert.Unfold.srcIdx y 1).val; omega
  exact (congrArg (landed c (dOff i s) (dOff_inb i s) (sOff i s) (sOff_inb i s) X Y) ed.symm).trans
    ((landed_at c (dOff i s) (dOff_inb i s) (sOff i s) (sOff_inb i s) X Y x).trans (congrArg X es))

end Cert.KernelIdeal.Unfold

end
-- ==== Proof.KiOblig.lean ====
/-
  The invariant between grid points, and one point's obligation.

  Before point t the input holds its launch contents X and the result holds Y t: on the batch rows b < t the unfold
  of X (entry (b, s, c) is X at (b, 800 * s + c)), on the rows b ≥ t what the array held at launch; the eight
  semaphores are at zero. Point t touches batch row t only: the result array, held whole, is cut into the batch rows,
  batch row t into its 180 rows; the point's run lands window s of X in row s; inside row (t, s) the landed array is
  the unfold of X, on every other batch row Y t and Y (t + 1) agree; the pieces join to the array whole at Y (t + 1).
  The input is lent to the run as eight read shares beside a remainder, and joined back.
-/
import proofs.«181463_j85426899517737_2_alg».proof.Proof.KiBody
import proofs.«181463_j85426899517737_2_alg».proof.Proof.KiRows

noncomputable section

namespace Cert.KernelIdeal.Unfold

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ)

omit [FloatOps F] in
theorem entails_of_eq {P Q : sProp 𝕄} (e : P = Q) : P ⊢ Q := e ▸ .rfl

/-- The input's and the result's contents at launch. -/
abbrev X0 (c : Dev nD) : Buf (Elt F) (argM.view.loc (c : Thread nD τ)) := m ((c : Thread nD τ).loc main_arg0)
abbrev Y0 (c : Dev nD) : Buf (Elt F) (outM.view.loc (c : Thread nD τ)) := m ((c : Thread nD τ).loc main_v0)

/-- The result before point n: the unfold of the input on the batch rows below n, the launch contents on the others. -/
def Yt (c : Dev nD) (n : ℕ) : Buf (Elt F) (outM.view.loc (c : Thread nD τ)) :=
  fun y => if (y 0).val < n then X0 m c (Cert.Unfold.srcIdx y) else Y0 m c y

/-- The invariant before point n. -/
def Φt (c : Dev nD) (n : ℕ) : sProp 𝕄 :=
  iprop((argM.view.loc (c : Thread nD τ) ↦{fullShare} X0 m c) ∗ (outM.view.loc (c : Thread nD τ) ↦{fullShare} Yt m c n) ∗ cellsAt c)

/-! ## The grid point's batch row -/

/-- The grid has one axis: point t has coordinate t. -/
theorem coords_val : ∀ t : Fin cfg0.N, (grid0.coords t 0).val = t.val := by decide +kernel

/-- The batch row point t copies into. -/
def bOf (t : Fin cfg0.N) : Fin 16 := ⟨(grid0.coords t 0).val, (grid0.coords t 0).isLt⟩
theorem bOf_val (t : Fin cfg0.N) : (bOf t).val = t.val := coords_val t

/-! ## The result array cut into the point's rows and the other batch rows -/

/-- The batch rows other than the point's, each held by its elements at f. -/
def restAt (c : Dev nD) (t : Fin cfg0.N) (f : Buf (Elt F) (outM.view.loc (c : Thread nD τ))) : sProp 𝕄 :=
  bigSep (Finset.univ.erase (bOf t)) fun b => outM.view.loc (c : Thread nD τ) ↦[batchSet b]{fullShare} f

/-- The 180 rows of the point's batch row at f, as a family over s. -/
def rowsC (c : Dev nD) (i : grid0.Coords) (f : Fin 180 → Buf (Elt F) (outM.view.loc (c : Thread nD τ))) : sProp 𝕄 :=
  bigSep Finset.univ fun s : Fin 180 => rowP c (dOff i s) (dOff_inb i s) (f s)

/-- The array whole is the point's 180 rows beside the other batch rows. -/
theorem out_split (c : Dev nD) (t : Fin cfg0.N) (f : Buf (Elt F) (outM.view.loc (c : Thread nD τ))) :
    (outM.view.loc (c : Thread nD τ) ↦{fullShare} f : sProp 𝕄) = iprop(rowsC c (grid0.coords t) (fun _ => f) ∗ restAt c t f) := by
  unfold restAt rowsC
  rw [Ring.pointsTo_blocks (ℓ := outM.view.loc (c : Thread nD τ)) batchSet batch_disjoint batch_cover f, bigSep_univ_split (bOf t)]
  congr 1
  rw [← row_cover (bOf t)]
  refine (pointsTo_biUnion (ℓ := outM.view.loc (c : Thread nD τ)) (q := fullShare) (f := f) Finset.univ (rowSet (bOf t))
    (fun s _ s' _ h => row_disjoint (bOf t) s s' h)).trans ?_
  refine bigSep_congr fun s _ => ?_
  unfold bOf
  rw [← row_set_eq (grid0.coords t) s]

/-! ## The family over s is the chain the run is stated over -/

/-- s = 0 … 179, listed. -/
def rowList : List (Fin 180) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩, ⟨28, by decide⟩, ⟨29, by decide⟩, ⟨30, by decide⟩, ⟨31, by decide⟩, ⟨32, by decide⟩, ⟨33, by decide⟩, ⟨34, by decide⟩, ⟨35, by decide⟩, ⟨36, by decide⟩, ⟨37, by decide⟩, ⟨38, by decide⟩, ⟨39, by decide⟩, ⟨40, by decide⟩, ⟨41, by decide⟩, ⟨42, by decide⟩, ⟨43, by decide⟩, ⟨44, by decide⟩, ⟨45, by decide⟩, ⟨46, by decide⟩, ⟨47, by decide⟩, ⟨48, by decide⟩, ⟨49, by decide⟩, ⟨50, by decide⟩, ⟨51, by decide⟩, ⟨52, by decide⟩, ⟨53, by decide⟩, ⟨54, by decide⟩, ⟨55, by decide⟩, ⟨56, by decide⟩, ⟨57, by decide⟩, ⟨58, by decide⟩, ⟨59, by decide⟩, ⟨60, by decide⟩, ⟨61, by decide⟩, ⟨62, by decide⟩, ⟨63, by decide⟩, ⟨64, by decide⟩, ⟨65, by decide⟩, ⟨66, by decide⟩, ⟨67, by decide⟩, ⟨68, by decide⟩, ⟨69, by decide⟩, ⟨70, by decide⟩, ⟨71, by decide⟩, ⟨72, by decide⟩, ⟨73, by decide⟩, ⟨74, by decide⟩, ⟨75, by decide⟩, ⟨76, by decide⟩, ⟨77, by decide⟩, ⟨78, by decide⟩, ⟨79, by decide⟩, ⟨80, by decide⟩, ⟨81, by decide⟩, ⟨82, by decide⟩, ⟨83, by decide⟩, ⟨84, by decide⟩, ⟨85, by decide⟩, ⟨86, by decide⟩, ⟨87, by decide⟩, ⟨88, by decide⟩, ⟨89, by decide⟩, ⟨90, by decide⟩, ⟨91, by decide⟩, ⟨92, by decide⟩, ⟨93, by decide⟩, ⟨94, by decide⟩, ⟨95, by decide⟩, ⟨96, by decide⟩, ⟨97, by decide⟩, ⟨98, by decide⟩, ⟨99, by decide⟩, ⟨100, by decide⟩, ⟨101, by decide⟩, ⟨102, by decide⟩, ⟨103, by decide⟩, ⟨104, by decide⟩, ⟨105, by decide⟩, ⟨106, by decide⟩, ⟨107, by decide⟩, ⟨108, by decide⟩, ⟨109, by decide⟩, ⟨110, by decide⟩, ⟨111, by decide⟩, ⟨112, by decide⟩, ⟨113, by decide⟩, ⟨114, by decide⟩, ⟨115, by decide⟩, ⟨116, by decide⟩, ⟨117, by decide⟩, ⟨118, by decide⟩, ⟨119, by decide⟩, ⟨120, by decide⟩, ⟨121, by decide⟩, ⟨122, by decide⟩, ⟨123, by decide⟩, ⟨124, by decide⟩, ⟨125, by decide⟩, ⟨126, by decide⟩, ⟨127, by decide⟩, ⟨128, by decide⟩, ⟨129, by decide⟩, ⟨130, by decide⟩, ⟨131, by decide⟩, ⟨132, by decide⟩, ⟨133, by decide⟩, ⟨134, by decide⟩, ⟨135, by decide⟩, ⟨136, by decide⟩, ⟨137, by decide⟩, ⟨138, by decide⟩, ⟨139, by decide⟩, ⟨140, by decide⟩, ⟨141, by decide⟩, ⟨142, by decide⟩, ⟨143, by decide⟩, ⟨144, by decide⟩, ⟨145, by decide⟩, ⟨146, by decide⟩, ⟨147, by decide⟩, ⟨148, by decide⟩, ⟨149, by decide⟩, ⟨150, by decide⟩, ⟨151, by decide⟩, ⟨152, by decide⟩, ⟨153, by decide⟩, ⟨154, by decide⟩, ⟨155, by decide⟩, ⟨156, by decide⟩, ⟨157, by decide⟩, ⟨158, by decide⟩, ⟨159, by decide⟩, ⟨160, by decide⟩, ⟨161, by decide⟩, ⟨162, by decide⟩, ⟨163, by decide⟩, ⟨164, by decide⟩, ⟨165, by decide⟩, ⟨166, by decide⟩, ⟨167, by decide⟩, ⟨168, by decide⟩, ⟨169, by decide⟩, ⟨170, by decide⟩, ⟨171, by decide⟩, ⟨172, by decide⟩, ⟨173, by decide⟩, ⟨174, by decide⟩, ⟨175, by decide⟩, ⟨176, by decide⟩, ⟨177, by decide⟩, ⟨178, by decide⟩, ⟨179, by decide⟩]

theorem rowList_eq : List.finRange 180 = rowList := by decide +kernel
theorem rowList_univ : (Finset.univ : Finset (Fin 180)) = rowList.toFinset := by
  rw [← rowList_eq]; exact (List.toFinset_finRange 180).symm
theorem rowList_nodup : rowList.Nodup := rowList_eq ▸ List.nodup_finRange 180

theorem rowsC_eq (c : Dev nD) (i : grid0.Coords) (f : Buf (Elt F) (outM.view.loc (c : Thread nD τ))) :
    rowsC c i (fun _ => f) = rowsAt c i f :=
  (bigSep_univ_eq_bigSepL rowList rowList_univ rowList_nodup _).trans rfl

theorem rowsC_landed_eq (c : Dev nD) (i : grid0.Coords) (X : Buf (Elt F) (argM.view.loc (c : Thread nD τ)))
    (Y : Buf (Elt F) (outM.view.loc (c : Thread nD τ))) :
    rowsC c i (fun s => landed c (dOff i s) (dOff_inb i s) (sOff i s) (sOff_inb i s) X Y) = rowsLanded c i X Y :=
  (bigSep_univ_eq_bigSepL rowList rowList_univ rowList_nodup _).trans rfl

/-! ## From Y t to Y (t + 1) -/

/-- Inside the point's rows the landed array is Y (t + 1): the unfold of the input. -/
theorem rows_step (c : Dev nD) (t : Fin cfg0.N) :
    rowsC c (grid0.coords t) (fun s => landed c (dOff (grid0.coords t) s) (dOff_inb (grid0.coords t) s)
        (sOff (grid0.coords t) s) (sOff_inb (grid0.coords t) s) (X0 m c) (Yt m c t.val))
      = rowsC c (grid0.coords t) (fun _ => Yt m c (t.val + 1)) := by
  unfold rowsC
  refine bigSep_congr fun s _ => pointsTo_congr fun y hy => ?_
  rw [row_set_eq (grid0.coords t) s] at hy
  have hy' : (y 0).val = (grid0.coords t 0).val ∧ (y 1).val = s.val := (mem_rowSet _ s y).mp hy
  refine (landed_apply c (grid0.coords t) s (X0 m c) (Yt m c t.val) y hy').trans ?_
  have h0 : (y 0).val < t.val + 1 := by rw [hy'.1, coords_val t]; omega
  show X0 m c (Cert.Unfold.srcIdx y) = Yt m c (t.val + 1) y
  unfold Yt; rw [if_pos h0]

/-- On the other batch rows Y t and Y (t + 1) agree. -/
theorem rest_step (c : Dev nD) (t : Fin cfg0.N) : restAt c t (Yt m c t.val) = restAt c t (Yt m c (t.val + 1)) := by
  unfold restAt
  refine bigSep_congr fun b hb => pointsTo_congr fun y hy => ?_
  have hb' : b ≠ bOf t := (Finset.mem_erase.mp hb).1
  have hy' : (y 0).val = b.val := (mem_batchSet b y).mp hy
  have hne : (y 0).val ≠ t.val := by
    intro h; exact hb' (Fin.ext (by rw [bOf_val t, ← h, hy']))
  unfold Yt
  by_cases h : (y 0).val < t.val
  · rw [if_pos h, if_pos (by omega)]
  · rw [if_neg h, if_neg (by omega)]

/-! ## The input as eight read shares -/

theorem toks_eq (c : Dev nD) (X : Buf (Elt F) (argM.view.loc (c : Thread nD τ))) :
    (bigSep Finset.univ fun k : Fin 8 => (argM.view.loc (c : Thread nD τ) ↦{Transfers.shareTok fullShare 8 k} X : sProp 𝕄)) = toksAt c X :=
  (bigSep_univ_eq_bigSepL [(0 : Fin 8), 1, 2, 3, 4, 5, 6, 7] (by decide) (by decide) _).trans rfl

theorem toks_split (c : Dev nD) (X : Buf (Elt F) (argM.view.loc (c : Thread nD τ))) :
    (argM.view.loc (c : Thread nD τ) ↦{fullShare} X : sProp 𝕄)
      ⊢ iprop((argM.view.loc (c : Thread nD τ) ↦{Transfers.shareDrop fullShare 8} X) ∗ toksAt c X) :=
  (Transfers.pointsTo_toks_split (Ix := Unit) (Name := ℕ) (U := UU nD τ) (Lvl := ℕ) fullShare 8).trans
    (entails_of_eq (by rw [toks_eq c X]))
theorem toks_join (c : Dev nD) (X : Buf (Elt F) (argM.view.loc (c : Thread nD τ))) :
    iprop((argM.view.loc (c : Thread nD τ) ↦{Transfers.shareDrop fullShare 8} X) ∗ toksAt c X)
      ⊢ (argM.view.loc (c : Thread nD τ) ↦{fullShare} X : sProp 𝕄) :=
  (entails_of_eq (by rw [toks_eq c X])).trans
    (Transfers.pointsTo_toks_join (Ix := Unit) (Name := ℕ) (U := UU nD τ) (Lvl := ℕ) fullShare 8)

/-! ## The proof data and the obligation -/

/-- The pipeline stages no window: the proof data is the invariant alone. -/
def dats (_ : Fin 1) (c : Dev nD) : Dat τ (Elt F) Unit ℕ (UU nD τ) ℕ cfg0 c where
  A w := w.elim0
  after w := w.elim0
  Φ t := Φt m c t.val
  q w := w.elim0
  owed _ := 0

/-- The body table's entry at a point is the kernel on the two arrays and the ring — in two steps (the table's
    function, then its application), so that the kernel function itself is never unfolded. -/
theorem defs_tc : (defs₀ (F := F)) .tc cfg0.body
    = fun a => cc0__unfold_dma_kernel (F := F) (grid0.coords a.1) argM (Memref.isWhole_whole _) outM (Memref.isWhole_whole _) cc0_scratch0 := rfl
theorem prog_eq (t : Fin cfg0.N) : (defs₀ (F := F)) .tc cfg0.body (cfg0.bodyArgs t (cfg0.slots t))
    = cc0__unfold_dma_kernel (F := F) (grid0.coords t) argM (Memref.isWhole_whole _) outM (Memref.isWhole_whole _) cc0_scratch0 :=
  (congrFun defs_tc _).trans rfl

omit [FloatOps F] in
theorem noWindows (Ψ : Fin cfg0.W → sProp 𝕄) : bigSep Finset.univ Ψ = (BI.emp : sProp 𝕄) := rfl

set_option backward.isDefEq.respectTransparency.types false in
theorem body_obligation [∀ e, Nonempty (Elt F e)] (c : Dev nD) :
    BodyObligation (dats (F := F) m 0 c) (defs₀ (F := F)) 𝒱₀ () Set.univ := fun t => by
  rw [noWindows, noWindows]
  rw [show (dats m 0 c).Φ t.castSucc = Φt m c t.val from rfl, show (dats m 0 c).Φ t.succ = Φt m c (t.val + 1) from rfl]
  unfold Dat.owesAt Pipeline.owesWithin
  rw [show (dats m 0 c).owed t.castSucc = 0 from rfl, show (dats m 0 c).owed t.succ = 0 from rfl]
  unfold Φt
  rw [out_split c t (Yt m c t.val), out_split c t (Yt m c (t.val + 1)), rowsC_eq, ← rows_step m c t, rowsC_landed_eq, ← rest_step m c t]
  iintro ⟨⟨HA, ⟨HR, Hrest⟩, HC⟩, ⟨%W, -, HW⟩, -⟩
  ihave HT := (toks_split c (X0 m c)) $$ HA
  icases HT with ⟨Hdrop, HT⟩
  sl_rw [prog_eq t]
  iapply (bodyRun c (grid0.coords t) (X0 m c) (Yt m c t.val) W)
  isplitl [HT HR HC HW]
  · isplitl [HT]; · iexact HT
    isplitl [HR]; · iexact HR
    isplitl [HC]; · iexact HC
    iexact HW
  · iintro ⟨HT, HR, HC, ⟨%W', HW⟩⟩
    isplitl [Hdrop HT HR Hrest HC]
    · isplitl [Hdrop HT]
      · iapply (toks_join c (X0 m c))
        isplitl [Hdrop]; · iexact Hdrop
        iexact HT
      isplitl [HR Hrest]
      · isplitl [HR]; · iexact HR
        iexact Hrest
      iexact HC
    isplitl [HW]
    · iexists W'; isplitr; · ipureintro; exact fun _ _ => Or.inl trivial
      iexact HW
    iempintro

end Cert.KernelIdeal.Unfold

end
-- ==== Proof.KiRun.lean ====
/-
  The launch: the whole program's run from the per-point obligation.

  The program is the one region. The launch hands the kernel the two arrays whole at their launch contents and the
  eight semaphores at zero: that is the invariant before point 0 (no batch row is below 0, so Y 0 is the launch
  contents). After the last point every batch row is below 16, so Y 16 is the unfold of the input; the arrays' final
  contents are read off the invariant against the final memory: the input unchanged, the result the unfold of the input.
-/
import proofs.«181463_j85426899517737_2_alg».proof.Proof.KiOblig

noncomputable section

namespace Cert.KernelIdeal.Unfold

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

abbrev EP : Emb (UR sig nD τ) (MT nD τ sig Unit (Elt F) ℕ (UU nD τ) ℕ) := embL

/-- The kernel's own semaphores: the ring's eight. -/
abbrev osem : Fin 8 → SemLoc sig := fun k => .dma ⟨k.val, by have := k.isLt; show k.val < 8; omega⟩
theorem ownSemFacts : Pipeline.OwnSemFacts (cfg0.spec) osem := by decide

omit [FloatOps F] in
theorem ownSems0_eq (c : Dev nD) :
    (Pipeline.ownSems0 (Ix := Unit) (Name := ℕ) (U := UU nD τ) (Lvl := ℕ) (Val := Elt F) (τ := τ) osem c : sProp 𝕄) = cellsAt c := by
  unfold Pipeline.ownSems0
  exact (bigSep_univ_eq_bigSepL [(0 : Fin 8), 1, 2, 3, 4, 5, 6, 7] (by decide) (by decide) _).trans rfl

/-- Before the first point the result holds its launch contents; -/
theorem Yt_zero (c : Dev nD) : Yt m c 0 = Y0 m c := by
  funext y; unfold Yt; rw [if_neg (Nat.not_lt_zero _)]
/-- after the last, the unfold of the input. -/
theorem Yt_last (c : Dev nD) : Yt m c 16 = Cert.Unfold.G (X0 m c) := by
  funext y
  have h : (y 0).val < 16 := (y 0).isLt
  unfold Yt; rw [if_pos h]; rfl

/-- What the launch hands the kernel: the two arrays whole at their launch contents, the ring at zero. -/
def intoΦ (c : Dev nD) : sProp 𝕄 :=
  iprop((argM.view.loc (c : Thread nD τ) ↦{fullShare} X0 m c) ∗ (outM.view.loc (c : Thread nD τ) ↦{fullShare} Y0 m c)
    ∗ Pipeline.ownSems0 osem c)
/-- What the kernel hands back: the input as launched, the result the unfold of the input. -/
def outOfΦ (c : Dev nD) : sProp 𝕄 :=
  iprop((argM.view.loc (c : Thread nD τ) ↦{fullShare} X0 m c) ∗ (outM.view.loc (c : Thread nD τ) ↦{fullShare} Yt m c 16))

def u₀ : UU nD τ := (initOf (Pipeline.cells cfgs Cert.KernelIdeal.Gen.cellOf_inj) (Pipeline.launchToks cfgs Cert.KernelIdeal.Gen.cellOf_inj), 1)

/-- What the final memory holds on core c: the input as launched, the result the unfold of the input. -/
def QY (c : Dev nD) (s : MemSt nD τ sig (Elt F)) : Prop :=
  s.mem ((c : Thread nD τ).loc main_arg0) = m ((c : Thread nD τ).loc main_arg0)
    ∧ s.mem ((c : Thread nD τ).loc main_v0) = Cert.Unfold.G (m ((c : Thread nD τ).loc main_arg0))

set_option backward.isDefEq.respectTransparency.types false in
/-- From any memory with zero counters: every weakly fair execution of the program terminates, nothing faulting, with
    the input unchanged and the result the unfold of the input. -/
theorem run_main [∀ e, Nonempty (Elt F e)] :
    θ_run defs (onTc (τ := τ) (main (F := F))) (s₀ m ρ) (fun r => ∀ c : Dev nD, QY m c r.2) :=
  Pipeline.θ_run_region_kit cfgs (dats m) () (0 : Fin 1) launch0 ownSemFacts EP defs₀ 𝒱₀ m ρ main
    (hbody := fun c => (body_obligation m c).loose) (hshare := fun _ w => w.elim0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := intoΦ m) (Y := outOfΦ m)
    (Z := fun _ => iprop(emp))
    (hX := fun c => by
      rw [unscopedRest0_eq]
      unfold intoΦ
      iintro ⟨⟨H0, H1⟩, HS, -, -, -, -⟩; imodintro
      isplitl [H0 H1 HS]
      · isplitl [H0]; · iexact H0
        isplitl [H1]; · iexact H1
        iexact HS
      iempintro)
    (hin := fun c => by
      rw [scopedRest0_eq, show (dats m 0 c).Φ 0 = Φt m c 0 from rfl]
      unfold intoΦ Φt; rw [ownSems0_eq, Yt_zero]
      iintro ⟨⟨H0, H1, HS⟩, -⟩
      isplitl [H0]; · iexact H0
      isplitl [H1]; · iexact H1
      iexact HS)
    (hout := fun c => by
      rw [scopedRest0_eq, show (dats m 0 c).Φ (Fin.last cfg0.N) = Φt m c 16 from rfl, ownSems0_eq]
      unfold Φt outOfΦ
      iintro ⟨H0, H1, HS⟩
      isplitl [H0 H1]
      · isplitl [H0]; · iexact H0
        iexact H1
      isplitl [HS]; · iexact HS
      iempintro)
    (QY := QY m)
    (hY := fun c s' => by
      unfold outOfΦ
      rw [Yt_last]
      iintro ⟨⟨H0, H1⟩, -, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh c => (hh c).2)

end Cert.KernelIdeal.Unfold

end
-- ==== Proof.RefValue.lean ====
/-
  The reference's value: the gather of the input at the start indices 800 * s + c is the sliding-window unfold.
-/
import proofs.«181463_j85426899517737_2_alg».proof.Proof.Gen.ReferenceIdeal.Read
import proofs.«181463_j85426899517737_2_alg».proof.Proof.Spec
import Idealize.ShloMosaic.Lib.ValueIdx
import Idealize.ShloMosaic.Lib.DynamicIndex

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-- The sum of the two iotas at (s, c) is the word of 800 * s + c. -/
theorem v8_at (s : Fin 180) (c : Fin 16000) :
    val_main_v8 (F := F) (ix2 s c) = BitVec.ofNat 32 (800 * s.val + c.val) := by
  rw [val_main_v8_apply, val_main_v6_apply, val_main_v7_apply, val_main_v3_apply, val_main_v1_apply,
    val_main_v2_apply, val_main_c_apply, val_main_v0_apply, val_main_v5_apply, val_main_v4_apply]
  show BitVec.ofNat 32 s.val * BitVec.ofNat 32 800 + BitVec.ofNat 32 c.val = _
  rw [← BitVec.ofNat_mul, ← BitVec.ofNat_add, Nat.mul_comm]

/-- 800 * s + c is below 2 ^ 31. -/
theorem col_lt_pow (s : Fin 180) (c : Fin 16000) : 800 * s.val + c.val < 2 ^ 31 := by
  have := s.isLt; have := c.isLt; omega

/-- The start index at (s, c), after the wrap of a negative index (which never fires), is the word of 800 * s + c. -/
theorem v13_at (s : Fin 180) (c : Fin 16000) :
    val_main_v13 (F := F) (ix2 s c) = BitVec.ofNat 32 (800 * s.val + c.val) := by
  rw [val_main_v13_apply, val_main_v10_apply, val_main_v9_apply, val_main_c_0_apply, v8_at]
  have hlt : (BitVec.ofNat 32 (800 * s.val + c.val)).slt 0#32 = false := by
    simp only [BitVec.slt, BitVec.toInt_zero, decide_eq_false_iff_not, Int.not_lt]
    rw [toInt_ofNat_of_lt (col_lt_pow s c)]; omega
  show Scalar.select (BitVec.ofBool ((BitVec.ofNat 32 (800 * s.val + c.val)).slt 0#32)) _ _ = _
  rw [hlt]
  exact select_zero _ _

/-- The start-indices array at [s, c, 0] is the word of 800 * s + c. -/
theorem v14_at (s : Fin 180) (c : Fin 16000) (z : Fin 1) :
    val_main_v14 (F := F) (ix3 s c z) = BitVec.ofNat 32 (800 * s.val + c.val) := by
  rw [val_main_v14_apply]
  exact v13_at s c

section Gather
variable {α : Type}

local notation "gd" => gather_S16x160000_S180x16000x1_S16x180x16000_0_1_n_n_1_2_161

/-- The gather read at (b, s, c): row b of the operand at the start index idx[s, c, 0], when that word is a column k of the row
    (so that the clamp into [0, 159999] is the identity). -/
theorem gather_at (x : S16x160000.Idx → α) (idx : IVec S180x16000x1 32) (b : Fin 16) (s : Fin 180) (c : Fin 16000)
    (k : Nat) (hk : k < 160000) (h : idx (ix3 s c (0 : Fin 1)) = BitVec.ofNat 32 k) :
    Host.gather gd x idx (ix3 b s c) = x (ix2 b ⟨k, hk⟩) := by
  unfold Host.gather
  congr 1
  funext a
  refine Fin.ext ?_
  match a with
  | ⟨0, _⟩ =>
    show GatherDims.start gd (ix3 b s c) idx 0 + GatherDims.batchCoord gd (ix3 b s c) 0 + GatherDims.offCoord gd (ix3 b s c) 0 = b.val
    have h0 : (0 : Fin S16x160000.rank) ∉ GatherDims.startIndexMap gd := by decide
    have hk0 : (0 : Fin S16x160000.rank) ∈ GatherDims.sKept gd := by decide
    rw [GatherDims.batchCoord_eq_zero _ _ _ List.not_mem_nil]
    unfold GatherDims.start GatherDims.offCoord
    rw [dif_neg h0, dif_pos hk0, Nat.add_zero, Nat.zero_add]
    rfl
  | ⟨1, _⟩ =>
    show GatherDims.start gd (ix3 b s c) idx 1 + GatherDims.batchCoord gd (ix3 b s c) 1 + GatherDims.offCoord gd (ix3 b s c) 1 = k
    have h1 : (1 : Fin S16x160000.rank) ∈ GatherDims.startIndexMap gd := List.mem_singleton.mpr rfl
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos h1]
    have hsi : GatherDims.siIdx gd (ix3 b s c) ⟨List.idxOf (1 : Fin S16x160000.rank) (GatherDims.startIndexMap gd),
        List.idxOf_lt_length_iff.2 h1⟩ = ix3 s c (0 : Fin 1) := by
      funext e; refine Fin.ext ?_
      match e with
      | ⟨0, _⟩ => rfl
      | ⟨1, _⟩ => rfl
      | ⟨2, _⟩ => rfl
    rw [hsi, h, toInt_ofNat_of_lt (by omega)]
    show min (k : Int).toNat (160000 - 1) = k
    rw [Int.toNat_natCast]
    omega

end Gather

/-- THE REFERENCE'S VALUE: the gather at the start indices 800 * s + c is the sliding-window unfold of the input. -/
theorem val_eq_G (x0 : (⟨Cert.ReferenceIdeal.S16x160000, .f32⟩ : BufTy).Contents (Elt F)) :
    Cert.ReferenceIdeal.Read.val_main_v15 (F := F) x0 = Cert.Unfold.G x0 := by
  funext j
  obtain ⟨b, s, c, rfl⟩ : ∃ b s c, j = ix3 b s c := ⟨j 0, j 1, j 2, eq_ix3 j⟩
  unfold val_main_v15
  rw [gather_at x0 (val_main_v14 (F := F)) b s c (800 * s.val + c.val) (Cert.Unfold.col_lt s.isLt c.isLt) (v14_at s c 0)]
  rfl

end Cert.ReferenceIdeal.RefValue

end
-- ==== Proof.RefRun.lean ====
/-
  The reference's run: @main ends with its result at the sliding-window unfold of the argument, the argument unchanged.
  The generated run states the result as the operations' composed term of the argument; that term is the gather of the
  argument at the start indices 800 * s + c, which is the unfold.
-/
import proofs.«181463_j85426899517737_2_alg».proof.Defs
import proofs.«181463_j85426899517737_2_alg».proof.Proof.Gen.ReferenceIdeal.Read
import proofs.«181463_j85426899517737_2_alg».proof.Proof.Gen.Pre_finite_inputs
import proofs.«181463_j85426899517737_2_alg».proof.Proof.RefValue

noncomputable section

namespace Cert.ReferenceIdeal.RefValue

open Idealize.ShloMosaic Idealize.SL.Sem

/-- THE REFERENCE'S RUN: every weakly fair execution of @main terminates with the result at the sliding-window unfold of the
    argument's launch contents, the argument unchanged. -/
theorem run_G (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v15) = Cert.Unfold.G (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)) :=
  (θ_run (Cert.ReferenceIdeal.defs (F := Ideal)) _ _).mono
    (fun _ h c => ⟨(h c).1.trans ((Cert.ReferenceIdeal.Read.val_main_v15_eq (F := Ideal) _).trans (val_eq_G (F := Ideal) _)), (h c).2⟩)
    (Cert.ReferenceIdeal.Value.run (F := Ideal) m ρ)

/-- The reference runs and its argument ends unchanged. -/
theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.Value.run (F := Ideal) m ρ)

end Cert.ReferenceIdeal.RefValue

end
-- ==== Proof.lean ====
/-
  The sliding-window unfold: a copy kernel against a gather.

  The kernel's entry point takes img : f32[16, 160000] and returns f32[16, 180, 16000]; at grid point b it issues, for
  s = 0 … 179, one copy of the window [800 * s, 800 * s + 16000) of row b of img into row (b, s) of the result, through
  a ring of eight semaphores. The reference gathers img[b, 800 * s + c] by one gather over an index array built from
  two iotas. Both results are the same re-indexing of img (Proof/Spec.lean: entry (b, s, c) is img at (b, 800 * s + c)):
  no arithmetic touches an entry, so the two are equal over the extended reals with nothing asked of the inputs.

  The kernel's run (Proof/KiRun.lean, and Proof/KbRun.lean for the program read at words): every execution terminates,
  nothing faults, the input is unchanged and the result is the unfold of the input — from one grid point's run
  (Proof/KiBody.lean), the invariant between points (Proof/KiOblig.lean) and the geometry of the rows
  (Proof/KiRows.lean). The reference's run is read back operation by operation and its gather read at an index
  (Proof/RefValue.lean, Proof/RefRun.lean). The idealization rewrote nothing, so its claim is trivial.
-/
import proofs.«181463_j85426899517737_2_alg».proof.Defs
import proofs.«181463_j85426899517737_2_alg».proof.Proof.Gen.Kernel
import proofs.«181463_j85426899517737_2_alg».proof.Proof.Gen.KernelIdeal
import proofs.«181463_j85426899517737_2_alg».proof.Proof.Gen.ReferenceIdeal
import proofs.«181463_j85426899517737_2_alg».proof.Proof.Gen.Pre_finite_inputs
import proofs.«181463_j85426899517737_2_alg».proof.Proof.KbRun
import proofs.«181463_j85426899517737_2_alg».proof.Proof.KiRun
import proofs.«181463_j85426899517737_2_alg».proof.Proof.RefRun
import Idealize.ShloMosaic.Adequacy
import Idealize.ShloMosaic.Init

noncomputable section

namespace Cert.Proof

open Idealize.ShloMosaic Idealize.ShloMosaic.TcCoe Idealize.SL.Sem

/-- The program read at words runs and leaves its input unchanged. -/
theorem frame_k : Cert.frame_Kernel := fun m ρ _ =>
  (θ_run Cert.Kernel.defs _ _).mono (fun _ hh c => (hh c).1) (Cert.Kernel.Unfold.run_main (F := Bits) m ρ)

/-- The program read over the extended reals runs and leaves its input unchanged. -/
theorem frame_ki : Cert.frame_KernelIdeal := fun m ρ _ =>
  (θ_run Cert.KernelIdeal.defs _ _).mono (fun _ hh c => (hh c).1) (Cert.KernelIdeal.Unfold.run_main (F := Ideal) m ρ)

/-- From memories agreeing on the input, both programs end with the unfold of the input. -/
theorem algebraic : Cert.algebraic_KernelIdeal_ReferenceIdeal := by
  intro m ρ m' ρ' _ hagree
  refine ⟨fun c => Cert.Unfold.G (m ((c.tc : Thread Cert.KernelIdeal.nD Cert.KernelIdeal.τ).loc Cert.KernelIdeal.main_arg0)), ?_, ?_⟩
  · exact (θ_run Cert.KernelIdeal.defs _ _).mono (fun _ hh c => ⟨(hh c).2, (hh c).1⟩)
      (Cert.KernelIdeal.Unfold.run_main (F := Ideal) m ρ)
  · refine (θ_run Cert.ReferenceIdeal.defs _ _).mono (fun _ h c => ⟨(h c).1.trans ?_, (h c).2⟩)
      (Cert.ReferenceIdeal.RefValue.run_G m' ρ')
    rw [hagree c]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
